-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x300000 : Shape := ⟨2, ![2, 300000]⟩
abbrev S3x256x256 : Shape := ⟨3, ![3, 256, 256]⟩
abbrev S3x256 : Shape := ⟨2, ![3, 256]⟩
abbrev S3 : Shape := ⟨1, ![3]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S3x256 .f32) (main_v33 : IVec S_ 1) : IVec S_ 1 :=
  let main_v34 : FVec F S3x256 .f32 := Host.absf main_arg8
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  main_v38

def fn_part1 {F : FTy → Type} [FloatOps F] (main_arg5 : FVec F S3x256 .f32) (main_arg6 : FVec F S3 .f32) (main_arg7 : FVec F S3x256 .f32) (main_arg8 : FVec F S3x256 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg5
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3 .f32 := Host.absf main_arg6
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  let main_v29 : FVec F S3x256 .f32 := Host.absf main_arg7
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  fn_part2 (F := F) main_arg8 main_v33

def fn {F : FTy → Type} [FloatOps F] (main_arg0 : FVec F S100000x256 .f32) (main_arg1 : IVec S2x300000 32) (main_arg2 : FVec F S3x256x256 .f32) (main_arg3 : FVec F S3x256 .f32) (main_arg4 : FVec F S3x256x256 .f32) (main_arg5 : FVec F S3x256 .f32) (main_arg6 : FVec F S3 .f32) (main_arg7 : FVec F S3x256 .f32) (main_arg8 : FVec F S3x256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S3x256x256 .f32 := Host.absf main_arg2
  let main_cst_0 : FVec F S_ .f32 := constant S_ .f32 0x7F800000#32
  let main_v5 : FVec F S3x256x256 .f32 := broadcastInDim S3x256x256 ![] bcast_S_S3x256x256 main_cst_0
  let main_v6 : IVec S3x256x256 1 := cmpf .olt main_v4 main_v5
  let main_c_1 : IVec S_ 1 := constantI S_ 1 1#1
  let main_v7 : IVec S_ 1 := (fun x v => Host.reduce IntOp.andi x v reducesTo_S3x256x256_S_d0_1_2 h_S_) main_v6 main_c_1
  let main_v8 : IVec S_ 1 := andi main_v3 main_v7
  let main_v9 : FVec F S3x256 .f32 := Host.absf main_arg3
  let main_cst_2 : FVec F S_ .f32 := constant S_ .f32 0x7F800000#32
  let main_v10 : FVec F S3x256 .f32 := broadcastInDim S3x256 ![] bcast_S_S3x256 main_cst_2
  let main_v11 : IVec S3x256 1 := cmpf .olt main_v9 main_v10
  let main_c_3 : IVec S_ 1 := constantI S_ 1 1#1
  let main_v12 : IVec S_ 1 := (fun x v => Host.reduce IntOp.andi x v reducesTo_S3x256_S_d0_1 h_S_) main_v11 main_c_3
  let main_v13 : IVec S_ 1 := andi main_v8 main_v12
  let main_v14 : FVec F S3x256x256 .f32 := Host.absf main_arg4
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg5 main_arg6 main_arg7 main_arg8 main_v13 main_v16
-- ==== Kernel.lean ====
abbrev S100000x256 : Shape := ⟨2, ![100000, 256]⟩
abbrev S2x300000 : Shape := ⟨2, ![2, 300000]⟩
abbrev S3x256x256 : Shape := ⟨3, ![3, 256, 256]⟩
abbrev S3x256 : Shape := ⟨2, ![3, 256]⟩
abbrev S3 : Shape := ⟨1, ![3]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x256 : Shape := ⟨2, ![300000, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1 : Shape := ⟨1, ![1]⟩
abbrev S1x1 : Shape := ⟨2, ![1, 1]⟩
abbrev S2000x256 : Shape := ⟨2, ![2000, 256]⟩
abbrev S2000 : Shape := ⟨1, ![2000]⟩
abbrev S2000x1 : Shape := ⟨2, ![2000, 1]⟩

abbrev nBuf : Space → Nat
  | .hbm => 115
  | .vmem => 39
  | .smem => 0
  | _ => 0

abbrev bufTy : (tb : Table) → Fin (tcTables nBuf tb) → BufTy
  | .hbm, ⟨0, _⟩ => ⟨S100000x256, .f32⟩
  | .hbm, ⟨1, _⟩ => ⟨S2x300000, .i32⟩
  | .hbm, ⟨2, _⟩ => ⟨S3x256x256, .f32⟩
  | .hbm, ⟨3, _⟩ => ⟨S3x256, .f32⟩
  | .hbm, ⟨4, _⟩ => ⟨S3x256x256, .f32⟩
  | .hbm, ⟨5, _⟩ => ⟨S3x256, .f32⟩
  | .hbm, ⟨6, _⟩ => ⟨S3, .f32⟩
  | .hbm, ⟨7, _⟩ => ⟨S3x256, .f32⟩
  | .hbm, ⟨8, _⟩ => ⟨S3x256, .f32⟩
  | .hbm, ⟨9, _⟩ => ⟨S1x300000, .i32⟩
  | .hbm, ⟨10, _⟩ => ⟨S300000, .i32⟩
  | .hbm, ⟨11, _⟩ => ⟨S1x300000, .i32⟩
  | .hbm, ⟨12, _⟩ => ⟨S300000, .i32⟩
  | .hbm, ⟨13, _⟩ => ⟨S_, .i32⟩
  | .hbm, ⟨14, _⟩ => ⟨S300000, .i32⟩
  | .hbm, ⟨15, _⟩ => ⟨S300000, .i1⟩
  | .hbm, ⟨16, _⟩ => ⟨S_, .i32⟩
  | .hbm, ⟨17, _⟩ => ⟨S300000, .i32⟩
  | .hbm, ⟨18, _⟩ => ⟨S300000, .i32⟩
  | .hbm, ⟨19, _⟩ => ⟨S300000, .i32⟩
  | .hbm, ⟨20, _⟩ => ⟨S300000x1, .i32⟩
  | .hbm, ⟨21, _⟩ => ⟨S300000x256, .f32⟩
  | .hbm, ⟨22, _⟩ => ⟨S_, .f32⟩
  | .hbm, ⟨23, _⟩ => ⟨S100000x256, .f32⟩
  | .hbm, ⟨24, _⟩ => ⟨S300000x1, .i32⟩
  | .hbm, ⟨25, _⟩ => ⟨S100000x256, .f32⟩
  | .hbm, ⟨26, _⟩ => ⟨S1x256x256, .f32⟩
  | .hbm, ⟨27, _⟩ => ⟨S256x256, .f32⟩
  | .hbm, ⟨28, _⟩ => ⟨S1x256, .f32⟩
  | .hbm, ⟨29, _⟩ => ⟨S256, .f32⟩
  | .hbm, ⟨30, _⟩ => ⟨S1x256x256, .f32⟩
  | .hbm, ⟨31, _⟩ => ⟨S256x256, .f32⟩
  | .hbm, ⟨32, _⟩ => ⟨S1x256, .f32⟩
  | .hbm, ⟨33, _⟩ => ⟨S256, .f32⟩
  | .hbm, ⟨34, _⟩ => ⟨S1, .f32⟩
  | .hbm, ⟨35, _⟩ => ⟨S_, .f32⟩
  | .hbm, ⟨36, _⟩ => ⟨S1x256, .f32⟩
  | .hbm, ⟨37, _⟩ => ⟨S256, .f32⟩
  | .hbm, ⟨38, _⟩ => ⟨S1x256, .f32⟩
  | .hbm, ⟨39, _⟩ => ⟨S256, .f32⟩
  | .hbm, ⟨40, _⟩ => ⟨S1x256, .f32⟩
  | .hbm, ⟨41, _⟩ => ⟨S1x256, .f32⟩
  | .hbm, ⟨42, _⟩ => ⟨S1x256, .f32⟩
  | .hbm, ⟨43, _⟩ => ⟨S1x256, .f32⟩
  | .hbm, ⟨44, _⟩ => ⟨S1x1, .f32⟩
  | .hbm, ⟨45, _⟩ => ⟨S1x256, .f32⟩
  | .hbm, ⟨46, _⟩ => ⟨S100000x256, .f32⟩
  | .hbm, ⟨47, _⟩ => ⟨S_, .i32⟩
  | .hbm, ⟨48, _⟩ => ⟨S300000, .i32⟩
  | .hbm, ⟨49, _⟩ => ⟨S300000, .i1⟩
  | .hbm, ⟨50, _⟩ => ⟨S_, .i32⟩
  | .hbm, ⟨51, _⟩ => ⟨S300000, .i32⟩
  | .hbm, ⟨52, _⟩ => ⟨S300000, .i32⟩
  | .hbm, ⟨53, _⟩ => ⟨S300000, .i32⟩
  | .hbm, ⟨54, _⟩ => ⟨S300000x1, .i32⟩
  | .hbm, ⟨55, _⟩ => ⟨S300000x256, .f32⟩
  | .hbm, ⟨56, _⟩ => ⟨S_, .f32⟩
  | .hbm, ⟨57, _⟩ => ⟨S100000x256, .f32⟩
  | .hbm, ⟨58, _⟩ => ⟨S300000x1, .i32⟩
  | .hbm, ⟨59, _⟩ => ⟨S100000x256, .f32⟩
  | .hbm, ⟨60, _⟩ => ⟨S1x256x256, .f32⟩
  | .hbm, ⟨61, _⟩ => ⟨S256x256, .f32⟩
  | .hbm, ⟨62, _⟩ => ⟨S1x256, .f32⟩
  | .hbm, ⟨63, _⟩ => ⟨S256, .f32⟩
  | .hbm, ⟨64, _⟩ => ⟨S1x256x256, .f32⟩
  | .hbm, ⟨65, _⟩ => ⟨S256x256, .f32⟩
  | .hbm, ⟨66, _⟩ => ⟨S1x256, .f32⟩
  | .hbm, ⟨67, _⟩ => ⟨S256, .f32⟩
  | .hbm, ⟨68, _⟩ => ⟨S1, .f32⟩
  | .hbm, ⟨69, _⟩ => ⟨S_, .f32⟩
  | .hbm, ⟨70, _⟩ => ⟨S1x256, .f32⟩
  | .hbm, ⟨71, _⟩ => ⟨S256, .f32⟩
  | .hbm, ⟨72, _⟩ => ⟨S1x256, .f32⟩
  | .hbm, ⟨73, _⟩ => ⟨S256, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S1x256, .f32⟩
  | .hbm, ⟨78, _⟩ => ⟨S1x1, .f32⟩
  | .hbm, ⟨79, _⟩ => ⟨S1x256, .f32⟩
  | .hbm, ⟨80, _⟩ => ⟨S100000x256, .f32⟩
  | .hbm, ⟨81, _⟩ => ⟨S_, .i32⟩
  | .hbm, ⟨82, _⟩ => ⟨S300000, .i32⟩
  | .hbm, ⟨83, _⟩ => ⟨S300000, .i1⟩
  | .hbm, ⟨84, _⟩ => ⟨S_, .i32⟩
  | .hbm, ⟨85, _⟩ => ⟨S300000, .i32⟩
  | .hbm, ⟨86, _⟩ => ⟨S300000, .i32⟩
  | .hbm, ⟨87, _⟩ => ⟨S300000, .i32⟩
  | .hbm, ⟨88, _⟩ => ⟨S300000x1, .i32⟩
  | .hbm, ⟨89, _⟩ => ⟨S300000x256, .f32⟩
  | .hbm, ⟨90, _⟩ => ⟨S_, .f32⟩
  | .hbm, ⟨91, _⟩ => ⟨S100000x256, .f32⟩
  | .hbm, ⟨92, _⟩ => ⟨S300000x1, .i32⟩
  | .hbm, ⟨93, _⟩ => ⟨S100000x256, .f32⟩
  | .hbm, ⟨94, _⟩ => ⟨S1x256x256, .f32⟩
  | .hbm, ⟨95, _⟩ => ⟨S256x256, .f32⟩
  | .hbm, ⟨96, _⟩ => ⟨S1x256, .f32⟩
  | .hbm, ⟨97, _⟩ => ⟨S256, .f32⟩
  | .hbm, ⟨98, _⟩ => ⟨S1x256x256, .f32⟩
  | .hbm, ⟨99, _⟩ => ⟨S256x256, .f32⟩
  | .hbm, ⟨100, _⟩ => ⟨S1x256, .f32⟩
  | .hbm, ⟨101, _⟩ => ⟨S256, .f32⟩
  | .hbm, ⟨102, _⟩ => ⟨S1, .f32⟩
  | .hbm, ⟨103, _⟩ => ⟨S_, .f32⟩
  | .hbm, ⟨104, _⟩ => ⟨S1x256, .f32⟩
  | .hbm, ⟨105, _⟩ => ⟨S256, .f32⟩
  | .hbm, ⟨106, _⟩ => ⟨S1x256, .f32⟩
  | .hbm, ⟨107, _⟩ => ⟨S256, .f32⟩
  | .hbm, ⟨108, _⟩ => ⟨S1x256, .f32⟩
  | .hbm, ⟨109, _⟩ => ⟨S1x256, .f32⟩
  | .hbm, ⟨110, _⟩ => ⟨S1x256, .f32⟩
  | .hbm, ⟨111, _⟩ => ⟨S1x256, .f32⟩
  | .hbm, ⟨112, _⟩ => ⟨S1x1, .f32⟩
  | .hbm, ⟨113, _⟩ => ⟨S1x256, .f32⟩
  | .hbm, ⟨114, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x256, .f32⟩
  | .local _ .vmem, ⟨18, _⟩ => ⟨S1x256, .f32⟩
  | .local _ .vmem, ⟨19, _⟩ => ⟨S256x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x256, .f32⟩
  | .local _ .vmem, ⟨31, _⟩ => ⟨S1x256, .f32⟩
  | .local _ .vmem, ⟨32, _⟩ => ⟨S256x256, .f32⟩
  | .local _ .vmem, ⟨33, _⟩ => ⟨S1x256, .f32⟩
  | .local _ .vmem, ⟨34, _⟩ => ⟨S1x256, .f32⟩
  | .local _ .vmem, ⟨35, _⟩ => ⟨S1x256, .f32⟩
  | .local _ .vmem, ⟨36, _⟩ => ⟨S1x256, .f32⟩
  | .local _ .vmem, ⟨37, _⟩ => ⟨S2000x256, .f32⟩
  | .local _ .vmem, ⟨38, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_1 : Ref sig .tc := ⟨.hbm, 47, rfl⟩
abbrev main_v35 : Ref sig .tc := ⟨.hbm, 48, rfl⟩
abbrev main_v36 : Ref sig .tc := ⟨.hbm, 49, rfl⟩
abbrev main_c_2 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_c_4 : Ref sig .tc := ⟨.hbm, 81, rfl⟩
abbrev main_v66 : Ref sig .tc := ⟨.hbm, 82, rfl⟩
abbrev main_v67 : Ref sig .tc := ⟨.hbm, 83, rfl⟩
abbrev main_c_5 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_6 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  bcast_S_S100000x256 : S_.BroadcastsInDim S100000x256 (![] : Fin 0 → Fin S100000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  slices_S3_S1_0 : S3.Slices ![0] S1
  shapeCasts_S1_S_ : S1.ShapeCasts S_
  shapeCasts_S256_S1x256 : S256.ShapeCasts S1x256
  shapeCasts_S_S1x1 : S_.ShapeCasts S1x1
  bcast_S1x1_S1x256_0_1 : S1x1.BroadcastsInDim S1x256 (![0, 1] : Fin 2 → Fin S1x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  reduces_S2000x256_S2000 : S2000x256.Reduces [1] S2000
  shapeCasts_S2000_S2000x1 : S2000.ShapeCasts S2000x1
  broadcasts_S2000x1_S2000x256 : S2000x1.Broadcasts S2000x256
  slices_S3x256x256_S1x256x256_1_0_0 : S3x256x256.Slices ![1, 0, 0] S1x256x256
  slices_S3x256_S1x256_1_0 : S3x256.Slices ![1, 0] S1x256
  slices_S3_S1_1 : S3.Slices ![1] S1
  slices_S3x256x256_S1x256x256_2_0_0 : S3x256x256.Slices ![2, 0, 0] S1x256x256
  slices_S3x256_S1x256_2_0 : S3x256.Slices ![2, 0] S1x256
  slices_S3_S1_2 : S3.Slices ![2] S1
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S100000x256.size a
  hwx0_9 : ∀ i : grid0.Coords, EltTy.bits .f32 = 32 ∨ (Rect.block (s := S100000x256) S2000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x256.size a ≤ S100000x256.size a
  hwx1_9 : ∀ i : grid1.Coords, EltTy.bits .f32 = 32 ∨ (Rect.block (s := S100000x256) S2000x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S256x256.size a
  hwx2_4 : ∀ i : grid2.Coords, EltTy.bits .f32 = 32 ∨ (Rect.block (s := S256x256) S256x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x256.size a ≤ S100000x256.size a
  hwx2_9 : ∀ i : grid2.Coords, EltTy.bits .f32 = 32 ∨ (Rect.block (s := S100000x256) S2000x256.size (cc2_transform_9 i) (hinb2_9 i)).WholeWords (EltTy.packing .f32)

variable [Facts₀]

def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v34) S2000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v34) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v64) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v61) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v62) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v65) S2000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v65) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v75) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v90) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v81) S256x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v91) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v95) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v92) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v93) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v96) S2000x256.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x300000 : Shape := ⟨2, ![2, 300000]⟩
abbrev S3x256x256 : Shape := ⟨3, ![3, 256, 256]⟩
abbrev S3x256 : Shape := ⟨2, ![3, 256]⟩
abbrev S3 : Shape := ⟨1, ![3]⟩
abbrev S1x300000 : Shape := ⟨2, ![1, 300000]⟩
abbrev S300000 : Shape := ⟨1, ![300000]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩
abbrev S1 : Shape := ⟨1, ![1]⟩
abbrev S_ : Shape := ⟨0, ![]⟩
abbrev S300000x1 : Shape := ⟨2, ![300000, 1]⟩
abbrev S300000x256 : Shape := ⟨2, ![300000, 256]⟩
abbrev S100000 : Shape := ⟨1, ![100000]⟩
abbrev S100000x1 : Shape := ⟨2, ![100000, 1]⟩

abbrev nBuf : Space → Nat
  | .hbm => 241
  | .vmem => 0
  | .smem => 0
  | _ => 0

abbrev hbmTy0_0 (i : Nat) : BufTy := match i % 128 with
  | 0 => ⟨S100000x256, .f32⟩
  | 1 => ⟨S2x300000, .i32⟩
  | 2 => ⟨S3x256x256, .f32⟩
  | 3 => ⟨S3x256, .f32⟩
  | 4 => ⟨S3x256x256, .f32⟩
  | 5 => ⟨S3x256, .f32⟩
  | 6 => ⟨S3, .f32⟩
  | 7 => ⟨S3x256, .f32⟩
  | 8 => ⟨S3x256, .f32⟩
  | 9 => ⟨S1x300000, .i32⟩
  | 10 => ⟨S300000, .i32⟩
  | 11 => ⟨S1x300000, .i32⟩
  | 12 => ⟨S300000, .i32⟩
  | 13 => ⟨S1x256x256, .f32⟩
  | 14 => ⟨S256x256, .f32⟩
  | 15 => ⟨S1x256, .f32⟩
  | 16 => ⟨S256, .f32⟩
  | 17 => ⟨S1x256x256, .f32⟩
  | 18 => ⟨S256x256, .f32⟩
  | 19 => ⟨S1x256, .f32⟩
  | 20 => ⟨S256, .f32⟩
  | 21 => ⟨S1, .f32⟩
  | 22 => ⟨S_, .f32⟩
  | 23 => ⟨S1x256, .f32⟩
  | 24 => ⟨S256, .f32⟩
  | 25 => ⟨S1x256, .f32⟩
  | 26 => ⟨S256, .f32⟩
  | 27 => ⟨S_, .i32⟩
  | 28 => ⟨S300000, .i32⟩
  | 29 => ⟨S300000, .i1⟩
  | 30 => ⟨S_, .i32⟩
  | 31 => ⟨S300000, .i32⟩
  | 32 => ⟨S300000, .i32⟩
  | 33 => ⟨S300000, .i32⟩
  | 34 => ⟨S300000x1, .i32⟩
  | 35 => ⟨S300000x256, .f32⟩
  | 36 => ⟨S_, .f32⟩
  | 37 => ⟨S100000x256, .f32⟩
  | 38 => ⟨S300000x1, .i32⟩
  | 39 => ⟨S100000x256, .f32⟩
  | 40 => ⟨S_, .f32⟩
  | 41 => ⟨S_, .f32⟩
  | 42 => ⟨S100000x256, .f32⟩
  | 43 => ⟨S100000x256, .f32⟩
  | 44 => ⟨S100000x256, .f32⟩
  | 45 => ⟨S100000x256, .f32⟩
  | 46 => ⟨S1x256, .f32⟩
  | 47 => ⟨S100000x256, .f32⟩
  | 48 => ⟨S100000x256, .f32⟩
  | 49 => ⟨S_, .f32⟩
  | 50 => ⟨S100000x256, .f32⟩
  | 51 => ⟨S100000x256, .f32⟩
  | 52 => ⟨S100000x256, .f32⟩
  | 53 => ⟨S1x256, .f32⟩
  | 54 => ⟨S100000x256, .f32⟩
  | 55 => ⟨S100000x256, .f32⟩
  | 56 => ⟨S100000x256, .f32⟩
  | 57 => ⟨S_, .f32⟩
  | 58 => ⟨S100000, .f32⟩
  | 59 => ⟨S100000x1, .f32⟩
  | 60 => ⟨S_, .f32⟩
  | 61 => ⟨S100000x1, .f32⟩
  | 62 => ⟨S100000x1, .f32⟩
  | 63 => ⟨S100000x256, .f32⟩
  | 64 => ⟨S100000x256, .f32⟩
  | 65 => ⟨S100000x256, .f32⟩
  | 66 => ⟨S_, .f32⟩
  | 67 => ⟨S100000, .f32⟩
  | 68 => ⟨S100000x1, .f32⟩
  | 69 => ⟨S_, .f32⟩
  | 70 => ⟨S100000x1, .f32⟩
  | 71 => ⟨S100000x1, .f32⟩
  | 72 => ⟨S100000x256, .f32⟩
  | 73 => ⟨S100000x256, .f32⟩
  | 74 => ⟨S_, .f32⟩
  | 75 => ⟨S100000x1, .f32⟩
  | 76 => ⟨S100000x1, .f32⟩
  | 77 => ⟨S100000x1, .f32⟩
  | 78 => ⟨S100000x256, .f32⟩
  | 79 => ⟨S100000x256, .f32⟩
  | 80 => ⟨S1x256, .f32⟩
  | 81 => ⟨S100000x256, .f32⟩
  | 82 => ⟨S100000x256, .f32⟩
  | 83 => ⟨S1x256, .f32⟩
  | 84 => ⟨S100000x256, .f32⟩
  | 85 => ⟨S100000x256, .f32⟩
  | 86 => ⟨S_, .f32⟩
  | 87 => ⟨S100000x256, .f32⟩
  | 88 => ⟨S100000x256, .f32⟩
  | 89 => ⟨S1x256x256, .f32⟩
  | 90 => ⟨S256x256, .f32⟩
  | 91 => ⟨S1x256, .f32⟩
  | 92 => ⟨S256, .f32⟩
  | 93 => ⟨S1x256x256, .f32⟩
  | 94 => ⟨S256x256, .f32⟩
  | 95 => ⟨S1x256, .f32⟩
  | 96 => ⟨S256, .f32⟩
  | 97 => ⟨S1, .f32⟩
  | 98 => ⟨S_, .f32⟩
  | 99 => ⟨S1x256, .f32⟩
  | 100 => ⟨S256, .f32⟩
  | 101 => ⟨S1x256, .f32⟩
  | 102 => ⟨S256, .f32⟩
  | 103 => ⟨S_, .i32⟩
  | 104 => ⟨S300000, .i32⟩
  | 105 => ⟨S300000, .i1⟩
  | 106 => ⟨S_, .i32⟩
  | 107 => ⟨S300000, .i32⟩
  | 108 => ⟨S300000, .i32⟩
  | 109 => ⟨S300000, .i32⟩
  | 110 => ⟨S300000x1, .i32⟩
  | 111 => ⟨S300000x256, .f32⟩
  | 112 => ⟨S_, .f32⟩
  | 113 => ⟨S100000x256, .f32⟩
  | 114 => ⟨S300000x1, .i32⟩
  | 115 => ⟨S100000x256, .f32⟩
  | 116 => ⟨S_, .f32⟩
  | 117 => ⟨S_, .f32⟩
  | 118 => ⟨S100000x256, .f32⟩
  | 119 => ⟨S100000x256, .f32⟩
  | 120 => ⟨S100000x256, .f32⟩
  | 121 => ⟨S100000x256, .f32⟩
  | 122 => ⟨S1x256, .f32⟩
  | 123 => ⟨S100000x256, .f32⟩
  | 124 => ⟨S100000x256, .f32⟩
  | 125 => ⟨S_, .f32⟩
  | 126 => ⟨S100000x256, .f32⟩
  | 127 => ⟨S100000x256, .f32⟩
  | _ => ⟨S100000x256, .f32⟩

abbrev hbmTy0_1 (i : Nat) : BufTy := match i % 128 with
  | 0 => ⟨S100000x256, .f32⟩
  | 1 => ⟨S1x256, .f32⟩
  | 2 => ⟨S100000x256, .f32⟩
  | 3 => ⟨S100000x256, .f32⟩
  | 4 => ⟨S100000x256, .f32⟩
  | 5 => ⟨S_, .f32⟩
  | 6 => ⟨S100000, .f32⟩
  | 7 => ⟨S100000x1, .f32⟩
  | 8 => ⟨S_, .f32⟩
  | 9 => ⟨S100000x1, .f32⟩
  | 10 => ⟨S100000x1, .f32⟩
  | 11 => ⟨S100000x256, .f32⟩
  | 12 => ⟨S100000x256, .f32⟩
  | 13 => ⟨S100000x256, .f32⟩
  | 14 => ⟨S_, .f32⟩
  | 15 => ⟨S100000, .f32⟩
  | 16 => ⟨S100000x1, .f32⟩
  | 17 => ⟨S_, .f32⟩
  | 18 => ⟨S100000x1, .f32⟩
  | 19 => ⟨S100000x1, .f32⟩
  | 20 => ⟨S100000x256, .f32⟩
  | 21 => ⟨S100000x256, .f32⟩
  | 22 => ⟨S_, .f32⟩
  | 23 => ⟨S100000x1, .f32⟩
  | 24 => ⟨S100000x1, .f32⟩
  | 25 => ⟨S100000x1, .f32⟩
  | 26 => ⟨S100000x256, .f32⟩
  | 27 => ⟨S100000x256, .f32⟩
  | 28 => ⟨S1x256, .f32⟩
  | 29 => ⟨S100000x256, .f32⟩
  | 30 => ⟨S100000x256, .f32⟩
  | 31 => ⟨S1x256, .f32⟩
  | 32 => ⟨S100000x256, .f32⟩
  | 33 => ⟨S100000x256, .f32⟩
  | 34 => ⟨S_, .f32⟩
  | 35 => ⟨S100000x256, .f32⟩
  | 36 => ⟨S100000x256, .f32⟩
  | 37 => ⟨S1x256x256, .f32⟩
  | 38 => ⟨S256x256, .f32⟩
  | 39 => ⟨S1x256, .f32⟩
  | 40 => ⟨S256, .f32⟩
  | 41 => ⟨S1x256x256, .f32⟩
  | 42 => ⟨S256x256, .f32⟩
  | 43 => ⟨S1x256, .f32⟩
  | 44 => ⟨S256, .f32⟩
  | 45 => ⟨S1, .f32⟩
  | 46 => ⟨S_, .f32⟩
  | 47 => ⟨S1x256, .f32⟩
  | 48 => ⟨S256, .f32⟩
  | 49 => ⟨S1x256, .f32⟩
  | 50 => ⟨S256, .f32⟩
  | 51 => ⟨S_, .i32⟩
  | 52 => ⟨S300000, .i32⟩
  | 53 => ⟨S300000, .i1⟩
  | 54 => ⟨S_, .i32⟩
  | 55 => ⟨S300000, .i32⟩
  | 56 => ⟨S300000, .i32⟩
  | 57 => ⟨S300000, .i32⟩
  | 58 => ⟨S300000x1, .i32⟩
  | 59 => ⟨S300000x256, .f32⟩
  | 60 => ⟨S_, .f32⟩
  | 61 => ⟨S100000x256, .f32⟩
  | 62 => ⟨S300000x1, .i32⟩
  | 63 => ⟨S100000x256, .f32⟩
  | 64 => ⟨S_, .f32⟩
  | 65 => ⟨S_, .f32⟩
  | 66 => ⟨S100000x256, .f32⟩
  | 67 => ⟨S100000x256, .f32⟩
  | 68 => ⟨S100000x256, .f32⟩
  | 69 => ⟨S100000x256, .f32⟩
  | 70 => ⟨S1x256, .f32⟩
  | 71 => ⟨S100000x256, .f32⟩
  | 72 => ⟨S100000x256, .f32⟩
  | 73 => ⟨S_, .f32⟩
  | 74 => ⟨S100000x256, .f32⟩
  | 75 => ⟨S100000x256, .f32⟩
  | 76 => ⟨S100000x256, .f32⟩
  | 77 => ⟨S1x256, .f32⟩
  | 78 => ⟨S100000x256, .f32⟩
  | 79 => ⟨S100000x256, .f32⟩
  | 80 => ⟨S100000x256, .f32⟩
  | 81 => ⟨S_, .f32⟩
  | 82 => ⟨S100000, .f32⟩
  | 83 => ⟨S100000x1, .f32⟩
  | 84 => ⟨S_, .f32⟩
  | 85 => ⟨S100000x1, .f32⟩
  | 86 => ⟨S100000x1, .f32⟩
  | 87 => ⟨S100000x256, .f32⟩
  | 88 => ⟨S100000x256, .f32⟩
  | 89 => ⟨S100000x256, .f32⟩
  | 90 => ⟨S_, .f32⟩
  | 91 => ⟨S100000, .f32⟩
  | 92 => ⟨S100000x1, .f32⟩
  | 93 => ⟨S_, .f32⟩
  | 94 => ⟨S100000x1, .f32⟩
  | 95 => ⟨S100000x1, .f32⟩
  | 96 => ⟨S100000x256, .f32⟩
  | 97 => ⟨S100000x256, .f32⟩
  | 98 => ⟨S_, .f32⟩
  | 99 => ⟨S100000x1, .f32⟩
  | 100 => ⟨S100000x1, .f32⟩
  | 101 => ⟨S100000x1, .f32⟩
  | 102 => ⟨S100000x256, .f32⟩
  | 103 => ⟨S100000x256, .f32⟩
  | 104 => ⟨S1x256, .f32⟩
  | 105 => ⟨S100000x256, .f32⟩
  | 106 => ⟨S100000x256, .f32⟩
  | 107 => ⟨S1x256, .f32⟩
  | 108 => ⟨S100000x256, .f32⟩
  | 109 => ⟨S100000x256, .f32⟩
  | 110 => ⟨S_, .f32⟩
  | 111 => ⟨S100000x256, .f32⟩
  | 112 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_call0_cst : Ref sig .tc := ⟨.hbm, 49, rfl⟩
abbrev main_call0_v0 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_2 : Ref sig .tc := ⟨.hbm, 57, rfl⟩
abbrev main_v42 : Ref sig .tc := ⟨.hbm, 58, rfl⟩
abbrev main_v43 : Ref sig .tc := ⟨.hbm, 59, rfl⟩
abbrev main_cst_3 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_4 : Ref sig .tc := ⟨.hbm, 66, rfl⟩
abbrev main_v49 : Ref sig .tc := ⟨.hbm, 67, rfl⟩
abbrev main_v50 : Ref sig .tc := ⟨.hbm, 68, rfl⟩
abbrev main_cst_5 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_6 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_call1_cst : Ref sig .tc := ⟨.hbm, 86, rfl⟩
abbrev main_call1_v0 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_c_7 : Ref sig .tc := ⟨.hbm, 103, rfl⟩
abbrev main_v81 : Ref sig .tc := ⟨.hbm, 104, rfl⟩
abbrev main_v82 : Ref sig .tc := ⟨.hbm, 105, rfl⟩
abbrev main_c_8 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_9 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_10 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_call2_cst : Ref sig .tc := ⟨.hbm, 125, rfl⟩
abbrev main_call2_v0 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_11 : Ref sig .tc := ⟨.hbm, 133, rfl⟩
abbrev main_v105 : Ref sig .tc := ⟨.hbm, 134, rfl⟩
abbrev main_v106 : Ref sig .tc := ⟨.hbm, 135, rfl⟩
abbrev main_cst_12 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_13 : Ref sig .tc := ⟨.hbm, 142, rfl⟩
abbrev main_v112 : Ref sig .tc := ⟨.hbm, 143, rfl⟩
abbrev main_v113 : Ref sig .tc := ⟨.hbm, 144, rfl⟩
abbrev main_cst_14 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_15 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_call3_cst : Ref sig .tc := ⟨.hbm, 162, rfl⟩
abbrev main_call3_v0 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_c_16 : Ref sig .tc := ⟨.hbm, 179, rfl⟩
abbrev main_v144 : Ref sig .tc := ⟨.hbm, 180, rfl⟩
abbrev main_v145 : Ref sig .tc := ⟨.hbm, 181, rfl⟩
abbrev main_c_17 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_cst_18 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_cst_19 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_call4_cst : Ref sig .tc := ⟨.hbm, 201, rfl⟩
abbrev main_call4_v0 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_cst_20 : Ref sig .tc := ⟨.hbm, 209, rfl⟩
abbrev main_v168 : Ref sig .tc := ⟨.hbm, 210, rfl⟩
abbrev main_v169 : Ref sig .tc := ⟨.hbm, 211, rfl⟩
abbrev main_cst_21 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_cst_22 : Ref sig .tc := ⟨.hbm, 218, rfl⟩
abbrev main_v175 : Ref sig .tc := ⟨.hbm, 219, rfl⟩
abbrev main_v176 : Ref sig .tc := ⟨.hbm, 220, rfl⟩
abbrev main_cst_23 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_cst_24 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_call5_cst : Ref sig .tc := ⟨.hbm, 238, rfl⟩
abbrev main_call5_v0 : Ref sig .tc := ⟨.hbm, 239, rfl⟩
abbrev main_v192 : Ref sig .tc := ⟨.hbm, 240, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  slices_S3_S1_0 : S3.Slices ![0] S1
  shapeCasts_S1_S_ : S1.ShapeCasts S_
  bcast_S_S300000 : S_.BroadcastsInDim S300000 (![] : Fin 0 → Fin S300000.rank)
  bcast_S300000_S300000x1_0 : S300000.BroadcastsInDim S300000x1 (![0] : Fin 1 → Fin S300000x1.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  slices_S3x256x256_S1x256x256_1_0_0 : S3x256x256.Slices ![1, 0, 0] S1x256x256
  slices_S3x256_S1x256_1_0 : S3x256.Slices ![1, 0] S1x256
  slices_S3_S1_1 : S3.Slices ![1] S1
  slices_S3x256x256_S1x256x256_2_0_0 : S3x256x256.Slices ![2, 0, 0] S1x256x256
  slices_S3x256_S1x256_2_0 : S3x256.Slices ![2, 0] S1x256
  slices_S3_S1_2 : S3.Slices ![2] S1
  gather_S100000x256_S300000x1_S300000x256_1_0_n_n_0_1_1256_wf : GatherDims.WF S100000x256 S300000x1 S300000x256 [1] [0] [] [0] [] 1 ![1, 256]
  scatter_S100000x256_S300000x1_S300000x256_1_0_0_1_wf : ScatterDims.WF S100000x256 S300000x1 S300000x256 [1] [0] [0] 1
  dot_S100000x256_S256x256_S100000x256_1_0_0_1_n_n_wf : DotDims.WF S100000x256 S256x256 S100000x256 [1] [0] [0] [1] [] []

variable [Facts₀]

def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.KernelRun.lean ====
/-
  The kernel program's run, with the result read off its final state.

  From any launch memory with zero counters, every weakly fair execution of the kernel program on the TensorCores
  terminates without a fault, and its final state holds every unscoped buffer at the contents the run's fold through
  the program computes: the host operations before the first call applied to the launch memory, the first call's
  arrays at what its pipeline leaves, and so on through the third call. The frame certificate reads that final
  state at the nine argument buffers, which the fold carries back to the launch memory. Here the same run is read at
  one more buffer, the program's result, where the fold's final contents are the value the program computes.
-/
import proofs.«136586_j78194174591254_1_alg».proof.Proof.Gen.KernelIdeal.Frame

set_option maxRecDepth 16384

noncomputable section

namespace Cert.Gin.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the launch lemma's implicit arguments are found by unifying its conclusion with this one, which takes unfolding
-- plain definitions in a metavariable's type
set_option backward.isDefEq.respectTransparency.types false in
/-- The run of the kernel program: it terminates, nothing faulting; in every final state the result buffer holds the
    fold's final contents and the nine argument buffers hold what they were launched with. The run is the frame's
    run over the same segments; the last thread state, which holds every unscoped buffer at the fold's final
    contents, is read against the final state at the result buffer as well as at the arguments. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
        r.2.mem ((c.tc : Thread nD τ).loc main_v96) = W6 m ρ c (Proc.devRef .tc main_v96)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v96 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.Gin.KRun

end
-- ==== Proof.GinRow.lean ====
/-
  One layer of the network, read along one node's row.

  Once the neighbours' features have been summed into each node (the aggregated array), a layer treats every node
  separately: node p's new feature row is a function of p's own row x, p's aggregated row a, and the layer's
  parameters only. With 256 features per node,

      z = (1 + ε) ⊙ x + a                      the mixed input row
      u = max (z · W₁ + b₁, 0)                 the hidden row
      r = u · W₂ + b₂ + x                      the residual row
      μ = (Σ r) / 256,   v = (Σ (r − μ)²) / 256
      new row = max ((r − μ) · rsqrt (v + 1e-5) ⊙ γ + β, 0)

  on the extended reals: sums are finite sums, the quotient and the reciprocal square root are the extended-real ones,
  and each constant is the exact value of its 32-bit word (1, 256, the word nearest 1e-5, and 0). The parameters of
  layer l are slice l of the stacked parameter arrays; the scalar ε of a layer is used as a constant row.
-/
import Idealize.ShloMosaic.PureOps.Ideal
import Idealize.ShloMosaic.Lib.ValueIdx

noncomputable section

open scoped BigOperators

namespace Cert.Gin

open Idealize.ShloMosaic Idealize.ShloMosaic.ValueIdx

/-- The mixed input row `(1 + ε) ⊙ x + a` at feature `k`. -/
def mix (x a e : Fin 256 → EReal) (k : Fin 256) : EReal :=
  (Ideal.ofBits .f32 0x3F800000#32 + e k) * x k + a k

/-- The hidden row `max (z · W₁ + b₁, 0)` at feature `k`. -/
def hidden (x a : Fin 256 → EReal) (w1 : Fin 256 → Fin 256 → EReal) (b1 e : Fin 256 → EReal) (k : Fin 256) : EReal :=
  max ((∑ c : Fin 256, mix x a e c * w1 c k) + b1 k) (Ideal.ofBits .f32 0x00000000#32)

/-- The residual row `u · W₂ + b₂ + x` at feature `k`. -/
def resid (x a : Fin 256 → EReal) (w1 : Fin 256 → Fin 256 → EReal) (b1 : Fin 256 → EReal)
    (w2 : Fin 256 → Fin 256 → EReal) (b2 e : Fin 256 → EReal) (k : Fin 256) : EReal :=
  ((∑ c : Fin 256, hidden x a w1 b1 e c * w2 c k) + b2 k) + x k

/-- The mean of a row of 256 extended reals: the sum divided by 256. -/
def mean (r : Fin 256 → EReal) : EReal :=
  Ideal.div (∑ k : Fin 256, r k) (Ideal.ofBits .f32 0x43800000#32)

/-- A row normalised by its own mean and variance, scaled by `γ`, shifted by `β`, and cut off below at 0. -/
def normRelu (r g bt : Fin 256 → EReal) (q : Fin 256) : EReal :=
  max ((((r q - mean r) * Ideal.rsqrt (mean (fun k => (r k - mean r) * (r k - mean r)) + Ideal.ofBits .f32 0x3727C5AC#32))
    * g q) + bt q) (Ideal.ofBits .f32 0x00000000#32)

/-- **One layer along a row**: the new feature `q` of a node whose feature row is `x` and whose aggregated row is `a`. -/
def ginRow (x a : Fin 256 → EReal) (w1 : Fin 256 → Fin 256 → EReal) (b1 : Fin 256 → EReal)
    (w2 : Fin 256 → Fin 256 → EReal) (b2 e g bt : Fin 256 → EReal) (q : Fin 256) : EReal :=
  normRelu (resid x a w1 b1 w2 b2 e) g bt q

/-- Layer `l`'s square matrix out of a stack of three. -/
def sliceMat (W : (⟨3, ![3, 256, 256]⟩ : Shape).Idx → EReal) (l : Fin 3) : Fin 256 → Fin 256 → EReal :=
  fun a b => W (ix3 l a b)

/-- Layer `l`'s row out of a stack of three. -/
def sliceRow (B : (⟨2, ![3, 256]⟩ : Shape).Idx → EReal) (l : Fin 3) : Fin 256 → EReal :=
  fun k => B (ix2 l k)

/-- Layer `l`'s scalar out of three, as a constant row. -/
def sliceConst (E : (⟨1, ![3]⟩ : Shape).Idx → EReal) (l : Fin 3) : Fin 256 → EReal :=
  fun _ => E (ix1 l)

/-- Row `p` of an array with 256 columns. -/
def rowOf {n : Nat} (H : (⟨2, ![n, 256]⟩ : Shape).Idx → EReal) (p : Fin n) : Fin 256 → EReal :=
  fun k => H (ix2 p k)

/-- Two arrays with 256 columns that are, row by row, the same layer of equal inputs are equal. -/
theorem eq_of_rows {n : Nat} {H H' A A' O O' : (⟨2, ![n, 256]⟩ : Shape).Idx → EReal}
    {w1 w2 : Fin 256 → Fin 256 → EReal} {b1 b2 e g bt : Fin 256 → EReal} (hH : H = H') (hA : A = A')
    (hO : ∀ (p : Fin n) (q : Fin 256), O (ix2 p q) = ginRow (rowOf H p) (rowOf A p) w1 b1 w2 b2 e g bt q)
    (hO' : ∀ (p : Fin n) (q : Fin 256), O' (ix2 p q) = ginRow (rowOf H' p) (rowOf A' p) w1 b1 w2 b2 e g bt q) :
    O = O' := by
  subst hH hA
  funext i
  obtain ⟨p, q, rfl⟩ : ∃ (p : Fin n) (q : Fin 256), i = ix2 p q := ⟨i 0, i 1, eq_ix2 i⟩
  rw [hO, hO']

end Cert.Gin

end
-- ==== Proof.Net.lean ====
/-
  Three layers over the whole node array.

  A layer maps the node array H (100000 nodes, 256 features each) to a new node array: it first aggregates H over the
  graph's edges into an array `agg H` of the same shape, and then treats every node's row separately (GinRow.lean).
  The network is three such layers, layer l using slice l of the stacked parameters. The aggregation is kept as an
  abstract map here: both programs compute it by the same host operations, and nothing below looks inside it.
-/
import proofs.«136586_j78194174591254_1_alg».proof.Proof.GinRow

noncomputable section

namespace Cert.Gin

open Idealize.ShloMosaic Idealize.ShloMosaic.ValueIdx

/-- A node array: one extended real per node and feature. -/
abbrev NodeArr : Type := (⟨2, ![100000, 256]⟩ : Shape).Idx → EReal

/-- The layer's row function applied to every row of `H` and of the aggregated array `A`. -/
def layerFn (H A : NodeArr) (w1 : Fin 256 → Fin 256 → EReal) (b1 : Fin 256 → EReal) (w2 : Fin 256 → Fin 256 → EReal)
    (b2 e g bt : Fin 256 → EReal) : NodeArr :=
  fun i => ginRow (rowOf H ⟨(i 0).val, (i 0).isLt⟩) (rowOf A ⟨(i 0).val, (i 0).isLt⟩) w1 b1 w2 b2 e g bt ⟨(i 1).val, (i 1).isLt⟩

theorem layerFn_apply (H A : NodeArr) (w1 : Fin 256 → Fin 256 → EReal) (b1 : Fin 256 → EReal)
    (w2 : Fin 256 → Fin 256 → EReal) (b2 e g bt : Fin 256 → EReal) (r : Fin 100000) (q : Fin 256) :
    layerFn H A w1 b1 w2 b2 e g bt (ix2 r q) = ginRow (rowOf H r) (rowOf A r) w1 b1 w2 b2 e g bt q := rfl

/-- An array that is the layer row by row is the layer. -/
theorem eq_layerFn {O H A : NodeArr} {w1 : Fin 256 → Fin 256 → EReal} {b1 : Fin 256 → EReal}
    {w2 : Fin 256 → Fin 256 → EReal} {b2 e g bt : Fin 256 → EReal}
    (h : ∀ (r : Fin 100000) (q : Fin 256), O (ix2 r q) = ginRow (rowOf H r) (rowOf A r) w1 b1 w2 b2 e g bt q) :
    O = layerFn H A w1 b1 w2 b2 e g bt := by
  funext i
  obtain ⟨r, q, rfl⟩ : ∃ (r : Fin 100000) (q : Fin 256), i = ix2 r q := ⟨i 0, i 1, eq_ix2 i⟩
  rw [h, layerFn_apply]

/-- Layer `l`: aggregate, then the row function with slice `l` of each stacked parameter. -/
def layerOf (agg : NodeArr → NodeArr) (X2 : (⟨3, ![3, 256, 256]⟩ : Shape).Idx → EReal) (X3 : (⟨2, ![3, 256]⟩ : Shape).Idx → EReal)
    (X4 : (⟨3, ![3, 256, 256]⟩ : Shape).Idx → EReal) (X5 : (⟨2, ![3, 256]⟩ : Shape).Idx → EReal)
    (X6 : (⟨1, ![3]⟩ : Shape).Idx → EReal) (X7 X8 : (⟨2, ![3, 256]⟩ : Shape).Idx → EReal) (l : Fin 3) (H : NodeArr) : NodeArr :=
  layerFn H (agg H) (sliceMat X2 l) (sliceRow X3 l) (sliceMat X4 l) (sliceRow X5 l) (sliceConst X6 l) (sliceRow X7 l) (sliceRow X8 l)

/-- The network: layers 0, 1, 2 in turn. -/
def net (agg : NodeArr → NodeArr) (X2 : (⟨3, ![3, 256, 256]⟩ : Shape).Idx → EReal) (X3 : (⟨2, ![3, 256]⟩ : Shape).Idx → EReal)
    (X4 : (⟨3, ![3, 256, 256]⟩ : Shape).Idx → EReal) (X5 : (⟨2, ![3, 256]⟩ : Shape).Idx → EReal)
    (X6 : (⟨1, ![3]⟩ : Shape).Idx → EReal) (X7 X8 : (⟨2, ![3, 256]⟩ : Shape).Idx → EReal) (H : NodeArr) : NodeArr :=
  layerOf agg X2 X3 X4 X5 X6 X7 X8 2 (layerOf agg X2 X3 X4 X5 X6 X7 X8 1 (layerOf agg X2 X3 X4 X5 X6 X7 X8 0 H))

end Cert.Gin

end
-- ==== Proof.RegionValue.lean ====
/-
  What a pipelined region leaves in its result array: one layer of the whole node array.

  A region walks the 100000 nodes in 50 blocks of 2000 rows. At block t it holds rows 2000·t … 2000·t + 1999 of the
  feature array and of the aggregated array, and the layer's parameters whole (the same 256 × 256 matrices and
  1 × 256 rows at every block). Since a layer treats each node's row separately, what block t writes back is rows
  2000·t … 2000·t + 1999 of ONE array: the layer applied row by row to the region's input arrays. The 50 blocks
  tile the result array (row r lies in block r / 2000), so after the region the result array is that array.
-/
import proofs.«136586_j78194174591254_1_alg».proof.Proof.Gen.KernelIdeal.Frame
import proofs.«136586_j78194174591254_1_alg».proof.Proof.GinRow
import Idealize.ShloMosaic.Lib.Pipeline.Value
import Idealize.ShloMosaic.Lib.ValueIdx

set_option maxRecDepth 16384

noncomputable section

namespace Cert.Gin.Region

open Cert.KernelIdeal Cert.KernelIdeal.Gen Idealize.ShloMosaic Idealize.ShloMosaic.TcCoe Idealize.ShloMosaic.ValueIdx
open Idealize.SL.Sem Cert.Gin
open Idealize.ShloMosaic.Pipeline (Dat)

/-- One layer over the whole node array: entry (r, q) is the layer along row r of the feature array `H` and of the
    aggregated array `A`, with the parameters given as a 256 × 256 array or a 1 × 256 row each. -/
def layerArr (H A : S100000x256.Idx → EReal) (W1 : S256x256.Idx → EReal) (B1 : S1x256.Idx → EReal)
    (W2 : S256x256.Idx → EReal) (B2 E G Bt : S1x256.Idx → EReal) : S100000x256.Idx → EReal :=
  fun i => ginRow (rowOf H ⟨(i 0).val, (i 0).isLt⟩) (rowOf A ⟨(i 0).val, (i 0).isLt⟩) (fun a b => W1 (ix2 a b)) (rowOf B1 0)
    (fun a b => W2 (ix2 a b)) (rowOf B2 0) (rowOf E 0) (rowOf G 0) (rowOf Bt 0) ⟨(i 1).val, (i 1).isLt⟩

theorem layerArr_apply (H A : S100000x256.Idx → EReal) (W1 : S256x256.Idx → EReal) (B1 : S1x256.Idx → EReal)
    (W2 : S256x256.Idx → EReal) (B2 E G Bt : S1x256.Idx → EReal) (r : Fin 100000) (q : Fin 256) :
    layerArr H A W1 B1 W2 B2 E G Bt (ix2 r q)
      = ginRow (rowOf H r) (rowOf A r) (fun a b => W1 (ix2 a b)) (rowOf B1 0) (fun a b => W2 (ix2 a b)) (rowOf B2 0)
          (rowOf E 0) (rowOf G 0) (rowOf Bt 0) q := rfl

/-- Row `p` of block `T` is row `2000·T + p` of the array. -/
def blockRow (T : Fin 50) (p : Fin 2000) : Fin 100000 :=
  ⟨T.val * 2000 + p.val, by have h1 := T.isLt; have h2 := p.isLt; omega⟩

/-- **A block of rows of the layer.** If a 2000-row block `O` is, row by row, the layer of the blocks `x0`, `x1` and the
    parameters `x2 … x8`, if `x0` and `x1` are rows `2000·T …` of the arrays `H` and `A`, and the parameter blocks are the
    parameter arrays, then `O` is rows `2000·T …` of the layer of `H` and `A`. -/
theorem rows_of_block (O x0 x1 : S2000x256.Idx → EReal) (x2 : S256x256.Idx → EReal) (x3 : S1x256.Idx → EReal)
    (x4 : S256x256.Idx → EReal) (x5 x6 x7 x8 : S1x256.Idx → EReal)
    (H A : S100000x256.Idx → EReal) (W1 : S256x256.Idx → EReal) (B1 : S1x256.Idx → EReal)
    (W2 : S256x256.Idx → EReal) (B2 E G Bt : S1x256.Idx → EReal) (T : Fin 50)
    (hO : ∀ (p : Fin 2000) (q : Fin 256), O (ix2 p q)
      = ginRow (rowOf x0 p) (rowOf x1 p) (fun a b => x2 (ix2 a b)) (rowOf x3 0) (fun a b => x4 (ix2 a b)) (rowOf x5 0)
          (rowOf x6 0) (rowOf x7 0) (rowOf x8 0) q)
    (h0 : ∀ (p : Fin 2000) (k : Fin 256), x0 (ix2 p k) = H (ix2 (blockRow T p) k))
    (h1 : ∀ (p : Fin 2000) (k : Fin 256), x1 (ix2 p k) = A (ix2 (blockRow T p) k))
    (h2 : ∀ a b : Fin 256, x2 (ix2 a b) = W1 (ix2 a b)) (h3 : ∀ k : Fin 256, x3 (ix2 (0 : Fin 1) k) = B1 (ix2 (0 : Fin 1) k))
    (h4 : ∀ a b : Fin 256, x4 (ix2 a b) = W2 (ix2 a b)) (h5 : ∀ k : Fin 256, x5 (ix2 (0 : Fin 1) k) = B2 (ix2 (0 : Fin 1) k))
    (h6 : ∀ k : Fin 256, x6 (ix2 (0 : Fin 1) k) = E (ix2 (0 : Fin 1) k)) (h7 : ∀ k : Fin 256, x7 (ix2 (0 : Fin 1) k) = G (ix2 (0 : Fin 1) k))
    (h8 : ∀ k : Fin 256, x8 (ix2 (0 : Fin 1) k) = Bt (ix2 (0 : Fin 1) k))
    (j : S2000x256.Idx) :
    O j = layerArr H A W1 B1 W2 B2 E G Bt
      (ix2 (⟨T.val * 2000 + (j 0).val, by have h1 := T.isLt; have h2 : (j 0).val < 2000 := (j 0).isLt; omega⟩ : Fin 100000)
        (⟨(j 1).val, (j 1).isLt⟩ : Fin 256)) := by
  obtain ⟨p, q, rfl⟩ : ∃ (p : Fin 2000) (q : Fin 256), j = ix2 p q := ⟨j 0, j 1, eq_ix2 j⟩
  have e0 : rowOf x0 p = rowOf H (blockRow T p) := funext fun k => h0 p k
  have e1 : rowOf x1 p = rowOf A (blockRow T p) := funext fun k => h1 p k
  have e2 : (fun a b : Fin 256 => x2 (ix2 a b)) = fun a b => W1 (ix2 a b) := funext fun a => funext fun b => h2 a b
  have e3 : rowOf x3 (0 : Fin 1) = rowOf B1 0 := funext fun k => h3 k
  have e4 : (fun a b : Fin 256 => x4 (ix2 a b)) = fun a b => W2 (ix2 a b) := funext fun a => funext fun b => h4 a b
  have e5 : rowOf x5 (0 : Fin 1) = rowOf B2 0 := funext fun k => h5 k
  have e6 : rowOf x6 (0 : Fin 1) = rowOf E 0 := funext fun k => h6 k
  have e7 : rowOf x7 (0 : Fin 1) = rowOf G 0 := funext fun k => h7 k
  have e8 : rowOf x8 (0 : Fin 1) = rowOf Bt 0 := funext fun k => h8 k
  rw [hO, e0, e1, e2, e3, e4, e5, e6, e7, e8]
  rfl

/-! ## Region 0 -/

section Region0

variable (V : (c : Dev nD) → (b : Ref sig .tc) → Buf (Elt Ideal) ((c : Thread nD τ).loc b))

/-- The block index of each window at grid point `t`: the two node arrays and the result move down one block of rows
    per point; every parameter window stays at its one block. Decided over the 50 points. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = t.val
    ∧ win0_9.index t (1 : Fin 2) = 0 :=
  (by decide +kernel : ∀ t : Fin grid0.N, _)

set_option maxHeartbeats 2000000 in
/-- **What point `t` writes back** is block `t` of the layer of the region's input arrays, given that the body's
    block is the layer row by row (`hrow`). -/
theorem flushed0_eq
    (hrow : ∀ (x0 x1 : Vec Ideal S2000x256 .f32) (x2 : Vec Ideal S256x256 .f32) (x3 : Vec Ideal S1x256 .f32)
      (x4 : Vec Ideal S256x256 .f32) (x5 x6 x7 x8 : Vec Ideal S1x256 .f32) (p : Fin 2000) (q : Fin 256),
      out0_9 (F := Ideal) x0 x1 x2 x3 x4 x5 x6 x7 x8 (ix2 p q)
        = ginRow (rowOf x0 p) (rowOf x1 p) (fun a b => x2 (ix2 a b)) (rowOf x3 0) (fun a b => x4 (ix2 a b)) (rowOf x5 0)
            (rowOf x6 0) (rowOf x7 0) (rowOf x8 0) q)
    (c : Dev nD) (t : Fin cfg0.N) :
    (dat0 (F := Ideal) V c).flushed 9 t = ((cfg0.win 9).blk t).view.read (Elt Ideal)
      (layerArr (V c main_arg0) (V c main_v13) (V c main_v15) (V c main_v28) (V c main_v19) (V c main_v29) (V c main_v33) (V c main_v30) (V c main_v31)) := by
  show (cfg0.win 9).cut (grid0.coords t) ((dat0 (F := Ideal) V c).after 9 t) = _
  rw [after0_9]
  obtain ⟨e00, e01, e10, e11, e20, e21, e30, e31, e40, e41, e50, e51, e60, e61, e70, e71, e80, e81, e90, e91⟩ := idx_facts0 t
  have ht : t.val < 50 := lt_of_lt_of_eq t.isLt (N_0 : cfg0.N = 50)
  let T : Fin 50 := ⟨t.val, ht⟩
  have h0 : ∀ (p : Fin 2000) (k : Fin 256), iblk0 V c 0 t (ix2 p k) = V c main_arg0 (ix2 (blockRow T p) k) := fun p k => by
    show V c main_arg0 (((cfg0.win 0).blk t).view.emb (ix2 p k)) = _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 256 + 1 * k.val = k.val; omega
  have h1 : ∀ (p : Fin 2000) (k : Fin 256), iblk0 V c 1 t (ix2 p k) = V c main_v13 (ix2 (blockRow T p) k) := fun p k => by
    show V c main_v13 (((cfg0.win 1).blk t).view.emb (ix2 p k)) = _
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 256 + 1 * k.val = k.val; omega
  have h2 : ∀ a b : Fin 256, iblk0 V c 2 t (ix2 a b) = V c main_v15 (ix2 a b) := fun a b => by
    show V c main_v15 (((cfg0.win 2).blk t).view.emb (ix2 a b)) = _
    refine congrArg _ (funext fun d => Fin.ext ?_)
    match d with
    | ⟨0, _⟩ => show win0_2.index t (0 : Fin 2) * 256 + 1 * a.val = a.val; omega
    | ⟨1, _⟩ => show win0_2.index t (1 : Fin 2) * 256 + 1 * b.val = b.val; omega
  have h3 : ∀ k : Fin 256, iblk0 V c 3 t (ix2 (0 : Fin 1) k) = V c main_v28 (ix2 (0 : Fin 1) k) := fun k => by
    show V c main_v28 (((cfg0.win 3).blk t).view.emb (ix2 (0 : Fin 1) k)) = _
    refine congrArg _ (funext fun d => Fin.ext ?_)
    match d with
    | ⟨0, _⟩ => show win0_3.index t (0 : Fin 2) * 1 + 1 * 0 = 0; omega
    | ⟨1, _⟩ => show win0_3.index t (1 : Fin 2) * 256 + 1 * k.val = k.val; omega
  have h4 : ∀ a b : Fin 256, iblk0 V c 4 t (ix2 a b) = V c main_v19 (ix2 a b) := fun a b => by
    show V c main_v19 (((cfg0.win 4).blk t).view.emb (ix2 a b)) = _
    refine congrArg _ (funext fun d => Fin.ext ?_)
    match d with
    | ⟨0, _⟩ => show win0_4.index t (0 : Fin 2) * 256 + 1 * a.val = a.val; omega
    | ⟨1, _⟩ => show win0_4.index t (1 : Fin 2) * 256 + 1 * b.val = b.val; omega
  have h5 : ∀ k : Fin 256, iblk0 V c 5 t (ix2 (0 : Fin 1) k) = V c main_v29 (ix2 (0 : Fin 1) k) := fun k => by
    show V c main_v29 (((cfg0.win 5).blk t).view.emb (ix2 (0 : Fin 1) k)) = _
    refine congrArg _ (funext fun d => Fin.ext ?_)
    match d with
    | ⟨0, _⟩ => show win0_5.index t (0 : Fin 2) * 1 + 1 * 0 = 0; omega
    | ⟨1, _⟩ => show win0_5.index t (1 : Fin 2) * 256 + 1 * k.val = k.val; omega
  have h6 : ∀ k : Fin 256, iblk0 V c 6 t (ix2 (0 : Fin 1) k) = V c main_v33 (ix2 (0 : Fin 1) k) := fun k => by
    show V c main_v33 (((cfg0.win 6).blk t).view.emb (ix2 (0 : Fin 1) k)) = _
    refine congrArg _ (funext fun d => Fin.ext ?_)
    match d with
    | ⟨0, _⟩ => show win0_6.index t (0 : Fin 2) * 1 + 1 * 0 = 0; omega
    | ⟨1, _⟩ => show win0_6.index t (1 : Fin 2) * 256 + 1 * k.val = k.val; omega
  have h7 : ∀ k : Fin 256, iblk0 V c 7 t (ix2 (0 : Fin 1) k) = V c main_v30 (ix2 (0 : Fin 1) k) := fun k => by
    show V c main_v30 (((cfg0.win 7).blk t).view.emb (ix2 (0 : Fin 1) k)) = _
    refine congrArg _ (funext fun d => Fin.ext ?_)
    match d with
    | ⟨0, _⟩ => show win0_7.index t (0 : Fin 2) * 1 + 1 * 0 = 0; omega
    | ⟨1, _⟩ => show win0_7.index t (1 : Fin 2) * 256 + 1 * k.val = k.val; omega
  have h8 : ∀ k : Fin 256, iblk0 V c 8 t (ix2 (0 : Fin 1) k) = V c main_v31 (ix2 (0 : Fin 1) k) := fun k => by
    show V c main_v31 (((cfg0.win 8).blk t).view.emb (ix2 (0 : Fin 1) k)) = _
    refine congrArg _ (funext fun d => Fin.ext ?_)
    match d with
    | ⟨0, _⟩ => show win0_8.index t (0 : Fin 2) * 1 + 1 * 0 = 0; omega
    | ⟨1, _⟩ => show win0_8.index t (1 : Fin 2) * 256 + 1 * k.val = k.val; omega
  funext j
  show out0_9 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) j
    = layerArr (V c main_arg0) (V c main_v13) (V c main_v15) (V c main_v28) (V c main_v19) (V c main_v29) (V c main_v33) (V c main_v30) (V c main_v31) (((cfg0.win 9).blk t).view.emb j)
  refine (rows_of_block (out0_9 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t)) (iblk0 V c 0 t) (iblk0 V c 1 t) (iblk0 V c 2 t) (iblk0 V c 3 t) (iblk0 V c 4 t) (iblk0 V c 5 t) (iblk0 V c 6 t) (iblk0 V c 7 t) (iblk0 V c 8 t)
    (V c main_arg0) (V c main_v13) (V c main_v15) (V c main_v28) (V c main_v19) (V c main_v29) (V c main_v33) (V c main_v30) (V c main_v31) T
    (fun p q => hrow _ _ _ _ _ _ _ _ _ p q) h0 h1 h2 h3 h4 h5 h6 h7 h8 j).trans ?_
  refine congrArg _ (funext fun a => Fin.ext ?_)
  match a with
  | ⟨0, _⟩ => show t.val * 2000 + (j 0).val = win0_9.index t (0 : Fin 2) * 2000 + 1 * (j 0).val; omega
  | ⟨1, _⟩ => show (j 1).val = win0_9.index t (1 : Fin 2) * 256 + 1 * (j 1).val; omega

/-- An index of the result array lies in point `t`'s block iff each coordinate lies in the block's range on its axis. -/
theorem mem_blk0 (t : Fin cfg0.N) (i : S100000x256.Idx) :
    i ∈ ((cfg0.win 9).blk t).view.set ↔ ∀ a : Fin 2, win0_9.index t a * S2000x256.size a ≤ (i a).val
      ∧ (i a).val < win0_9.index t a * S2000x256.size a + S2000x256.size a := by
  show i ∈ ((View.whole main_v34).slice (win0_9.rect t)).set ↔ _
  rw [View.set_slice_whole, Rect.mem_set_unit]
  exact Iff.rfl

/-- The 50 blocks tile the result array: row `r` lies in block `r / 2000`. -/
theorem cover0 (i : S100000x256.Idx) :
    ∃ t : Fin cfg0.N, (cfg0.win 9).flush t = true ∧ i ∈ ((cfg0.win 9).blk t).view.set := by
  have hi0 : (i 0).val < 100000 := (i 0).isLt
  have hi1 : (i 1).val < 256 := (i 1).isLt
  have hN : cfg0.N = 50 := N_0
  have hlt : (i 0).val / 2000 < cfg0.N := by rw [hN]; omega
  obtain ⟨-, -, -, -, -, -, -, -, -, -, -, -, -, -, -, -, -, -, e90, e91⟩ := idx_facts0 ⟨(i 0).val / 2000, hlt⟩
  refine ⟨⟨(i 0).val / 2000, hlt⟩, flush0_9 _, ?_⟩
  rw [mem_blk0]
  intro a
  match a with
  | ⟨0, _⟩ =>
    show win0_9.index ⟨(i 0).val / 2000, hlt⟩ (0 : Fin 2) * 2000 ≤ (i 0).val
      ∧ (i 0).val < win0_9.index ⟨(i 0).val / 2000, hlt⟩ (0 : Fin 2) * 2000 + 2000
    rw [e90]; show (i 0).val / 2000 * 2000 ≤ (i 0).val ∧ (i 0).val < (i 0).val / 2000 * 2000 + 2000; omega
  | ⟨1, _⟩ =>
    show win0_9.index ⟨(i 0).val / 2000, hlt⟩ (1 : Fin 2) * 256 ≤ (i 1).val
      ∧ (i 1).val < win0_9.index ⟨(i 0).val / 2000, hlt⟩ (1 : Fin 2) * 256 + 256
    rw [e91]; omega

/-- **The result array after region 0**: the layer of the region's input arrays. -/
theorem final0
    (hrow : ∀ (x0 x1 : Vec Ideal S2000x256 .f32) (x2 : Vec Ideal S256x256 .f32) (x3 : Vec Ideal S1x256 .f32)
      (x4 : Vec Ideal S256x256 .f32) (x5 x6 x7 x8 : Vec Ideal S1x256 .f32) (p : Fin 2000) (q : Fin 256),
      out0_9 (F := Ideal) x0 x1 x2 x3 x4 x5 x6 x7 x8 (ix2 p q)
        = ginRow (rowOf x0 p) (rowOf x1 p) (fun a b => x2 (ix2 a b)) (rowOf x3 0) (fun a b => x4 (ix2 a b)) (rowOf x5 0)
            (rowOf x6 0) (rowOf x7 0) (rowOf x8 0) q)
    (c : Dev nD) :
    (dat0 (F := Ideal) V c).arrAt 9 cfg0.N = layerArr (V c main_arg0) (V c main_v13) (V c main_v15) (V c main_v28) (V c main_v19) (V c main_v29) (V c main_v33) (V c main_v30) (V c main_v31) :=
  (dat0 (F := Ideal) V c).arrAt_eq_of_cover 9 _ (fun t _ => flushed0_eq V hrow c t) cover0

end Region0

/-! ## Region 1 -/

section Region1

variable (V : (c : Dev nD) → (b : Ref sig .tc) → Buf (Elt Ideal) ((c : Thread nD τ).loc b))

/-- The block index of each window at grid point `t`: the two node arrays and the result move down one block of rows
    per point; every parameter window stays at its one block. Decided over the 50 points. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = t.val
    ∧ win1_9.index t (1 : Fin 2) = 0 :=
  (by decide +kernel : ∀ t : Fin grid1.N, _)

set_option maxHeartbeats 2000000 in
/-- **What point `t` writes back** is block `t` of the layer of the region's input arrays, given that the body's
    block is the layer row by row (`hrow`). -/
theorem flushed1_eq
    (hrow : ∀ (x0 x1 : Vec Ideal S2000x256 .f32) (x2 : Vec Ideal S256x256 .f32) (x3 : Vec Ideal S1x256 .f32)
      (x4 : Vec Ideal S256x256 .f32) (x5 x6 x7 x8 : Vec Ideal S1x256 .f32) (p : Fin 2000) (q : Fin 256),
      out1_9 (F := Ideal) x0 x1 x2 x3 x4 x5 x6 x7 x8 (ix2 p q)
        = ginRow (rowOf x0 p) (rowOf x1 p) (fun a b => x2 (ix2 a b)) (rowOf x3 0) (fun a b => x4 (ix2 a b)) (rowOf x5 0)
            (rowOf x6 0) (rowOf x7 0) (rowOf x8 0) q)
    (c : Dev nD) (t : Fin cfg1.N) :
    (dat1 (F := Ideal) V c).flushed 9 t = ((cfg1.win 9).blk t).view.read (Elt Ideal)
      (layerArr (V c main_v34) (V c main_v44) (V c main_v46) (V c main_v59) (V c main_v50) (V c main_v60) (V c main_v64) (V c main_v61) (V c main_v62)) := by
  show (cfg1.win 9).cut (grid1.coords t) ((dat1 (F := Ideal) V c).after 9 t) = _
  rw [after1_9]
  obtain ⟨e00, e01, e10, e11, e20, e21, e30, e31, e40, e41, e50, e51, e60, e61, e70, e71, e80, e81, e90, e91⟩ := idx_facts1 t
  have ht : t.val < 50 := lt_of_lt_of_eq t.isLt (N_1 : cfg1.N = 50)
  let T : Fin 50 := ⟨t.val, ht⟩
  have h0 : ∀ (p : Fin 2000) (k : Fin 256), iblk1 V c 0 t (ix2 p k) = V c main_v34 (ix2 (blockRow T p) k) := fun p k => by
    show V c main_v34 (((cfg1.win 0).blk t).view.emb (ix2 p k)) = _
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 256 + 1 * k.val = k.val; omega
  have h1 : ∀ (p : Fin 2000) (k : Fin 256), iblk1 V c 1 t (ix2 p k) = V c main_v44 (ix2 (blockRow T p) k) := fun p k => by
    show V c main_v44 (((cfg1.win 1).blk t).view.emb (ix2 p k)) = _
    refine congrArg _ (funext fun a => Fin.ext ?_)
    match a with
    | ⟨0, _⟩ => show win1_1.index t (0 : Fin 2) * 2000 + 1 * p.val = t.val * 2000 + p.val; omega
    | ⟨1, _⟩ => show win1_1.index t (1 : Fin 2) * 256 + 1 * k.val = k.val; omega
  have h2 : ∀ a b : Fin 256, iblk1 V c 2 t (ix2 a b) = V c main_v46 (ix2 a b) := fun a b => by
    show V c main_v46 (((cfg1.win 2).blk t).view.emb (ix2 a b)) = _
    refine congrArg _ (funext fun d => Fin.ext ?_)
    match d with
    | ⟨0, _⟩ => show win1_2.index t (0 : Fin 2) * 256 + 1 * a.val = a.val; omega
    | ⟨1, _⟩ => show win1_2.index t (1 : Fin 2) * 256 + 1 * b.val = b.val; omega
  have h3 : ∀ k : Fin 256, iblk1 V c 3 t (ix2 (0 : Fin 1) k) = V c main_v59 (ix2 (0 : Fin 1) k) := fun k => by
    show V c main_v59 (((cfg1.win 3).blk t).view.emb (ix2 (0 : Fin 1) k)) = _
    refine congrArg _ (funext fun d => Fin.ext ?_)
    match d with
    | ⟨0, _⟩ => show win1_3.index t (0 : Fin 2) * 1 + 1 * 0 = 0; omega
    | ⟨1, _⟩ => show win1_3.index t (1 : Fin 2) * 256 + 1 * k.val = k.val; omega
  have h4 : ∀ a b : Fin 256, iblk1 V c 4 t (ix2 a b) = V c main_v50 (ix2 a b) := fun a b => by
    show V c main_v50 (((cfg1.win 4).blk t).view.emb (ix2 a b)) = _
    refine congrArg _ (funext fun d => Fin.ext ?_)
    match d with
    | ⟨0, _⟩ => show win1_4.index t (0 : Fin 2) * 256 + 1 * a.val = a.val; omega
    | ⟨1, _⟩ => show win1_4.index t (1 : Fin 2) * 256 + 1 * b.val = b.val; omega
  have h5 : ∀ k : Fin 256, iblk1 V c 5 t (ix2 (0 : Fin 1) k) = V c main_v60 (ix2 (0 : Fin 1) k) := fun k => by
    show V c main_v60 (((cfg1.win 5).blk t).view.emb (ix2 (0 : Fin 1) k)) = _
    refine congrArg _ (funext fun d => Fin.ext ?_)
    match d with
    | ⟨0, _⟩ => show win1_5.index t (0 : Fin 2) * 1 + 1 * 0 = 0; omega
    | ⟨1, _⟩ => show win1_5.index t (1 : Fin 2) * 256 + 1 * k.val = k.val; omega
  have h6 : ∀ k : Fin 256, iblk1 V c 6 t (ix2 (0 : Fin 1) k) = V c main_v64 (ix2 (0 : Fin 1) k) := fun k => by
    show V c main_v64 (((cfg1.win 6).blk t).view.emb (ix2 (0 : Fin 1) k)) = _
    refine congrArg _ (funext fun d => Fin.ext ?_)
    match d with
    | ⟨0, _⟩ => show win1_6.index t (0 : Fin 2) * 1 + 1 * 0 = 0; omega
    | ⟨1, _⟩ => show win1_6.index t (1 : Fin 2) * 256 + 1 * k.val = k.val; omega
  have h7 : ∀ k : Fin 256, iblk1 V c 7 t (ix2 (0 : Fin 1) k) = V c main_v61 (ix2 (0 : Fin 1) k) := fun k => by
    show V c main_v61 (((cfg1.win 7).blk t).view.emb (ix2 (0 : Fin 1) k)) = _
    refine congrArg _ (funext fun d => Fin.ext ?_)
    match d with
    | ⟨0, _⟩ => show win1_7.index t (0 : Fin 2) * 1 + 1 * 0 = 0; omega
    | ⟨1, _⟩ => show win1_7.index t (1 : Fin 2) * 256 + 1 * k.val = k.val; omega
  have h8 : ∀ k : Fin 256, iblk1 V c 8 t (ix2 (0 : Fin 1) k) = V c main_v62 (ix2 (0 : Fin 1) k) := fun k => by
    show V c main_v62 (((cfg1.win 8).blk t).view.emb (ix2 (0 : Fin 1) k)) = _
    refine congrArg _ (funext fun d => Fin.ext ?_)
    match d with
    | ⟨0, _⟩ => show win1_8.index t (0 : Fin 2) * 1 + 1 * 0 = 0; omega
    | ⟨1, _⟩ => show win1_8.index t (1 : Fin 2) * 256 + 1 * k.val = k.val; omega
  funext j
  show out1_9 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) j
    = layerArr (V c main_v34) (V c main_v44) (V c main_v46) (V c main_v59) (V c main_v50) (V c main_v60) (V c main_v64) (V c main_v61) (V c main_v62) (((cfg1.win 9).blk t).view.emb j)
  refine (rows_of_block (out1_9 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t)) (iblk1 V c 0 t) (iblk1 V c 1 t) (iblk1 V c 2 t) (iblk1 V c 3 t) (iblk1 V c 4 t) (iblk1 V c 5 t) (iblk1 V c 6 t) (iblk1 V c 7 t) (iblk1 V c 8 t)
    (V c main_v34) (V c main_v44) (V c main_v46) (V c main_v59) (V c main_v50) (V c main_v60) (V c main_v64) (V c main_v61) (V c main_v62) T
    (fun p q => hrow _ _ _ _ _ _ _ _ _ p q) h0 h1 h2 h3 h4 h5 h6 h7 h8 j).trans ?_
  refine congrArg _ (funext fun a => Fin.ext ?_)
  match a with
  | ⟨0, _⟩ => show t.val * 2000 + (j 0).val = win1_9.index t (0 : Fin 2) * 2000 + 1 * (j 0).val; omega
  | ⟨1, _⟩ => show (j 1).val = win1_9.index t (1 : Fin 2) * 256 + 1 * (j 1).val; omega

/-- An index of the result array lies in point `t`'s block iff each coordinate lies in the block's range on its axis. -/
theorem mem_blk1 (t : Fin cfg1.N) (i : S100000x256.Idx) :
    i ∈ ((cfg1.win 9).blk t).view.set ↔ ∀ a : Fin 2, win1_9.index t a * S2000x256.size a ≤ (i a).val
      ∧ (i a).val < win1_9.index t a * S2000x256.size a + S2000x256.size a := by
  show i ∈ ((View.whole main_v65).slice (win1_9.rect t)).set ↔ _
  rw [View.set_slice_whole, Rect.mem_set_unit]
  exact Iff.rfl

/-- The 50 blocks tile the result array: row `r` lies in block `r / 2000`. -/
theorem cover1 (i : S100000x256.Idx) :
    ∃ t : Fin cfg1.N, (cfg1.win 9).flush t = true ∧ i ∈ ((cfg1.win 9).blk t).view.set := by
  have hi0 : (i 0).val < 100000 := (i 0).isLt
  have hi1 : (i 1).val < 256 := (i 1).isLt
  have hN : cfg1.N = 50 := N_1
  have hlt : (i 0).val / 2000 < cfg1.N := by rw [hN]; omega
  obtain ⟨-, -, -, -, -, -, -, -, -, -, -, -, -, -, -, -, -, -, e90, e91⟩ := idx_facts1 ⟨(i 0).val / 2000, hlt⟩
  refine ⟨⟨(i 0).val / 2000, hlt⟩, flush1_9 _, ?_⟩
  rw [mem_blk1]
  intro a
  match a with
  | ⟨0, _⟩ =>
    show win1_9.index ⟨(i 0).val / 2000, hlt⟩ (0 : Fin 2) * 2000 ≤ (i 0).val
      ∧ (i 0).val < win1_9.index ⟨(i 0).val / 2000, hlt⟩ (0 : Fin 2) * 2000 + 2000
    rw [e90]; show (i 0).val / 2000 * 2000 ≤ (i 0).val ∧ (i 0).val < (i 0).val / 2000 * 2000 + 2000; omega
  | ⟨1, _⟩ =>
    show win1_9.index ⟨(i 0).val / 2000, hlt⟩ (1 : Fin 2) * 256 ≤ (i 1).val
      ∧ (i 1).val < win1_9.index ⟨(i 0).val / 2000, hlt⟩ (1 : Fin 2) * 256 + 256
    rw [e91]; omega

/-- **The result array after region 1**: the layer of the region's input arrays. -/
theorem final1
    (hrow : ∀ (x0 x1 : Vec Ideal S2000x256 .f32) (x2 : Vec Ideal S256x256 .f32) (x3 : Vec Ideal S1x256 .f32)
      (x4 : Vec Ideal S256x256 .f32) (x5 x6 x7 x8 : Vec Ideal S1x256 .f32) (p : Fin 2000) (q : Fin 256),
      out1_9 (F := Ideal) x0 x1 x2 x3 x4 x5 x6 x7 x8 (ix2 p q)
        = ginRow (rowOf x0 p) (rowOf x1 p) (fun a b => x2 (ix2 a b)) (rowOf x3 0) (fun a b => x4 (ix2 a b)) (rowOf x5 0)
            (rowOf x6 0) (rowOf x7 0) (rowOf x8 0) q)
    (c : Dev nD) :
    (dat1 (F := Ideal) V c).arrAt 9 cfg1.N = layerArr (V c main_v34) (V c main_v44) (V c main_v46) (V c main_v59) (V c main_v50) (V c main_v60) (V c main_v64) (V c main_v61) (V c main_v62) :=
  (dat1 (F := Ideal) V c).arrAt_eq_of_cover 9 _ (fun t _ => flushed1_eq V hrow c t) cover1

end Region1

/-! ## Region 2 -/

section Region2

variable (V : (c : Dev nD) → (b : Ref sig .tc) → Buf (Elt Ideal) ((c : Thread nD τ).loc b))

/-- The block index of each window at grid point `t`: the two node arrays and the result move down one block of rows
    per point; every parameter window stays at its one block. Decided over the 50 points. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = t.val
    ∧ win2_9.index t (1 : Fin 2) = 0 :=
  (by decide +kernel : ∀ t : Fin grid2.N, _)

set_option maxHeartbeats 2000000 in
/-- **What point `t` writes back** is block `t` of the layer of the region's input arrays, given that the body's
    block is the layer row by row (`hrow`). -/
theorem flushed2_eq
    (hrow : ∀ (x0 x1 : Vec Ideal S2000x256 .f32) (x2 : Vec Ideal S256x256 .f32) (x3 : Vec Ideal S1x256 .f32)
      (x4 : Vec Ideal S256x256 .f32) (x5 x6 x7 x8 : Vec Ideal S1x256 .f32) (p : Fin 2000) (q : Fin 256),
      out2_9 (F := Ideal) x0 x1 x2 x3 x4 x5 x6 x7 x8 (ix2 p q)
        = ginRow (rowOf x0 p) (rowOf x1 p) (fun a b => x2 (ix2 a b)) (rowOf x3 0) (fun a b => x4 (ix2 a b)) (rowOf x5 0)
            (rowOf x6 0) (rowOf x7 0) (rowOf x8 0) q)
    (c : Dev nD) (t : Fin cfg2.N) :
    (dat2 (F := Ideal) V c).flushed 9 t = ((cfg2.win 9).blk t).view.read (Elt Ideal)
      (layerArr (V c main_v65) (V c main_v75) (V c main_v77) (V c main_v90) (V c main_v81) (V c main_v91) (V c main_v95) (V c main_v92) (V c main_v93)) := by
  show (cfg2.win 9).cut (grid2.coords t) ((dat2 (F := Ideal) V c).after 9 t) = _
  rw [after2_9]
  obtain ⟨e00, e01, e10, e11, e20, e21, e30, e31, e40, e41, e50, e51, e60, e61, e70, e71, e80, e81, e90, e91⟩ := idx_facts2 t
  have ht : t.val < 50 := lt_of_lt_of_eq t.isLt (N_2 : cfg2.N = 50)
  let T : Fin 50 := ⟨t.val, ht⟩
  have h0 : ∀ (p : Fin 2000) (k : Fin 256), iblk2 V c 0 t (ix2 p k) = V c main_v65 (ix2 (blockRow T p) k) := fun p k => by
    show V c main_v65 (((cfg2.win 0).blk t).view.emb (ix2 p k)) = _
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 256 + 1 * k.val = k.val; omega
  have h1 : ∀ (p : Fin 2000) (k : Fin 256), iblk2 V c 1 t (ix2 p k) = V c main_v75 (ix2 (blockRow T p) k) := fun p k => by
    show V c main_v75 (((cfg2.win 1).blk t).view.emb (ix2 p k)) = _
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 256 + 1 * k.val = k.val; omega
  have h2 : ∀ a b : Fin 256, iblk2 V c 2 t (ix2 a b) = V c main_v77 (ix2 a b) := fun a b => by
    show V c main_v77 (((cfg2.win 2).blk t).view.emb (ix2 a b)) = _
    refine congrArg _ (funext fun d => Fin.ext ?_)
    match d with
    | ⟨0, _⟩ => show win2_2.index t (0 : Fin 2) * 256 + 1 * a.val = a.val; omega
    | ⟨1, _⟩ => show win2_2.index t (1 : Fin 2) * 256 + 1 * b.val = b.val; omega
  have h3 : ∀ k : Fin 256, iblk2 V c 3 t (ix2 (0 : Fin 1) k) = V c main_v90 (ix2 (0 : Fin 1) k) := fun k => by
    show V c main_v90 (((cfg2.win 3).blk t).view.emb (ix2 (0 : Fin 1) k)) = _
    refine congrArg _ (funext fun d => Fin.ext ?_)
    match d with
    | ⟨0, _⟩ => show win2_3.index t (0 : Fin 2) * 1 + 1 * 0 = 0; omega
    | ⟨1, _⟩ => show win2_3.index t (1 : Fin 2) * 256 + 1 * k.val = k.val; omega
  have h4 : ∀ a b : Fin 256, iblk2 V c 4 t (ix2 a b) = V c main_v81 (ix2 a b) := fun a b => by
    show V c main_v81 (((cfg2.win 4).blk t).view.emb (ix2 a b)) = _
    refine congrArg _ (funext fun d => Fin.ext ?_)
    match d with
    | ⟨0, _⟩ => show win2_4.index t (0 : Fin 2) * 256 + 1 * a.val = a.val; omega
    | ⟨1, _⟩ => show win2_4.index t (1 : Fin 2) * 256 + 1 * b.val = b.val; omega
  have h5 : ∀ k : Fin 256, iblk2 V c 5 t (ix2 (0 : Fin 1) k) = V c main_v91 (ix2 (0 : Fin 1) k) := fun k => by
    show V c main_v91 (((cfg2.win 5).blk t).view.emb (ix2 (0 : Fin 1) k)) = _
    refine congrArg _ (funext fun d => Fin.ext ?_)
    match d with
    | ⟨0, _⟩ => show win2_5.index t (0 : Fin 2) * 1 + 1 * 0 = 0; omega
    | ⟨1, _⟩ => show win2_5.index t (1 : Fin 2) * 256 + 1 * k.val = k.val; omega
  have h6 : ∀ k : Fin 256, iblk2 V c 6 t (ix2 (0 : Fin 1) k) = V c main_v95 (ix2 (0 : Fin 1) k) := fun k => by
    show V c main_v95 (((cfg2.win 6).blk t).view.emb (ix2 (0 : Fin 1) k)) = _
    refine congrArg _ (funext fun d => Fin.ext ?_)
    match d with
    | ⟨0, _⟩ => show win2_6.index t (0 : Fin 2) * 1 + 1 * 0 = 0; omega
    | ⟨1, _⟩ => show win2_6.index t (1 : Fin 2) * 256 + 1 * k.val = k.val; omega
  have h7 : ∀ k : Fin 256, iblk2 V c 7 t (ix2 (0 : Fin 1) k) = V c main_v92 (ix2 (0 : Fin 1) k) := fun k => by
    show V c main_v92 (((cfg2.win 7).blk t).view.emb (ix2 (0 : Fin 1) k)) = _
    refine congrArg _ (funext fun d => Fin.ext ?_)
    match d with
    | ⟨0, _⟩ => show win2_7.index t (0 : Fin 2) * 1 + 1 * 0 = 0; omega
    | ⟨1, _⟩ => show win2_7.index t (1 : Fin 2) * 256 + 1 * k.val = k.val; omega
  have h8 : ∀ k : Fin 256, iblk2 V c 8 t (ix2 (0 : Fin 1) k) = V c main_v93 (ix2 (0 : Fin 1) k) := fun k => by
    show V c main_v93 (((cfg2.win 8).blk t).view.emb (ix2 (0 : Fin 1) k)) = _
    refine congrArg _ (funext fun d => Fin.ext ?_)
    match d with
    | ⟨0, _⟩ => show win2_8.index t (0 : Fin 2) * 1 + 1 * 0 = 0; omega
    | ⟨1, _⟩ => show win2_8.index t (1 : Fin 2) * 256 + 1 * k.val = k.val; omega
  funext j
  show out2_9 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t) j
    = layerArr (V c main_v65) (V c main_v75) (V c main_v77) (V c main_v90) (V c main_v81) (V c main_v91) (V c main_v95) (V c main_v92) (V c main_v93) (((cfg2.win 9).blk t).view.emb j)
  refine (rows_of_block (out2_9 (F := Ideal) (iblk2 V c 0 t) (iblk2 V c 1 t) (iblk2 V c 2 t) (iblk2 V c 3 t) (iblk2 V c 4 t) (iblk2 V c 5 t) (iblk2 V c 6 t) (iblk2 V c 7 t) (iblk2 V c 8 t)) (iblk2 V c 0 t) (iblk2 V c 1 t) (iblk2 V c 2 t) (iblk2 V c 3 t) (iblk2 V c 4 t) (iblk2 V c 5 t) (iblk2 V c 6 t) (iblk2 V c 7 t) (iblk2 V c 8 t)
    (V c main_v65) (V c main_v75) (V c main_v77) (V c main_v90) (V c main_v81) (V c main_v91) (V c main_v95) (V c main_v92) (V c main_v93) T
    (fun p q => hrow _ _ _ _ _ _ _ _ _ p q) h0 h1 h2 h3 h4 h5 h6 h7 h8 j).trans ?_
  refine congrArg _ (funext fun a => Fin.ext ?_)
  match a with
  | ⟨0, _⟩ => show t.val * 2000 + (j 0).val = win2_9.index t (0 : Fin 2) * 2000 + 1 * (j 0).val; omega
  | ⟨1, _⟩ => show (j 1).val = win2_9.index t (1 : Fin 2) * 256 + 1 * (j 1).val; omega

/-- An index of the result array lies in point `t`'s block iff each coordinate lies in the block's range on its axis. -/
theorem mem_blk2 (t : Fin cfg2.N) (i : S100000x256.Idx) :
    i ∈ ((cfg2.win 9).blk t).view.set ↔ ∀ a : Fin 2, win2_9.index t a * S2000x256.size a ≤ (i a).val
      ∧ (i a).val < win2_9.index t a * S2000x256.size a + S2000x256.size a := by
  show i ∈ ((View.whole main_v96).slice (win2_9.rect t)).set ↔ _
  rw [View.set_slice_whole, Rect.mem_set_unit]
  exact Iff.rfl

/-- The 50 blocks tile the result array: row `r` lies in block `r / 2000`. -/
theorem cover2 (i : S100000x256.Idx) :
    ∃ t : Fin cfg2.N, (cfg2.win 9).flush t = true ∧ i ∈ ((cfg2.win 9).blk t).view.set := by
  have hi0 : (i 0).val < 100000 := (i 0).isLt
  have hi1 : (i 1).val < 256 := (i 1).isLt
  have hN : cfg2.N = 50 := N_2
  have hlt : (i 0).val / 2000 < cfg2.N := by rw [hN]; omega
  obtain ⟨-, -, -, -, -, -, -, -, -, -, -, -, -, -, -, -, -, -, e90, e91⟩ := idx_facts2 ⟨(i 0).val / 2000, hlt⟩
  refine ⟨⟨(i 0).val / 2000, hlt⟩, flush2_9 _, ?_⟩
  rw [mem_blk2]
  intro a
  match a with
  | ⟨0, _⟩ =>
    show win2_9.index ⟨(i 0).val / 2000, hlt⟩ (0 : Fin 2) * 2000 ≤ (i 0).val
      ∧ (i 0).val < win2_9.index ⟨(i 0).val / 2000, hlt⟩ (0 : Fin 2) * 2000 + 2000
    rw [e90]; show (i 0).val / 2000 * 2000 ≤ (i 0).val ∧ (i 0).val < (i 0).val / 2000 * 2000 + 2000; omega
  | ⟨1, _⟩ =>
    show win2_9.index ⟨(i 0).val / 2000, hlt⟩ (1 : Fin 2) * 256 ≤ (i 1).val
      ∧ (i 1).val < win2_9.index ⟨(i 0).val / 2000, hlt⟩ (1 : Fin 2) * 256 + 256
    rw [e91]; omega

/-- **The result array after region 2**: the layer of the region's input arrays. -/
theorem final2
    (hrow : ∀ (x0 x1 : Vec Ideal S2000x256 .f32) (x2 : Vec Ideal S256x256 .f32) (x3 : Vec Ideal S1x256 .f32)
      (x4 : Vec Ideal S256x256 .f32) (x5 x6 x7 x8 : Vec Ideal S1x256 .f32) (p : Fin 2000) (q : Fin 256),
      out2_9 (F := Ideal) x0 x1 x2 x3 x4 x5 x6 x7 x8 (ix2 p q)
        = ginRow (rowOf x0 p) (rowOf x1 p) (fun a b => x2 (ix2 a b)) (rowOf x3 0) (fun a b => x4 (ix2 a b)) (rowOf x5 0)
            (rowOf x6 0) (rowOf x7 0) (rowOf x8 0) q)
    (c : Dev nD) :
    (dat2 (F := Ideal) V c).arrAt 9 cfg2.N = layerArr (V c main_v65) (V c main_v75) (V c main_v77) (V c main_v90) (V c main_v81) (V c main_v91) (V c main_v95) (V c main_v92) (V c main_v93) :=
  (dat2 (F := Ideal) V c).arrAt_eq_of_cover 9 _ (fun t _ => flushed2_eq V hrow c t) cover2

end Region2

end Cert.Gin.Region

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.BlockRow.lean ====
/-
  The kernel's block, read along one row.

  Each of the three layer kernels takes a block of 2000 node rows, the same rows of the aggregated array, and the
  layer's parameters (two 256 × 256 matrices; two bias rows, the scalar ε as a row, γ and β, each a [1, 256] array),
  and leaves a block of 2000 new rows. Entry (p, q) of that block is the layer applied to row p of the two blocks:
  nothing in it looks at another row. The body's arithmetic is read one entry at a time: the pointwise operations
  entry by entry, a row [1, 256] broadcast over the 2000 rows at its one row, a matrix product into the zero
  accumulator as the sum over the contracted position, a lane sum as the sum over the row, a sum kept as a
  [2000, 1] column at its row, and that column broadcast over the 256 lanes at its row again. The second and third
  kernels pass the node block through one more cast to its own shape, which changes nothing.
-/
import proofs.«136586_j78194174591254_1_alg».proof.Proof.Gen.KernelIdeal.Frame
import proofs.«136586_j78194174591254_1_alg».proof.Proof.GinRow
import proofs.«136586_j78194174591254_1_alg».proof.Proof.LibPlainMatmul
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Gin.Block

open Cert.KernelIdeal Cert.KernelIdeal.Gen Idealize.ShloMosaic Idealize.ShloMosaic.ValueIdx Cert.Gin

/-- The zero offsets of an access to a whole buffer, as the constant function. -/
theorem zero_offsets : (![0, 0] : Fin 2 → Nat) = fun _ => 0 := by
  funext a; match a with | ⟨0, _⟩ => rfl | ⟨1, _⟩ => rfl

/-! ## Layout operations at an entry -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two contractions at an entry -/

/-- The lane sum of a `[2000, 256]` block at row `p` is the sum of that row's 256 entries. -/
theorem rowSum_apply (src : FVec Ideal S2000x256 .f32) (h : S2000x256.Reduces [1] S2000) (hφ : FKind.Formats .f32)
    (hacc : (0x00000000#32 : BitVec 32) = 0x00000000#32) (p : Fin 2000) :
    multiReduction (F := Ideal) .add [1] S2000 src 0x00000000#32 h hφ hacc (ix1 p) = ∑ k : Fin 256, src (ix2 p k) := by
  refine (Ideal.multiReduction_add_single src _ h hφ hacc (ix1 p)).trans ?_
  refine Finset.sum_congr rfl fun k _ => congrArg src ?_
  funext a
  match a with
  | ⟨0, _⟩ => exact Fin.ext rfl
  | ⟨1, _⟩ => exact Fin.ext rfl

/-- The body's matrix product into the zero accumulator at entry `(p, k)`: the sum over the contracted position. -/
theorem matmul_apply {φ₁ φ₂ : FTy} (A : FVec Ideal S2000x256 φ₁) (B : FVec Ideal S256x256 φ₂) (p : Fin 2000) (k : Fin 256) :
    matmul (F := Ideal) dot_S2000x256_S256x256_S2000x256_1_0_0_1_n_n none A B (constant (F := Ideal) S2000x256 .f32 0x00000000#32) (ix2 p k)
      = ∑ c : Fin 256, A (ix2 p c) * B (ix2 c k) :=
  PlainMatmul.matmul_zero_apply none A B p k

/-- A reciprocal square root taken entry by entry. -/
theorem rsqrt_apply {s : Shape} {φ : FTy} (a : FVec Ideal s φ) (i : s.Idx) : rsqrt a i = Ideal.rsqrt (a i) := rfl

/-! ## The first kernel's payloads at an entry -/

section Payloads
variable (v0 v1 : Vec Ideal S2000x256 .f32) (v3 : Vec Ideal S1x256 .f32) (v10 : Vec Ideal S256x256 .f32)
  (v15 : Vec Ideal S1x256 .f32) (v21 : Vec Ideal S256x256 .f32) (v26 : Vec Ideal S1x256 .f32)

/-- The residual row of row `p` of the node block `v0` and the aggregated block `v1`. -/
abbrev residRow (p : Fin 2000) : Fin 256 → EReal :=
  resid (rowOf v0 p) (rowOf v1 p) (fun a b => v10 (ix2 a b)) (rowOf v15 0) (fun a b => v21 (ix2 a b)) (rowOf v26 0) (rowOf v3 0)

/-- The residual block at `(p, k)` is the residual row of row `p` at `k`: two matrix products, each a sum over the
    contracted position, the second one's left operand being the hidden row. -/
theorem pay2_apply (p : Fin 2000) (k : Fin 256) :
    k0_pay2 (F := Ideal) v0 v1 v3 v10 v15 v21 v26 (ix2 p k) = residRow v0 v1 v3 v10 v15 v21 v26 p k := by
  unfold k0_pay2
  simp only [shapeCast_self, addf_apply, mulf_apply, maximumf_apply, truncf_apply, broadcast_apply,
    broadcastTo_1b_ab_apply, matmul_apply]
  rfl

/-- The mean column at row `p` is the mean of the residual row of row `p`. -/
theorem pay3_apply (p : Fin 2000) (u : Fin 1) :
    k0_pay3 (F := Ideal) v0 v1 v3 v10 v15 v21 v26 (ix2 p u) = mean (residRow v0 v1 v3 v10 v15 v21 v26 p) := by
  unfold k0_pay3
  simp only [divf_apply, broadcast_apply, shapeCast_a_a1_apply]
  rw [rowSum_apply]
  simp only [pay2_apply]
  rfl

/-- The block of squared deviations at `(p, k)`: the residual row's deviation from its mean at `k`, squared. -/
theorem pay4_apply (p : Fin 2000) (k : Fin 256) :
    k0_pay4 (F := Ideal) v0 v1 v3 v10 v15 v21 v26 (ix2 p k)
      = (residRow v0 v1 v3 v10 v15 v21 v26 p k - mean (residRow v0 v1 v3 v10 v15 v21 v26 p))
        * (residRow v0 v1 v3 v10 v15 v21 v26 p k - mean (residRow v0 v1 v3 v10 v15 v21 v26 p)) := by
  unfold k0_pay4
  simp only [mulf_apply, subf_apply, broadcastTo_a1_ab_apply, pay2_apply, pay3_apply]

end Payloads

/-- The stored block at `(p, q)`, from the residual block `w30`, the mean column `w34`, the block of squared
    deviations `w37` and the rows `γ` (`w49`) and `β` (`w53`): the deviation times the reciprocal square root of the
    mean squared deviation plus 1e-5, scaled, shifted and cut off below at 0. -/
theorem pay1_apply (w30 : FVec Ideal S2000x256 .f32) (w34 : FVec Ideal S2000x1 .f32) (w37 : FVec Ideal S2000x256 .f32)
    (w49 w53 : Vec Ideal S1x256 .f32) (p : Fin 2000) (q : Fin 256) :
    k0_pay1 (F := Ideal) w30 w34 w37 w49 w53 (ix2 p q)
      = max ((((w30 (ix2 p q) - w34 (ix2 p (0 : Fin 1)))
            * Ideal.rsqrt (Ideal.div (∑ k : Fin 256, w37 (ix2 p k)) (Ideal.ofBits .f32 0x43800000#32)
                + Ideal.ofBits .f32 0x3727C5AC#32))
          * w49 (ix2 (0 : Fin 1) q)) + w53 (ix2 (0 : Fin 1) q)) (Ideal.ofBits .f32 0x00000000#32) := by
  unfold k0_pay1
  simp only [shapeCast_self, maximumf_apply, addf_apply, mulf_apply, subf_apply, divf_apply, rsqrt_apply, broadcast_apply,
    broadcastTo_1b_ab_apply, broadcastTo_a1_ab_apply, shapeCast_a_a1_apply]
  rw [rowSum_apply]
  rfl

/-! ## The first kernel's block -/

/-- **The first kernel's block along a row**: entry `(p, q)` of the block the body leaves is the layer applied to row `p`
    of the node block and of the aggregated block, at feature `q`. -/
theorem out0_9_row (x0 x1 : Vec Ideal S2000x256 .f32) (x2 : Vec Ideal S256x256 .f32) (x3 : Vec Ideal S1x256 .f32)
    (x4 : Vec Ideal S256x256 .f32) (x5 x6 x7 x8 : Vec Ideal S1x256 .f32) (p : Fin 2000) (q : Fin 256) :
    out0_9 (F := Ideal) x0 x1 x2 x3 x4 x5 x6 x7 x8 (ix2 p q)
      = ginRow (rowOf x0 p) (rowOf x1 p) (fun a b => x2 (ix2 a b)) (rowOf x3 0) (fun a b => x4 (ix2 a b)) (rowOf x5 0)
          (rowOf x6 0) (rowOf x7 0) (rowOf x8 0) q := by
  unfold out0_9
  rw [View.canon_unit_zero zero_offsets]
  simp only [View.ld_unit_zero (S := S2000x256) zero_offsets, View.ld_unit_zero (S := S1x256) zero_offsets,
    View.ld_unit_zero (S := S256x256) zero_offsets]
  rw [pay1_apply]
  simp only [pay2_apply, pay3_apply, pay4_apply]
  rfl

/-! ## The second and third kernels

Their bodies are the first kernel's with the node block passed through one more cast to its own shape before its two
uses (the scaling and the residual sum); the cast is the identity, so their payloads, and with them their blocks, are the
first kernel's. -/

section Kernel1
variable (v0 v1 : Vec Ideal S2000x256 .f32) (v3 : Vec Ideal S1x256 .f32) (v10 : Vec Ideal S256x256 .f32)
  (v15 : Vec Ideal S1x256 .f32) (v21 : Vec Ideal S256x256 .f32) (v26 : Vec Ideal S1x256 .f32)

/-- The second kernel's residual block is the first kernel's: the extra cast of the node block is the identity. -/
theorem k1_pay2_eq : k1_pay2 (F := Ideal) v0 v1 v3 v10 v15 v21 v26 = k0_pay2 v0 v1 v3 v10 v15 v21 v26 := by
  unfold k1_pay2 k0_pay2
  simp only [shapeCast_self]

/-- So is its mean column … -/
theorem k1_pay3_eq : k1_pay3 (F := Ideal) v0 v1 v3 v10 v15 v21 v26 = k0_pay3 v0 v1 v3 v10 v15 v21 v26 := by
  unfold k1_pay3 k0_pay3
  rw [k1_pay2_eq]

/-- … and its block of squared deviations. -/
theorem k1_pay4_eq : k1_pay4 (F := Ideal) v0 v1 v3 v10 v15 v21 v26 = k0_pay4 v0 v1 v3 v10 v15 v21 v26 := by
  unfold k1_pay4 k0_pay4
  rw [k1_pay2_eq, k1_pay3_eq]

end Kernel1

/-- **The second kernel's block along a row**: the same layer of row `p`, its block being the first kernel's. -/
theorem out1_9_row (x0 x1 : Vec Ideal S2000x256 .f32) (x2 : Vec Ideal S256x256 .f32) (x3 : Vec Ideal S1x256 .f32)
    (x4 : Vec Ideal S256x256 .f32) (x5 x6 x7 x8 : Vec Ideal S1x256 .f32) (p : Fin 2000) (q : Fin 256) :
    out1_9 (F := Ideal) x0 x1 x2 x3 x4 x5 x6 x7 x8 (ix2 p q)
      = ginRow (rowOf x0 p) (rowOf x1 p) (fun a b => x2 (ix2 a b)) (rowOf x3 0) (fun a b => x4 (ix2 a b)) (rowOf x5 0)
          (rowOf x6 0) (rowOf x7 0) (rowOf x8 0) q := by
  have e : out1_9 (F := Ideal) x0 x1 x2 x3 x4 x5 x6 x7 x8 = out0_9 x0 x1 x2 x3 x4 x5 x6 x7 x8 := by
    unfold out1_9 out0_9
    rw [k1_pay2_eq, k1_pay3_eq, k1_pay4_eq]
    rfl
  rw [e]
  exact out0_9_row x0 x1 x2 x3 x4 x5 x6 x7 x8 p q

section Kernel2
variable (v0 v1 : Vec Ideal S2000x256 .f32) (v3 : Vec Ideal S1x256 .f32) (v10 : Vec Ideal S256x256 .f32)
  (v15 : Vec Ideal S1x256 .f32) (v21 : Vec Ideal S256x256 .f32) (v26 : Vec Ideal S1x256 .f32)

/-- The third kernel's residual block is the first kernel's: the extra cast of the node block is the identity. -/
theorem k2_pay2_eq : k2_pay2 (F := Ideal) v0 v1 v3 v10 v15 v21 v26 = k0_pay2 v0 v1 v3 v10 v15 v21 v26 := by
  unfold k2_pay2 k0_pay2
  simp only [shapeCast_self]

/-- So is its mean column … -/
theorem k2_pay3_eq : k2_pay3 (F := Ideal) v0 v1 v3 v10 v15 v21 v26 = k0_pay3 v0 v1 v3 v10 v15 v21 v26 := by
  unfold k2_pay3 k0_pay3
  rw [k2_pay2_eq]

/-- … and its block of squared deviations. -/
theorem k2_pay4_eq : k2_pay4 (F := Ideal) v0 v1 v3 v10 v15 v21 v26 = k0_pay4 v0 v1 v3 v10 v15 v21 v26 := by
  unfold k2_pay4 k0_pay4
  rw [k2_pay2_eq, k2_pay3_eq]

end Kernel2

/-- **The third kernel's block along a row**: the same layer of row `p`, its block being the first kernel's. -/
theorem out2_9_row (x0 x1 : Vec Ideal S2000x256 .f32) (x2 : Vec Ideal S256x256 .f32) (x3 : Vec Ideal S1x256 .f32)
    (x4 : Vec Ideal S256x256 .f32) (x5 x6 x7 x8 : Vec Ideal S1x256 .f32) (p : Fin 2000) (q : Fin 256) :
    out2_9 (F := Ideal) x0 x1 x2 x3 x4 x5 x6 x7 x8 (ix2 p q)
      = ginRow (rowOf x0 p) (rowOf x1 p) (fun a b => x2 (ix2 a b)) (rowOf x3 0) (fun a b => x4 (ix2 a b)) (rowOf x5 0)
          (rowOf x6 0) (rowOf x7 0) (rowOf x8 0) q := by
  have e : out2_9 (F := Ideal) x0 x1 x2 x3 x4 x5 x6 x7 x8 = out0_9 x0 x1 x2 x3 x4 x5 x6 x7 x8 := by
    unfold out2_9 out0_9
    rw [k2_pay2_eq, k2_pay3_eq, k2_pay4_eq]
    rfl
  rw [e]
  exact out0_9_row x0 x1 x2 x3 x4 x5 x6 x7 x8 p q

end Cert.Gin.Block

end
-- ==== Proof.KernelParams.lean ====
/-
  The layer parameters as the kernel's host program prepares them, read at an index.

  Before each of its three calls the host program cuts layer l's parameters (l = 0, 1, 2) out of the stacked arrays:

    a 256 x 256 matrix   the slice [l : l+1, 0 : 256, 0 : 256] of a 3 x 256 x 256 stack, reshaped to 256 x 256;
    a 1 x 256 row        the slice [l : l+1, 0 : 256] of a 3 x 256 stack, reshaped to 256 and again to 1 x 256;
    a 1 x 256 constant   the slice [l : l+1] of a length-3 array, reshaped to a scalar, to 1 x 1, and broadcast
                         along the row.

  A slice read at an index is the operand at the index shifted by the offsets; a reshape read at an index is the operand
  at the index with the same row-major position; a broadcast from 1 x 1 reads the one element everywhere. So element
  (a, b) of the matrix is element (l, a, b) of the stack, element (0, k) of the row is element (l, k) of its stack, and
  element (0, k) of the constant row is element l of the length-3 array, whatever k.
-/
import proofs.«136586_j78194174591254_1_alg».proof.KernelIdeal
import proofs.«136586_j78194174591254_1_alg».proof.Proof.GinRow
import Idealize.ShloMosaic.Lib.ValueIdx
import Idealize.ShloMosaic.Lib.Pipeline.Value
import Idealize.ShloMosaic.Lib.ValueLayout

noncomputable section

namespace Cert.Gin.Params

open Cert.KernelIdeal Idealize.ShloMosaic Idealize.ShloMosaic.ValueIdx Cert.Gin

-- the shape relations the program's text cites (a slice fits, two shapes hold the same number of elements, a
-- broadcast's axes agree) are the fields of the program's class of side conditions
variable [Facts₀]
open Cert.KernelIdeal.Facts₀

/-- The scalar shape's one index sits at row-major position 0. -/
theorem rowMajor_scalar : (S_.rowMajor ix0).val = 0 := Shape.rowMajorPi_zero _ _

/-! ## The matrices -/

/-- Element (a, b) of layer 0's matrix is element (0, a, b) of the stack. -/
theorem mat0 (X : FVec Ideal S3x256x256 .f32) (a b : Fin 256) :
    shapeCast S256x256 (extractStridedSlice S1x256x256 ![0, 0, 0] X slices_S3x256x256_S1x256x256_0_0_0) shapeCasts_S1x256x256_S256x256 (ix2 a b)
      = sliceMat X 0 a b := by
  -- the reshape drops the leading unit axis: (a, b) and (0, a, b) have row-major position a * 256 + b
  refine (shapeCast_apply _ shapeCasts_S1x256x256_S256x256 (ix2 a b) (ix3 (0 : Fin 1) a b) ?_).trans ?_
  · rewrite [Shape.rowMajor_val_three, Shape.rowMajor_val_two]
    show (0 * 256 + a.val) * 256 + b.val = a.val * 256 + b.val
    omega
  -- the slice starts at (0, 0, 0)
  exact extractStridedSlice_apply ![0, 0, 0] X slices_S3x256x256_S1x256x256_0_0_0 (ix3 (0 : Fin 1) a b) (ix3 (0 : Fin 3) a b)
    (fun c => match c with
      | ⟨0, _⟩ => by show (0 : Nat) = 0 + 0; omega
      | ⟨1, _⟩ => by show a.val = 0 + a.val; omega
      | ⟨2, _⟩ => by show b.val = 0 + b.val; omega)

/-- Element (a, b) of layer 1's matrix is element (1, a, b) of the stack. -/
theorem mat1 (X : FVec Ideal S3x256x256 .f32) (a b : Fin 256) :
    shapeCast S256x256 (extractStridedSlice S1x256x256 ![1, 0, 0] X slices_S3x256x256_S1x256x256_1_0_0) shapeCasts_S1x256x256_S256x256 (ix2 a b)
      = sliceMat X 1 a b := by
  -- the reshape drops the leading unit axis: (a, b) and (0, a, b) have row-major position a * 256 + b
  refine (shapeCast_apply _ shapeCasts_S1x256x256_S256x256 (ix2 a b) (ix3 (0 : Fin 1) a b) ?_).trans ?_
  · rewrite [Shape.rowMajor_val_three, Shape.rowMajor_val_two]
    show (0 * 256 + a.val) * 256 + b.val = a.val * 256 + b.val
    omega
  -- the slice starts at (1, 0, 0)
  exact extractStridedSlice_apply ![1, 0, 0] X slices_S3x256x256_S1x256x256_1_0_0 (ix3 (0 : Fin 1) a b) (ix3 (1 : Fin 3) a b)
    (fun c => match c with
      | ⟨0, _⟩ => by show (1 : Nat) = 1 + 0; omega
      | ⟨1, _⟩ => by show a.val = 0 + a.val; omega
      | ⟨2, _⟩ => by show b.val = 0 + b.val; omega)

/-- Element (a, b) of layer 2's matrix is element (2, a, b) of the stack. -/
theorem mat2 (X : FVec Ideal S3x256x256 .f32) (a b : Fin 256) :
    shapeCast S256x256 (extractStridedSlice S1x256x256 ![2, 0, 0] X slices_S3x256x256_S1x256x256_2_0_0) shapeCasts_S1x256x256_S256x256 (ix2 a b)
      = sliceMat X 2 a b := by
  -- the reshape drops the leading unit axis: (a, b) and (0, a, b) have row-major position a * 256 + b
  refine (shapeCast_apply _ shapeCasts_S1x256x256_S256x256 (ix2 a b) (ix3 (0 : Fin 1) a b) ?_).trans ?_
  · rewrite [Shape.rowMajor_val_three, Shape.rowMajor_val_two]
    show (0 * 256 + a.val) * 256 + b.val = a.val * 256 + b.val
    omega
  -- the slice starts at (2, 0, 0)
  exact extractStridedSlice_apply ![2, 0, 0] X slices_S3x256x256_S1x256x256_2_0_0 (ix3 (0 : Fin 1) a b) (ix3 (2 : Fin 3) a b)
    (fun c => match c with
      | ⟨0, _⟩ => by show (2 : Nat) = 2 + 0; omega
      | ⟨1, _⟩ => by show a.val = 0 + a.val; omega
      | ⟨2, _⟩ => by show b.val = 0 + b.val; omega)

/-! ## The rows -/

/-- Element (0, k) of layer 0's row is element (0, k) of the stack. -/
theorem row0 (X : FVec Ideal S3x256 .f32) (k : Fin 256) :
    shapeCast S1x256 (shapeCast S256 (extractStridedSlice S1x256 ![0, 0] X slices_S3x256_S1x256_0_0) shapeCasts_S1x256_S256) shapeCasts_S256_S1x256 (ix2 (0 : Fin 1) k)
      = sliceRow X 0 k := by
  -- both reshapes add or drop a unit axis: (0, k) and k have row-major position k
  refine (shapeCast_apply _ shapeCasts_S256_S1x256 (ix2 (0 : Fin 1) k) (ix1 k) ?_).trans ?_
  · rewrite [Shape.rowMajor_val_one, Shape.rowMajor_val_two]
    show k.val = 0 * 256 + k.val
    omega
  refine (shapeCast_apply _ shapeCasts_S1x256_S256 (ix1 k) (ix2 (0 : Fin 1) k) ?_).trans ?_
  · rewrite [Shape.rowMajor_val_two, Shape.rowMajor_val_one]
    show 0 * 256 + k.val = k.val
    omega
  -- the slice starts at (0, 0)
  exact extractStridedSlice_apply ![0, 0] X slices_S3x256_S1x256_0_0 (ix2 (0 : Fin 1) k) (ix2 (0 : Fin 3) k)
    (fun c => match c with
      | ⟨0, _⟩ => by show (0 : Nat) = 0 + 0; omega
      | ⟨1, _⟩ => by show k.val = 0 + k.val; omega)

/-- Element (0, k) of layer 1's row is element (1, k) of the stack. -/
theorem row1 (X : FVec Ideal S3x256 .f32) (k : Fin 256) :
    shapeCast S1x256 (shapeCast S256 (extractStridedSlice S1x256 ![1, 0] X slices_S3x256_S1x256_1_0) shapeCasts_S1x256_S256) shapeCasts_S256_S1x256 (ix2 (0 : Fin 1) k)
      = sliceRow X 1 k := by
  -- both reshapes add or drop a unit axis: (0, k) and k have row-major position k
  refine (shapeCast_apply _ shapeCasts_S256_S1x256 (ix2 (0 : Fin 1) k) (ix1 k) ?_).trans ?_
  · rewrite [Shape.rowMajor_val_one, Shape.rowMajor_val_two]
    show k.val = 0 * 256 + k.val
    omega
  refine (shapeCast_apply _ shapeCasts_S1x256_S256 (ix1 k) (ix2 (0 : Fin 1) k) ?_).trans ?_
  · rewrite [Shape.rowMajor_val_two, Shape.rowMajor_val_one]
    show 0 * 256 + k.val = k.val
    omega
  -- the slice starts at (1, 0)
  exact extractStridedSlice_apply ![1, 0] X slices_S3x256_S1x256_1_0 (ix2 (0 : Fin 1) k) (ix2 (1 : Fin 3) k)
    (fun c => match c with
      | ⟨0, _⟩ => by show (1 : Nat) = 1 + 0; omega
      | ⟨1, _⟩ => by show k.val = 0 + k.val; omega)

/-- Element (0, k) of layer 2's row is element (2, k) of the stack. -/
theorem row2 (X : FVec Ideal S3x256 .f32) (k : Fin 256) :
    shapeCast S1x256 (shapeCast S256 (extractStridedSlice S1x256 ![2, 0] X slices_S3x256_S1x256_2_0) shapeCasts_S1x256_S256) shapeCasts_S256_S1x256 (ix2 (0 : Fin 1) k)
      = sliceRow X 2 k := by
  -- both reshapes add or drop a unit axis: (0, k) and k have row-major position k
  refine (shapeCast_apply _ shapeCasts_S256_S1x256 (ix2 (0 : Fin 1) k) (ix1 k) ?_).trans ?_
  · rewrite [Shape.rowMajor_val_one, Shape.rowMajor_val_two]
    show k.val = 0 * 256 + k.val
    omega
  refine (shapeCast_apply _ shapeCasts_S1x256_S256 (ix1 k) (ix2 (0 : Fin 1) k) ?_).trans ?_
  · rewrite [Shape.rowMajor_val_two, Shape.rowMajor_val_one]
    show 0 * 256 + k.val = k.val
    omega
  -- the slice starts at (2, 0)
  exact extractStridedSlice_apply ![2, 0] X slices_S3x256_S1x256_2_0 (ix2 (0 : Fin 1) k) (ix2 (2 : Fin 3) k)
    (fun c => match c with
      | ⟨0, _⟩ => by show (2 : Nat) = 2 + 0; omega
      | ⟨1, _⟩ => by show k.val = 0 + k.val; omega)

/-! ## The constant rows -/

/-- Every element (0, k) of layer 0's constant row is element 0 of the length-3 array. -/
theorem eps0 (E : FVec Ideal S3 .f32) (k : Fin 256) :
    broadcastInDim S1x256 ![0, 1] bcast_S1x1_S1x256_0_1 (shapeCast S1x1 (shapeCast S_ (extractStridedSlice S1 ![0] E slices_S3_S1_0) shapeCasts_S1_S_) shapeCasts_S_S1x1) (ix2 (0 : Fin 1) k)
      = sliceConst E 0 k := by
  -- both axes of the 1 x 1 operand are unit axes: the broadcast reads (0, 0) at every k
  refine (broadcastInDim_apply ![0, 1] bcast_S1x1_S1x256_0_1 _ (ix2 (0 : Fin 1) k) (ix2 (0 : Fin 1) (0 : Fin 1)) ?_).trans ?_
  · intro c
    match c with
    | ⟨0, _⟩ => rfl
    | ⟨1, _⟩ => rfl
  -- one element on both sides of each reshape, at row-major position 0
  refine (shapeCast_apply _ shapeCasts_S_S1x1 (ix2 (0 : Fin 1) (0 : Fin 1)) ix0 ?_).trans ?_
  · rewrite [rowMajor_scalar, Shape.rowMajor_val_two]
    rfl
  refine (shapeCast_apply _ shapeCasts_S1_S_ ix0 (ix1 (0 : Fin 1)) ?_).trans ?_
  · rewrite [rowMajor_scalar, Shape.rowMajor_val_one]
    rfl
  -- the slice starts at 0
  exact extractStridedSlice_apply ![0] E slices_S3_S1_0 (ix1 (0 : Fin 1)) (ix1 (0 : Fin 3))
    (fun c => match c with
      | ⟨0, _⟩ => by show (0 : Nat) = 0 + 0; omega)

/-- Every element (0, k) of layer 1's constant row is element 1 of the length-3 array. -/
theorem eps1 (E : FVec Ideal S3 .f32) (k : Fin 256) :
    broadcastInDim S1x256 ![0, 1] bcast_S1x1_S1x256_0_1 (shapeCast S1x1 (shapeCast S_ (extractStridedSlice S1 ![1] E slices_S3_S1_1) shapeCasts_S1_S_) shapeCasts_S_S1x1) (ix2 (0 : Fin 1) k)
      = sliceConst E 1 k := by
  -- both axes of the 1 x 1 operand are unit axes: the broadcast reads (0, 0) at every k
  refine (broadcastInDim_apply ![0, 1] bcast_S1x1_S1x256_0_1 _ (ix2 (0 : Fin 1) k) (ix2 (0 : Fin 1) (0 : Fin 1)) ?_).trans ?_
  · intro c
    match c with
    | ⟨0, _⟩ => rfl
    | ⟨1, _⟩ => rfl
  -- one element on both sides of each reshape, at row-major position 0
  refine (shapeCast_apply _ shapeCasts_S_S1x1 (ix2 (0 : Fin 1) (0 : Fin 1)) ix0 ?_).trans ?_
  · rewrite [rowMajor_scalar, Shape.rowMajor_val_two]
    rfl
  refine (shapeCast_apply _ shapeCasts_S1_S_ ix0 (ix1 (0 : Fin 1)) ?_).trans ?_
  · rewrite [rowMajor_scalar, Shape.rowMajor_val_one]
    rfl
  -- the slice starts at 1
  exact extractStridedSlice_apply ![1] E slices_S3_S1_1 (ix1 (0 : Fin 1)) (ix1 (1 : Fin 3))
    (fun c => match c with
      | ⟨0, _⟩ => by show (1 : Nat) = 1 + 0; omega)

/-- Every element (0, k) of layer 2's constant row is element 2 of the length-3 array. -/
theorem eps2 (E : FVec Ideal S3 .f32) (k : Fin 256) :
    broadcastInDim S1x256 ![0, 1] bcast_S1x1_S1x256_0_1 (shapeCast S1x1 (shapeCast S_ (extractStridedSlice S1 ![2] E slices_S3_S1_2) shapeCasts_S1_S_) shapeCasts_S_S1x1) (ix2 (0 : Fin 1) k)
      = sliceConst E 2 k := by
  -- both axes of the 1 x 1 operand are unit axes: the broadcast reads (0, 0) at every k
  refine (broadcastInDim_apply ![0, 1] bcast_S1x1_S1x256_0_1 _ (ix2 (0 : Fin 1) k) (ix2 (0 : Fin 1) (0 : Fin 1)) ?_).trans ?_
  · intro c
    match c with
    | ⟨0, _⟩ => rfl
    | ⟨1, _⟩ => rfl
  -- one element on both sides of each reshape, at row-major position 0
  refine (shapeCast_apply _ shapeCasts_S_S1x1 (ix2 (0 : Fin 1) (0 : Fin 1)) ix0 ?_).trans ?_
  · rewrite [rowMajor_scalar, Shape.rowMajor_val_two]
    rfl
  refine (shapeCast_apply _ shapeCasts_S1_S_ ix0 (ix1 (0 : Fin 1)) ?_).trans ?_
  · rewrite [rowMajor_scalar, Shape.rowMajor_val_one]
    rfl
  -- the slice starts at 2
  exact extractStridedSlice_apply ![2] E slices_S3_S1_2 (ix1 (0 : Fin 1)) (ix1 (2 : Fin 3))
    (fun c => match c with
      | ⟨0, _⟩ => by show (2 : Nat) = 2 + 0; omega)

end Cert.Gin.Params

end
-- ==== Proof.KernelWalk.lean ====
/-
  The kernel program's buffers, walked through the run's fold.

  The run's fold gives every buffer's contents at each boundary between the program's segments: W0 at launch, W1
  after the first stretch of host operations, W2 after the first call, W3 after the second stretch, W4 after the
  second call, W5 after the third stretch, W6 after the third call. A call changes only its own arrays, and leaves each
  of them at what its pipeline leaves; a stretch of host operations changes only the buffers its operations write. So
  a buffer that no call has among its arrays and no later operation writes keeps its contents from boundary to
  boundary. This module walks a few buffers through stretches of the fold in that way: the argument arrays back to the
  launch memory, the two index vectors back to where the first stretch wrote them, each call's result array at what
  the call's pipeline leaves, and each result across the stretch that reads it.
-/
import proofs.«136586_j78194174591254_1_alg».proof.Proof.Gen.KernelIdeal.Frame

set_option maxRecDepth 16384

noncomputable section

namespace Cert.Gin.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] (m : (ℓ : Loc nD τ sig) → Buf (Elt F) ℓ) (ρ : Dev nD → PrngReg)

/-- A stretch of host operations keeps a buffer none of its operations writes: the stretch's operations are listed,
    each writes one buffer, and that buffer is another one. -/
local macro "stretch_keeps " ops:ident b:ident : tactic =>
  `(tactic| (
    refine StableHlo.after_of_forall_not_mem (b := Proc.devRef .tc $b) _ _ (List.forall_iff_forall_mem.mp ?_)
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## Each call's result array, at what the call's pipeline leaves -/

/-- After the first call its result array holds what its pipeline leaves. -/
theorem W2_main_v34 (c : Dev nD) : W2 m ρ c (Proc.devRef .tc main_v34) = (dat0 (V1 m ρ) c).arrAt 9 cfg0.N :=
  W2_arr m ρ c 9
/-- After the second call its result array holds what its pipeline leaves. -/
theorem W4_main_v65 (c : Dev nD) : W4 m ρ c (Proc.devRef .tc main_v65) = (dat1 (V3 m ρ) c).arrAt 9 cfg1.N :=
  W4_arr m ρ c 9
/-- After the third call its result array holds what its pipeline leaves. -/
theorem W6_main_v96 (c : Dev nD) : W6 m ρ c (Proc.devRef .tc main_v96) = (dat2 (V5 m ρ) c).arrAt 9 cfg2.N :=
  W6_arr m ρ c 9

/-! ## A call's result across the stretch that reads it -/

/-- The second stretch reads the first call's result and does not write it. -/
theorem W3_main_v34 (c : Dev nD) : W3 m ρ c (Proc.devRef .tc main_v34) = W2 m ρ c (Proc.devRef .tc main_v34) := by
  stretch_keeps hostOps1 main_v34
/-- The third stretch reads the second call's result and does not write it. -/
theorem W5_main_v65 (c : Dev nD) : W5 m ρ c (Proc.devRef .tc main_v65) = W4 m ρ c (Proc.devRef .tc main_v65) := by
  stretch_keeps hostOps2 main_v65

/-! ## The two index vectors, written once by the first stretch -/

/-- The first call leaves the index vector main_v1 as the first stretch wrote it. -/
theorem W2_main_v1 (c : Dev nD) : W2 m ρ c (Proc.devRef .tc main_v1) = W1 m ρ c (Proc.devRef .tc main_v1) :=
  W2_of_ne m ρ c main_v1 (by decide)
/-- So do the second stretch and the second call. -/
theorem W4_main_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by stretch_keeps hostOps1 main_v1
    _ = W1 m ρ c (Proc.devRef .tc main_v1) := W2_main_v1 m ρ c

/-- The first call leaves the index vector main_v3 as the first stretch wrote it. -/
theorem W2_main_v3 (c : Dev nD) : W2 m ρ c (Proc.devRef .tc main_v3) = W1 m ρ c (Proc.devRef .tc main_v3) :=
  W2_of_ne m ρ c main_v3 (by decide)
/-- So do the second stretch and the second call. -/
theorem W4_main_v3 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by stretch_keeps hostOps1 main_v3
    _ = W1 m ρ c (Proc.devRef .tc main_v3) := W2_main_v3 m ρ c

/-! ## The edge array and the parameter stacks, back to the launch memory -/

/-- Argument 1 after the first call is as launched: it is none of the call's arrays and the first stretch does not write it. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := by stretch_keeps hostOps0 main_arg1
    _ = m ((c : Thread nD τ).loc main_arg1) := rfl
/-- Argument 1 after the second call is as launched too. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := by stretch_keeps hostOps1 main_arg1
    _ = m ((c : Thread nD τ).loc main_arg1) := W2_main_arg1 m ρ c

/-- Argument 2 after the first call is as launched: it is none of the call's arrays and the first stretch does not write it. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := by stretch_keeps hostOps0 main_arg2
    _ = m ((c : Thread nD τ).loc main_arg2) := rfl
/-- Argument 2 after the second call is as launched too. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by stretch_keeps hostOps1 main_arg2
    _ = m ((c : Thread nD τ).loc main_arg2) := W2_main_arg2 m ρ c

/-- Argument 3 after the first call is as launched: it is none of the call's arrays and the first stretch does not write it. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by stretch_keeps hostOps0 main_arg3
    _ = m ((c : Thread nD τ).loc main_arg3) := rfl
/-- Argument 3 after the second call is as launched too. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by stretch_keeps hostOps1 main_arg3
    _ = m ((c : Thread nD τ).loc main_arg3) := W2_main_arg3 m ρ c

/-- Argument 4 after the first call is as launched: it is none of the call's arrays and the first stretch does not write it. -/
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by stretch_keeps hostOps0 main_arg4
    _ = m ((c : Thread nD τ).loc main_arg4) := rfl
/-- Argument 4 after the second call is as launched too. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by stretch_keeps hostOps1 main_arg4
    _ = m ((c : Thread nD τ).loc main_arg4) := W2_main_arg4 m ρ c

/-- Argument 5 after the first call is as launched: it is none of the call's arrays and the first stretch does not write it. -/
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by stretch_keeps hostOps0 main_arg5
    _ = m ((c : Thread nD τ).loc main_arg5) := rfl
/-- Argument 5 after the second call is as launched too. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by stretch_keeps hostOps1 main_arg5
    _ = m ((c : Thread nD τ).loc main_arg5) := W2_main_arg5 m ρ c

/-- Argument 6 after the first call is as launched: it is none of the call's arrays and the first stretch does not write it. -/
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := by stretch_keeps hostOps0 main_arg6
    _ = m ((c : Thread nD τ).loc main_arg6) := rfl
/-- Argument 6 after the second call is as launched too. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := by stretch_keeps hostOps1 main_arg6
    _ = m ((c : Thread nD τ).loc main_arg6) := W2_main_arg6 m ρ c

/-- Argument 7 after the first call is as launched: it is none of the call's arrays and the first stretch does not write it. -/
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by stretch_keeps hostOps0 main_arg7
    _ = m ((c : Thread nD τ).loc main_arg7) := rfl
/-- Argument 7 after the second call is as launched too. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := by stretch_keeps hostOps1 main_arg7
    _ = m ((c : Thread nD τ).loc main_arg7) := W2_main_arg7 m ρ c

/-- Argument 8 after the first call is as launched: it is none of the call's arrays and the first stretch does not write it. -/
theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by stretch_keeps hostOps0 main_arg8
    _ = m ((c : Thread nD τ).loc main_arg8) := rfl
/-- Argument 8 after the second call is as launched too. -/
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := by stretch_keeps hostOps1 main_arg8
    _ = m ((c : Thread nD τ).loc main_arg8) := W2_main_arg8 m ρ c

end Cert.Gin.Walk

end
-- ==== Proof.KernelFold.lean ====
/-
  The kernel program's result as three layers of the node array.

  Between its three pipelined regions the kernel program prepares each layer's inputs by host operations: the source
  and destination node of every edge (rows 0 and 1 of the edge array), the aggregated array (gather the source rows of
  the current node array, add them into their destination rows of a zero array), and slice l of each stacked
  parameter. Reading the buffer contents after each stretch of host operations and each region gives the result
  buffer as the network of Net.lean over the aggregation `aggK`.
-/
import proofs.«136586_j78194174591254_1_alg».proof.Proof.Gen.KernelIdeal.Frame
import proofs.«136586_j78194174591254_1_alg».proof.Proof.Net
import proofs.«136586_j78194174591254_1_alg».proof.Proof.RegionValue
import proofs.«136586_j78194174591254_1_alg».proof.Proof.BlockRow
import proofs.«136586_j78194174591254_1_alg».proof.Proof.KernelParams
import proofs.«136586_j78194174591254_1_alg».proof.Proof.KernelWalk
import Idealize.ShloMosaic.Lib.StableHlo.Run

set_option maxRecDepth 16384

noncomputable section

namespace Cert.Gin.Fold

open Cert.KernelIdeal Cert.KernelIdeal.Gen Idealize.ShloMosaic Idealize.ShloMosaic.TcCoe Idealize.ShloMosaic.ValueIdx
open Idealize.SL.Sem Idealize.ShloMosaic.StableHlo Cert.Gin

variable (m : (ℓ : Loc nD τ sig) → Buf (Elt Ideal) ℓ) (ρ : Dev nD → PrngReg)

/-- The source node of every edge: row 0 of the edge array. -/
def srcK (E : (⟨S2x300000, .i32⟩ : BufTy).Contents (Elt Ideal)) : (⟨S300000, .i32⟩ : BufTy).Contents (Elt Ideal) :=
  shapeCast S300000 (extractStridedSlice S1x300000 ![0, 0] E slices_S2x300000_S1x300000_0_0) shapeCasts_S1x300000_S300000

/-- The destination node of every edge: row 1 of the edge array. -/
def dstK (E : (⟨S2x300000, .i32⟩ : BufTy).Contents (Elt Ideal)) : (⟨S300000, .i32⟩ : BufTy).Contents (Elt Ideal) :=
  shapeCast S300000 (extractStridedSlice S1x300000 ![1, 0] E slices_S2x300000_S1x300000_1_0) shapeCasts_S1x300000_S300000

/-- The aggregation over the edges `E`: gather row `src e` of `H` for every edge `e` (a negative node number counted
    from the end), and add the gathered rows into rows `dst e` of the zero array. -/
def aggK (E : (⟨S2x300000, .i32⟩ : BufTy).Contents (Elt Ideal)) (H : (⟨S100000x256, .f32⟩ : BufTy).Contents (Elt Ideal)) :
    (⟨S100000x256, .f32⟩ : BufTy).Contents (Elt Ideal) :=
  Host.scatterAdd scatter_S100000x256_S300000x1_S300000x256_1_0_0_1
    (broadcastInDim S100000x256 ![] bcast_S_S100000x256 (constant (F := Ideal) S_ .f32 0x00000000#32))
    (broadcastInDim S300000x1 ![0] bcast_S300000_S300000x1_0 (dstK E))
    (Host.gather gather_S100000x256_S300000x1_S300000x256_1_0_n_n_0_1_1256 H
      (broadcastInDim S300000x1 ![0] bcast_S300000_S300000x1_0
        (select (cmpi .slt (srcK E) (broadcastInDim S300000 ![] bcast_S_S300000 (constantI S_ 32 0#32)))
          (addi (srcK E) (broadcastInDim S300000 ![] bcast_S_S300000 (constantI S_ 32 100000#32))) (srcK E))))

/-- The layer of equal inputs is equal. -/
theorem layerFn_congr {H H' A A' : NodeArr} {w1 w1' : Fin 256 → Fin 256 → EReal} {b1 b1' : Fin 256 → EReal}
    {w2 w2' : Fin 256 → Fin 256 → EReal} {b2 b2' e e' g g' bt bt' : Fin 256 → EReal}
    (hH : H = H') (hA : A = A') (h1 : w1 = w1') (h2 : b1 = b1') (h3 : w2 = w2') (h4 : b2 = b2') (h5 : e = e') (h6 : g = g')
    (h7 : bt = bt') : layerFn H A w1 b1 w2 b2 e g bt = layerFn H' A' w1' b1' w2' b2' e' g' bt' := by
  subst hH hA h1 h2 h3 h4 h5 h6 h7; rfl

/-! ## Layer 0: after stretch 0 of host operations, and region 0 -/

theorem W1_main_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl

theorem W1_v1 (c : Dev nD) : W1 m ρ c (Proc.devRef .tc main_v1) = srcK (m ((c : Thread nD τ).loc main_arg1)) := by
  show StableHlo.after hostOps0 (W0 m ρ c) (Proc.devRef .tc main_v1) = _
  after_results_simp <;> rfl

theorem W1_v3 (c : Dev nD) : W1 m ρ c (Proc.devRef .tc main_v3) = dstK (m ((c : Thread nD τ).loc main_arg1)) := by
  show StableHlo.after hostOps0 (W0 m ρ c) (Proc.devRef .tc main_v3) = _
  after_results_simp <;> rfl

set_option maxHeartbeats 4000000 in
/-- The aggregated array of layer 0. -/
theorem W1_main_v13 (c : Dev nD) : W1 m ρ c (Proc.devRef .tc main_v13) = aggK (m ((c : Thread nD τ).loc main_arg1)) (m ((c : Thread nD τ).loc main_arg0)) := by
  show StableHlo.after hostOps0 (W0 m ρ c) (Proc.devRef .tc main_v13) = _
  after_results_simp <;> rfl

set_option maxHeartbeats 4000000 in
theorem W1_main_v15 (c : Dev nD) : W1 m ρ c (Proc.devRef .tc main_v15)
    = shapeCast S256x256 (extractStridedSlice S1x256x256 ![0, 0, 0] (m ((c : Thread nD τ).loc main_arg2)) slices_S3x256x256_S1x256x256_0_0_0) shapeCasts_S1x256x256_S256x256 := by
  show StableHlo.after hostOps0 (W0 m ρ c) (Proc.devRef .tc main_v15) = _
  after_results_simp <;> rfl

set_option maxHeartbeats 4000000 in
theorem W1_main_v28 (c : Dev nD) : W1 m ρ c (Proc.devRef .tc main_v28)
    = shapeCast S1x256 (shapeCast S256 (extractStridedSlice S1x256 ![0, 0] (m ((c : Thread nD τ).loc main_arg3)) slices_S3x256_S1x256_0_0) shapeCasts_S1x256_S256) shapeCasts_S256_S1x256 := by
  show StableHlo.after hostOps0 (W0 m ρ c) (Proc.devRef .tc main_v28) = _
  after_results_simp <;> rfl

set_option maxHeartbeats 4000000 in
theorem W1_main_v19 (c : Dev nD) : W1 m ρ c (Proc.devRef .tc main_v19)
    = shapeCast S256x256 (extractStridedSlice S1x256x256 ![0, 0, 0] (m ((c : Thread nD τ).loc main_arg4)) slices_S3x256x256_S1x256x256_0_0_0) shapeCasts_S1x256x256_S256x256 := by
  show StableHlo.after hostOps0 (W0 m ρ c) (Proc.devRef .tc main_v19) = _
  after_results_simp <;> rfl

set_option maxHeartbeats 4000000 in
theorem W1_main_v29 (c : Dev nD) : W1 m ρ c (Proc.devRef .tc main_v29)
    = shapeCast S1x256 (shapeCast S256 (extractStridedSlice S1x256 ![0, 0] (m ((c : Thread nD τ).loc main_arg5)) slices_S3x256_S1x256_0_0) shapeCasts_S1x256_S256) shapeCasts_S256_S1x256 := by
  show StableHlo.after hostOps0 (W0 m ρ c) (Proc.devRef .tc main_v29) = _
  after_results_simp <;> rfl

set_option maxHeartbeats 4000000 in
theorem W1_main_v33 (c : Dev nD) : W1 m ρ c (Proc.devRef .tc main_v33)
    = broadcastInDim S1x256 ![0, 1] bcast_S1x1_S1x256_0_1 (shapeCast S1x1 (shapeCast S_ (extractStridedSlice S1 ![0] (m ((c : Thread nD τ).loc main_arg6)) slices_S3_S1_0) shapeCasts_S1_S_) shapeCasts_S_S1x1) := by
  show StableHlo.after hostOps0 (W0 m ρ c) (Proc.devRef .tc main_v33) = _
  after_results_simp <;> rfl

set_option maxHeartbeats 4000000 in
theorem W1_main_v30 (c : Dev nD) : W1 m ρ c (Proc.devRef .tc main_v30)
    = shapeCast S1x256 (shapeCast S256 (extractStridedSlice S1x256 ![0, 0] (m ((c : Thread nD τ).loc main_arg7)) slices_S3x256_S1x256_0_0) shapeCasts_S1x256_S256) shapeCasts_S256_S1x256 := by
  show StableHlo.after hostOps0 (W0 m ρ c) (Proc.devRef .tc main_v30) = _
  after_results_simp <;> rfl

set_option maxHeartbeats 4000000 in
theorem W1_main_v31 (c : Dev nD) : W1 m ρ c (Proc.devRef .tc main_v31)
    = shapeCast S1x256 (shapeCast S256 (extractStridedSlice S1x256 ![0, 0] (m ((c : Thread nD τ).loc main_arg8)) slices_S3x256_S1x256_0_0) shapeCasts_S1x256_S256) shapeCasts_S256_S1x256 := by
  show StableHlo.after hostOps0 (W0 m ρ c) (Proc.devRef .tc main_v31) = _
  after_results_simp <;> rfl

/-- **After region 0** the result array is layer 0 of the argument node array. -/
theorem K0 (c : Dev nD) : W2 m ρ c (Proc.devRef .tc main_v34)
    = layerOf (aggK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) 0 (m ((c : Thread nD τ).loc main_arg0)) :=
  (Walk.W2_main_v34 m ρ c).trans ((Region.final0 (V1 m ρ) Block.out0_9_row c).trans
    (layerFn_congr (W1_main_arg0 m ρ c) (W1_main_v13 m ρ c)
      (funext fun a => funext fun b => (congrFun (W1_main_v15 m ρ c) (ix2 a b)).trans (Params.mat0 _ a b))
      (funext fun k => (congrFun (W1_main_v28 m ρ c) (ix2 (0 : Fin 1) k)).trans (Params.row0 _ k))
      (funext fun a => funext fun b => (congrFun (W1_main_v19 m ρ c) (ix2 a b)).trans (Params.mat0 _ a b))
      (funext fun k => (congrFun (W1_main_v29 m ρ c) (ix2 (0 : Fin 1) k)).trans (Params.row0 _ k))
      (funext fun k => (congrFun (W1_main_v33 m ρ c) (ix2 (0 : Fin 1) k)).trans (Params.eps0 _ k))
      (funext fun k => (congrFun (W1_main_v30 m ρ c) (ix2 (0 : Fin 1) k)).trans (Params.row0 _ k))
      (funext fun k => (congrFun (W1_main_v31 m ρ c) (ix2 (0 : Fin 1) k)).trans (Params.row0 _ k))))

/-! ## Layer 1: after stretch 1 of host operations, and region 1 -/

set_option maxHeartbeats 4000000 in
/-- The aggregated array of layer 1. -/
theorem W3_main_v44 (c : Dev nD) : W3 m ρ c (Proc.devRef .tc main_v44) = aggK (m ((c : Thread nD τ).loc main_arg1)) (W2 m ρ c (Proc.devRef .tc main_v34)) := by
  show StableHlo.after hostOps1 (W2 m ρ c) (Proc.devRef .tc main_v44) = _
  after_results_simp
  rw [Walk.W2_main_v1 m ρ c, Walk.W2_main_v3 m ρ c, W1_v1 m ρ c, W1_v3 m ρ c]
  rfl

set_option maxHeartbeats 4000000 in
theorem W3_main_v46 (c : Dev nD) : W3 m ρ c (Proc.devRef .tc main_v46)
    = shapeCast S256x256 (extractStridedSlice S1x256x256 ![1, 0, 0] (m ((c : Thread nD τ).loc main_arg2)) slices_S3x256x256_S1x256x256_1_0_0) shapeCasts_S1x256x256_S256x256 := by
  show StableHlo.after hostOps1 (W2 m ρ c) (Proc.devRef .tc main_v46) = _
  after_results_simp
  rw [Walk.W2_main_arg2 m ρ c]
  rfl

set_option maxHeartbeats 4000000 in
theorem W3_main_v59 (c : Dev nD) : W3 m ρ c (Proc.devRef .tc main_v59)
    = shapeCast S1x256 (shapeCast S256 (extractStridedSlice S1x256 ![1, 0] (m ((c : Thread nD τ).loc main_arg3)) slices_S3x256_S1x256_1_0) shapeCasts_S1x256_S256) shapeCasts_S256_S1x256 := by
  show StableHlo.after hostOps1 (W2 m ρ c) (Proc.devRef .tc main_v59) = _
  after_results_simp
  rw [Walk.W2_main_arg3 m ρ c]
  rfl

set_option maxHeartbeats 4000000 in
theorem W3_main_v50 (c : Dev nD) : W3 m ρ c (Proc.devRef .tc main_v50)
    = shapeCast S256x256 (extractStridedSlice S1x256x256 ![1, 0, 0] (m ((c : Thread nD τ).loc main_arg4)) slices_S3x256x256_S1x256x256_1_0_0) shapeCasts_S1x256x256_S256x256 := by
  show StableHlo.after hostOps1 (W2 m ρ c) (Proc.devRef .tc main_v50) = _
  after_results_simp
  rw [Walk.W2_main_arg4 m ρ c]
  rfl

set_option maxHeartbeats 4000000 in
theorem W3_main_v60 (c : Dev nD) : W3 m ρ c (Proc.devRef .tc main_v60)
    = shapeCast S1x256 (shapeCast S256 (extractStridedSlice S1x256 ![1, 0] (m ((c : Thread nD τ).loc main_arg5)) slices_S3x256_S1x256_1_0) shapeCasts_S1x256_S256) shapeCasts_S256_S1x256 := by
  show StableHlo.after hostOps1 (W2 m ρ c) (Proc.devRef .tc main_v60) = _
  after_results_simp
  rw [Walk.W2_main_arg5 m ρ c]
  rfl

set_option maxHeartbeats 4000000 in
theorem W3_main_v64 (c : Dev nD) : W3 m ρ c (Proc.devRef .tc main_v64)
    = broadcastInDim S1x256 ![0, 1] bcast_S1x1_S1x256_0_1 (shapeCast S1x1 (shapeCast S_ (extractStridedSlice S1 ![1] (m ((c : Thread nD τ).loc main_arg6)) slices_S3_S1_1) shapeCasts_S1_S_) shapeCasts_S_S1x1) := by
  show StableHlo.after hostOps1 (W2 m ρ c) (Proc.devRef .tc main_v64) = _
  after_results_simp
  rw [Walk.W2_main_arg6 m ρ c]
  rfl

set_option maxHeartbeats 4000000 in
theorem W3_main_v61 (c : Dev nD) : W3 m ρ c (Proc.devRef .tc main_v61)
    = shapeCast S1x256 (shapeCast S256 (extractStridedSlice S1x256 ![1, 0] (m ((c : Thread nD τ).loc main_arg7)) slices_S3x256_S1x256_1_0) shapeCasts_S1x256_S256) shapeCasts_S256_S1x256 := by
  show StableHlo.after hostOps1 (W2 m ρ c) (Proc.devRef .tc main_v61) = _
  after_results_simp
  rw [Walk.W2_main_arg7 m ρ c]
  rfl

set_option maxHeartbeats 4000000 in
theorem W3_main_v62 (c : Dev nD) : W3 m ρ c (Proc.devRef .tc main_v62)
    = shapeCast S1x256 (shapeCast S256 (extractStridedSlice S1x256 ![1, 0] (m ((c : Thread nD τ).loc main_arg8)) slices_S3x256_S1x256_1_0) shapeCasts_S1x256_S256) shapeCasts_S256_S1x256 := by
  show StableHlo.after hostOps1 (W2 m ρ c) (Proc.devRef .tc main_v62) = _
  after_results_simp
  rw [Walk.W2_main_arg8 m ρ c]
  rfl

/-- **After region 1** the result array is layer 1 of the previous result. -/
theorem K1 (c : Dev nD) : W4 m ρ c (Proc.devRef .tc main_v65)
    = layerOf (aggK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) 1 (W2 m ρ c (Proc.devRef .tc main_v34)) :=
  (Walk.W4_main_v65 m ρ c).trans ((Region.final1 (V3 m ρ) Block.out1_9_row c).trans
    (layerFn_congr (Walk.W3_main_v34 m ρ c) (W3_main_v44 m ρ c)
      (funext fun a => funext fun b => (congrFun (W3_main_v46 m ρ c) (ix2 a b)).trans (Params.mat1 _ a b))
      (funext fun k => (congrFun (W3_main_v59 m ρ c) (ix2 (0 : Fin 1) k)).trans (Params.row1 _ k))
      (funext fun a => funext fun b => (congrFun (W3_main_v50 m ρ c) (ix2 a b)).trans (Params.mat1 _ a b))
      (funext fun k => (congrFun (W3_main_v60 m ρ c) (ix2 (0 : Fin 1) k)).trans (Params.row1 _ k))
      (funext fun k => (congrFun (W3_main_v64 m ρ c) (ix2 (0 : Fin 1) k)).trans (Params.eps1 _ k))
      (funext fun k => (congrFun (W3_main_v61 m ρ c) (ix2 (0 : Fin 1) k)).trans (Params.row1 _ k))
      (funext fun k => (congrFun (W3_main_v62 m ρ c) (ix2 (0 : Fin 1) k)).trans (Params.row1 _ k))))

/-! ## Layer 2: after stretch 2 of host operations, and region 2 -/

set_option maxHeartbeats 4000000 in
/-- The aggregated array of layer 2. -/
theorem W5_main_v75 (c : Dev nD) : W5 m ρ c (Proc.devRef .tc main_v75) = aggK (m ((c : Thread nD τ).loc main_arg1)) (W4 m ρ c (Proc.devRef .tc main_v65)) := by
  show StableHlo.after hostOps2 (W4 m ρ c) (Proc.devRef .tc main_v75) = _
  after_results_simp
  rw [Walk.W4_main_v1 m ρ c, Walk.W4_main_v3 m ρ c, W1_v1 m ρ c, W1_v3 m ρ c]
  rfl

set_option maxHeartbeats 4000000 in
theorem W5_main_v77 (c : Dev nD) : W5 m ρ c (Proc.devRef .tc main_v77)
    = shapeCast S256x256 (extractStridedSlice S1x256x256 ![2, 0, 0] (m ((c : Thread nD τ).loc main_arg2)) slices_S3x256x256_S1x256x256_2_0_0) shapeCasts_S1x256x256_S256x256 := by
  show StableHlo.after hostOps2 (W4 m ρ c) (Proc.devRef .tc main_v77) = _
  after_results_simp
  rw [Walk.W4_main_arg2 m ρ c]
  rfl

set_option maxHeartbeats 4000000 in
theorem W5_main_v90 (c : Dev nD) : W5 m ρ c (Proc.devRef .tc main_v90)
    = shapeCast S1x256 (shapeCast S256 (extractStridedSlice S1x256 ![2, 0] (m ((c : Thread nD τ).loc main_arg3)) slices_S3x256_S1x256_2_0) shapeCasts_S1x256_S256) shapeCasts_S256_S1x256 := by
  show StableHlo.after hostOps2 (W4 m ρ c) (Proc.devRef .tc main_v90) = _
  after_results_simp
  rw [Walk.W4_main_arg3 m ρ c]
  rfl

set_option maxHeartbeats 4000000 in
theorem W5_main_v81 (c : Dev nD) : W5 m ρ c (Proc.devRef .tc main_v81)
    = shapeCast S256x256 (extractStridedSlice S1x256x256 ![2, 0, 0] (m ((c : Thread nD τ).loc main_arg4)) slices_S3x256x256_S1x256x256_2_0_0) shapeCasts_S1x256x256_S256x256 := by
  show StableHlo.after hostOps2 (W4 m ρ c) (Proc.devRef .tc main_v81) = _
  after_results_simp
  rw [Walk.W4_main_arg4 m ρ c]
  rfl

set_option maxHeartbeats 4000000 in
theorem W5_main_v91 (c : Dev nD) : W5 m ρ c (Proc.devRef .tc main_v91)
    = shapeCast S1x256 (shapeCast S256 (extractStridedSlice S1x256 ![2, 0] (m ((c : Thread nD τ).loc main_arg5)) slices_S3x256_S1x256_2_0) shapeCasts_S1x256_S256) shapeCasts_S256_S1x256 := by
  show StableHlo.after hostOps2 (W4 m ρ c) (Proc.devRef .tc main_v91) = _
  after_results_simp
  rw [Walk.W4_main_arg5 m ρ c]
  rfl

set_option maxHeartbeats 4000000 in
theorem W5_main_v95 (c : Dev nD) : W5 m ρ c (Proc.devRef .tc main_v95)
    = broadcastInDim S1x256 ![0, 1] bcast_S1x1_S1x256_0_1 (shapeCast S1x1 (shapeCast S_ (extractStridedSlice S1 ![2] (m ((c : Thread nD τ).loc main_arg6)) slices_S3_S1_2) shapeCasts_S1_S_) shapeCasts_S_S1x1) := by
  show StableHlo.after hostOps2 (W4 m ρ c) (Proc.devRef .tc main_v95) = _
  after_results_simp
  rw [Walk.W4_main_arg6 m ρ c]
  rfl

set_option maxHeartbeats 4000000 in
theorem W5_main_v92 (c : Dev nD) : W5 m ρ c (Proc.devRef .tc main_v92)
    = shapeCast S1x256 (shapeCast S256 (extractStridedSlice S1x256 ![2, 0] (m ((c : Thread nD τ).loc main_arg7)) slices_S3x256_S1x256_2_0) shapeCasts_S1x256_S256) shapeCasts_S256_S1x256 := by
  show StableHlo.after hostOps2 (W4 m ρ c) (Proc.devRef .tc main_v92) = _
  after_results_simp
  rw [Walk.W4_main_arg7 m ρ c]
  rfl

set_option maxHeartbeats 4000000 in
theorem W5_main_v93 (c : Dev nD) : W5 m ρ c (Proc.devRef .tc main_v93)
    = shapeCast S1x256 (shapeCast S256 (extractStridedSlice S1x256 ![2, 0] (m ((c : Thread nD τ).loc main_arg8)) slices_S3x256_S1x256_2_0) shapeCasts_S1x256_S256) shapeCasts_S256_S1x256 := by
  show StableHlo.after hostOps2 (W4 m ρ c) (Proc.devRef .tc main_v93) = _
  after_results_simp
  rw [Walk.W4_main_arg8 m ρ c]
  rfl

/-- **After region 2** the result array is layer 2 of the previous result. -/
theorem K2 (c : Dev nD) : W6 m ρ c (Proc.devRef .tc main_v96)
    = layerOf (aggK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) 2 (W4 m ρ c (Proc.devRef .tc main_v65)) :=
  (Walk.W6_main_v96 m ρ c).trans ((Region.final2 (V5 m ρ) Block.out2_9_row c).trans
    (layerFn_congr (Walk.W5_main_v65 m ρ c) (W5_main_v75 m ρ c)
      (funext fun a => funext fun b => (congrFun (W5_main_v77 m ρ c) (ix2 a b)).trans (Params.mat2 _ a b))
      (funext fun k => (congrFun (W5_main_v90 m ρ c) (ix2 (0 : Fin 1) k)).trans (Params.row2 _ k))
      (funext fun a => funext fun b => (congrFun (W5_main_v81 m ρ c) (ix2 a b)).trans (Params.mat2 _ a b))
      (funext fun k => (congrFun (W5_main_v91 m ρ c) (ix2 (0 : Fin 1) k)).trans (Params.row2 _ k))
      (funext fun k => (congrFun (W5_main_v95 m ρ c) (ix2 (0 : Fin 1) k)).trans (Params.eps2 _ k))
      (funext fun k => (congrFun (W5_main_v92 m ρ c) (ix2 (0 : Fin 1) k)).trans (Params.row2 _ k))
      (funext fun k => (congrFun (W5_main_v93 m ρ c) (ix2 (0 : Fin 1) k)).trans (Params.row2 _ k))))

/-- **The kernel program's result buffer** after the whole run: the three-layer network of the argument arrays. -/
theorem foldK (c : Dev nD) : W6 m ρ c (Proc.devRef .tc main_v96)
    = net (aggK (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg0)) := by
  rw [K2 m ρ c, K1 m ρ c, K0 m ρ c]
  rfl

end Cert.Gin.Fold

end
-- ==== Proof.RefRunHand.lean ====
/-
  The reference program's run.

  The reference's @main is a straight line of 232 host operations, run in order on each device: the layer parameters
  cut out of their stacks, the neighbour sum (a gather along the edge array's first row and a scatter-add along its
  second), and per layer the mixed input, the two matrix products with their bias rows and the cut-off at 0, the
  residual, the normalisation by mean and variance, and the final cut-off at 0. Each operation writes one buffer, as a
  function of the buffers it reads. So from any launch memory with zero counters every weakly fair execution
  terminates, and in its final state each buffer holds the fold of the operations' results over the launch contents.
  Read at the result buffer, that fold is the last stage of the program's stages, each stage a function of the nine
  argument arrays through the stages before it; read at an argument buffer, which no operation writes, it is the launch
  contents.
-/
import proofs.«136586_j78194174591254_1_alg».proof.Proof.RefReadP
import Idealize.ShloMosaic.Lib.StableHlo.Run

noncomputable section

namespace Cert.Gin.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 232 operations, in order (a called function's operations stand in its call's place, spelt `TRef.…`). -/
abbrev ops : List (HloOp τ sig (Elt F)) :=
  [ unary main_arg1 main_v0 ((extractStridedSlice S1x300000 ![0, 0] · slices_S2x300000_S1x300000_0_0) : (⟨S2x300000, .i32⟩ : BufTy).Contents (Elt F) → (⟨S1x300000, .i32⟩ : BufTy).Contents (Elt F)),
    reshape main_v0 main_v1 rfl shapeCasts_S1x300000_S300000,
    unary main_arg1 main_v2 ((extractStridedSlice S1x300000 ![1, 0] · slices_S2x300000_S1x300000_1_0) : (⟨S2x300000, .i32⟩ : BufTy).Contents (Elt F) → (⟨S1x300000, .i32⟩ : BufTy).Contents (Elt F)),
    reshape main_v2 main_v3 rfl shapeCasts_S1x300000_S300000,
    unary main_arg2 main_v4 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v4 main_v5 rfl shapeCasts_S1x256x256_S256x256,
    unary main_arg3 main_v6 ((extractStridedSlice S1x256 ![0, 0] · slices_S3x256_S1x256_0_0) : (⟨S3x256, .f32⟩ : BufTy).Contents (Elt F) → (⟨S1x256, .f32⟩ : BufTy).Contents (Elt F)),
    reshape main_v6 main_v7 rfl shapeCasts_S1x256_S256,
    unary main_arg4 main_v8 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v8 main_v9 rfl shapeCasts_S1x256x256_S256x256,
    unary main_arg5 main_v10 ((extractStridedSlice S1x256 ![0, 0] · slices_S3x256_S1x256_0_0) : (⟨S3x256, .f32⟩ : BufTy).Contents (Elt F) → (⟨S1x256, .f32⟩ : BufTy).Contents (Elt F)),
    reshape main_v10 main_v11 rfl shapeCasts_S1x256_S256,
    unary main_arg6 main_v12 ((extractStridedSlice S1 ![0] · slices_S3_S1_0) : (⟨S3, .f32⟩ : BufTy).Contents (Elt F) → (⟨S1, .f32⟩ : BufTy).Contents (Elt F)),
    reshape main_v12 main_v13 rfl shapeCasts_S1_S_,
    unary main_arg7 main_v14 ((extractStridedSlice S1x256 ![0, 0] · slices_S3x256_S1x256_0_0) : (⟨S3x256, .f32⟩ : BufTy).Contents (Elt F) → (⟨S1x256, .f32⟩ : BufTy).Contents (Elt F)),
    reshape main_v14 main_v15 rfl shapeCasts_S1x256_S256,
    unary main_arg8 main_v16 ((extractStridedSlice S1x256 ![0, 0] · slices_S3x256_S1x256_0_0) : (⟨S3x256, .f32⟩ : BufTy).Contents (Elt F) → (⟨S1x256, .f32⟩ : BufTy).Contents (Elt F)),
    reshape main_v16 main_v17 rfl shapeCasts_S1x256_S256,
    nullary main_c (constantI S_ 32 0#32),
    unary main_c main_v18 (broadcastInDim S300000 ![] bcast_S_S300000 : (⟨S_, .i32⟩ : BufTy).Contents (Elt F) → (⟨S300000, .i32⟩ : BufTy).Contents (Elt F)),
    binary main_v1 main_v18 main_v19 (cmpi .slt : (⟨S300000, .i32⟩ : BufTy).Contents (Elt F) → (⟨S300000, .i32⟩ : BufTy).Contents (Elt F) → (⟨S300000, .i1⟩ : BufTy).Contents (Elt F)),
    nullary main_c_0 (constantI S_ 32 100000#32),
    unary main_c_0 main_v20 (broadcastInDim S300000 ![] bcast_S_S300000 : (⟨S_, .i32⟩ : BufTy).Contents (Elt F) → (⟨S300000, .i32⟩ : BufTy).Contents (Elt F)),
    binary main_v1 main_v20 main_v21 (addi : (⟨S300000, .i32⟩ : BufTy).Contents (Elt F) → (⟨S300000, .i32⟩ : BufTy).Contents (Elt F) → (⟨S300000, .i32⟩ : BufTy).Contents (Elt F)),
    ternary main_v19 main_v21 main_v1 main_v22 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v22 main_v23 (broadcastInDim S300000x1 ![0] bcast_S300000_S300000x1_0 : (⟨S300000, .i32⟩ : BufTy).Contents (Elt F) → (⟨S300000x1, .i32⟩ : BufTy).Contents (Elt F)),
    binary main_arg0 main_v23 main_v24 ((fun x i => Host.gather gather_S100000x256_S300000x1_S300000x256_1_0_n_n_0_1_1256 x i) : (⟨S100000x256, .f32⟩ : BufTy).Contents (Elt F) → (⟨S300000x1, .i32⟩ : BufTy).Contents (Elt F) → (⟨S300000x256, .f32⟩ : BufTy).Contents (Elt F)),
    nullary main_cst (constant S_ .f32 0x00000000#32),
    unary main_cst main_v25 (broadcastInDim S100000x256 ![] bcast_S_S100000x256 : (⟨S_, .f32⟩ : BufTy).Contents (Elt F) → (⟨S100000x256, .f32⟩ : BufTy).Contents (Elt F)),
    unary main_v3 main_v26 (broadcastInDim S300000x1 ![0] bcast_S300000_S300000x1_0 : (⟨S300000, .i32⟩ : BufTy).Contents (Elt F) → (⟨S300000x1, .i32⟩ : BufTy).Contents (Elt F)),
    ternary main_v25 main_v26 main_v24 main_v27 ((fun x i u => Host.scatterAdd scatter_S100000x256_S300000x1_S300000x256_1_0_0_1 x i u) : (⟨S100000x256, .f32⟩ : BufTy).Contents (Elt F) → (⟨S300000x1, .i32⟩ : BufTy).Contents (Elt F) → (⟨S300000x256, .f32⟩ : BufTy).Contents (Elt F) → (⟨S100000x256, .f32⟩ : BufTy).Contents (Elt F)),
    nullary main_cst_1 (constant S_ .f32 0x3F800000#32),
    binary main_cst_1 main_v13 main_v28 (addf : (⟨S_, .f32⟩ : BufTy).Contents (Elt F) → (⟨S_, .f32⟩ : BufTy).Contents (Elt F) → (⟨S_, .f32⟩ : BufTy).Contents (Elt F)),
    unary main_v28 main_v29 (broadcastInDim S100000x256 ![] bcast_S_S100000x256 : (⟨S_, .f32⟩ : BufTy).Contents (Elt F) → (⟨S100000x256, .f32⟩ : BufTy).Contents (Elt F)),
    binary main_v29 main_arg0 main_v30 (mulf : (⟨S100000x256, .f32⟩ : BufTy).Contents (Elt F) → (⟨S100000x256, .f32⟩ : BufTy).Contents (Elt F) → (⟨S100000x256, .f32⟩ : BufTy).Contents (Elt F)),
    binary main_v30 main_v27 main_v31 (addf : (⟨S100000x256, .f32⟩ : BufTy).Contents (Elt F) → (⟨S100000x256, .f32⟩ : BufTy).Contents (Elt F) → (⟨S100000x256, .f32⟩ : BufTy).Contents (Elt F)),
    binary main_v31 main_v5 main_v32 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_v7 main_v33 (broadcastInDim S1x256 ![1] bcast_S256_S1x256_1 : (⟨S256, .f32⟩ : BufTy).Contents (Elt F) → (⟨S1x256, .f32⟩ : BufTy).Contents (Elt F)),
    unary main_v33 main_v34 (broadcastInDim S100000x256 ![0, 1] bcast_S1x256_S100000x256_0_1 : (⟨S1x256, .f32⟩ : BufTy).Contents (Elt F) → (⟨S100000x256, .f32⟩ : BufTy).Contents (Elt F)),
    binary main_v32 main_v34 main_v35 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v35) (TRef.of (T := ⟨S100000x256, .f32⟩) main_call0_v0) (TRef.of (T := ⟨S100000x256, .f32⟩) main_v36) maximumf,
    binary main_v36 main_v9 main_v37 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_v11 main_v38 (broadcastInDim S1x256 ![1] bcast_S256_S1x256_1 : (⟨S256, .f32⟩ : BufTy).Contents (Elt F) → (⟨S1x256, .f32⟩ : BufTy).Contents (Elt F)),
    unary main_v38 main_v39 (broadcastInDim S100000x256 ![0, 1] bcast_S1x256_S100000x256_0_1 : (⟨S1x256, .f32⟩ : BufTy).Contents (Elt F) → (⟨S100000x256, .f32⟩ : BufTy).Contents (Elt F)),
    binary main_v37 main_v39 main_v40 (addf : (⟨S100000x256, .f32⟩ : BufTy).Contents (Elt F) → (⟨S100000x256, .f32⟩ : BufTy).Contents (Elt F) → (⟨S100000x256, .f32⟩ : BufTy).Contents (Elt F)),
    binary main_v40 main_arg0 main_v41 (addf : (⟨S100000x256, .f32⟩ : BufTy).Contents (Elt F) → (⟨S100000x256, .f32⟩ : BufTy).Contents (Elt F) → (⟨S100000x256, .f32⟩ : BufTy).Contents (Elt F)),
    nullary main_cst_2 (constant S_ .f32 0x00000000#32),
    binary main_v41 main_cst_2 main_v42 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v42 main_v43 (broadcastInDim S100000x1 ![0] bcast_S100000_S100000x1_0 : (⟨S100000, .f32⟩ : BufTy).Contents (Elt F) → (⟨S100000x1, .f32⟩ : BufTy).Contents (Elt F)),
    nullary main_cst_3 (constant S_ .f32 0x43800000#32),
    unary main_cst_3 main_v44 (broadcastInDim S100000x1 ![] bcast_S_S100000x1 : (⟨S_, .f32⟩ : BufTy).Contents (Elt F) → (⟨S100000x1, .f32⟩ : BufTy).Contents (Elt F)),
    binary main_v43 main_v44 main_v45 (Host.divf : (⟨S100000x1, .f32⟩ : BufTy).Contents (Elt F) → (⟨S100000x1, .f32⟩ : BufTy).Contents (Elt F) → (⟨S100000x1, .f32⟩ : BufTy).Contents (Elt F)),
    unary main_v45 main_v46 (broadcastInDim S100000x256 ![0, 1] bcast_S100000x1_S100000x256_0_1 : (⟨S100000x1, .f32⟩ : BufTy).Contents (Elt F) → (⟨S100000x256, .f32⟩ : BufTy).Contents (Elt F)),
    binary main_v41 main_v46 main_v47 (subf : (⟨S100000x256, .f32⟩ : BufTy).Contents (Elt F) → (⟨S100000x256, .f32⟩ : BufTy).Contents (Elt F) → (⟨S100000x256, .f32⟩ : BufTy).Contents (Elt F)),
    binary main_v47 main_v47 main_v48 (mulf : (⟨S100000x256, .f32⟩ : BufTy).Contents (Elt F) → (⟨S100000x256, .f32⟩ : BufTy).Contents (Elt F) → (⟨S100000x256, .f32⟩ : BufTy).Contents (Elt F)),
    nullary main_cst_4 (constant S_ .f32 0x00000000#32),
    binary main_v48 main_cst_4 main_v49 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v49 main_v50 (broadcastInDim S100000x1 ![0] bcast_S100000_S100000x1_0 : (⟨S100000, .f32⟩ : BufTy).Contents (Elt F) → (⟨S100000x1, .f32⟩ : BufTy).Contents (Elt F)),
    nullary main_cst_5 (constant S_ .f32 0x43800000#32),
    unary main_cst_5 main_v51 (broadcastInDim S100000x1 ![] bcast_S_S100000x1 : (⟨S_, .f32⟩ : BufTy).Contents (Elt F) → (⟨S100000x1, .f32⟩ : BufTy).Contents (Elt F)),
    binary main_v50 main_v51 main_v52 (Host.divf : (⟨S100000x1, .f32⟩ : BufTy).Contents (Elt F) → (⟨S100000x1, .f32⟩ : BufTy).Contents (Elt F) → (⟨S100000x1, .f32⟩ : BufTy).Contents (Elt F)),
    unary main_v45 main_v53 (broadcastInDim S100000x256 ![0, 1] bcast_S100000x1_S100000x256_0_1 : (⟨S100000x1, .f32⟩ : BufTy).Contents (Elt F) → (⟨S100000x256, .f32⟩ : BufTy).Contents (Elt F)),
    binary main_v41 main_v53 main_v54 (subf : (⟨S100000x256, .f32⟩ : BufTy).Contents (Elt F) → (⟨S100000x256, .f32⟩ : BufTy).Contents (Elt F) → (⟨S100000x256, .f32⟩ : BufTy).Contents (Elt F)),
    nullary main_cst_6 (constant S_ .f32 0x3727C5AC#32),
    unary main_cst_6 main_v55 (broadcastInDim S100000x1 ![] bcast_S_S100000x1 : (⟨S_, .f32⟩ : BufTy).Contents (Elt F) → (⟨S100000x1, .f32⟩ : BufTy).Contents (Elt F)),
    binary main_v52 main_v55 main_v56 (addf : (⟨S100000x1, .f32⟩ : BufTy).Contents (Elt F) → (⟨S100000x1, .f32⟩ : BufTy).Contents (Elt F) → (⟨S100000x1, .f32⟩ : BufTy).Contents (Elt F)),
    unary main_v56 main_v57 (Host.rsqrt : (⟨S100000x1, .f32⟩ : BufTy).Contents (Elt F) → (⟨S100000x1, .f32⟩ : BufTy).Contents (Elt F)),
    unary main_v57 main_v58 (broadcastInDim S100000x256 ![0, 1] bcast_S100000x1_S100000x256_0_1 : (⟨S100000x1, .f32⟩ : BufTy).Contents (Elt F) → (⟨S100000x256, .f32⟩ : BufTy).Contents (Elt F)),
    binary main_v54 main_v58 main_v59 (mulf : (⟨S100000x256, .f32⟩ : BufTy).Contents (Elt F) → (⟨S100000x256, .f32⟩ : BufTy).Contents (Elt F) → (⟨S100000x256, .f32⟩ : BufTy).Contents (Elt F)),
    unary main_v15 main_v60 (broadcastInDim S1x256 ![1] bcast_S256_S1x256_1 : (⟨S256, .f32⟩ : BufTy).Contents (Elt F) → (⟨S1x256, .f32⟩ : BufTy).Contents (Elt F)),
    unary main_v60 main_v61 (broadcastInDim S100000x256 ![0, 1] bcast_S1x256_S100000x256_0_1 : (⟨S1x256, .f32⟩ : BufTy).Contents (Elt F) → (⟨S100000x256, .f32⟩ : BufTy).Contents (Elt F)),
    binary main_v59 main_v61 main_v62 (mulf : (⟨S100000x256, .f32⟩ : BufTy).Contents (Elt F) → (⟨S100000x256, .f32⟩ : BufTy).Contents (Elt F) → (⟨S100000x256, .f32⟩ : BufTy).Contents (Elt F)),
    unary main_v17 main_v63 (broadcastInDim S1x256 ![1] bcast_S256_S1x256_1 : (⟨S256, .f32⟩ : BufTy).Contents (Elt F) → (⟨S1x256, .f32⟩ : BufTy).Contents (Elt F)),
    unary main_v63 main_v64 (broadcastInDim S100000x256 ![0, 1] bcast_S1x256_S100000x256_0_1 : (⟨S1x256, .f32⟩ : BufTy).Contents (Elt F) → (⟨S100000x256, .f32⟩ : BufTy).Contents (Elt F)),
    binary main_v62 main_v64 main_v65 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x256, .f32⟩) main_call1_v0) (broadcastInDim S100000x256 ![] bcast_S_S100000x256),
    TRef.binary (TRef.of (T := ⟨S100000x256, .f32⟩) main_v65) (TRef.of (T := ⟨S100000x256, .f32⟩) main_call1_v0) (TRef.of (T := ⟨S100000x256, .f32⟩) main_v66) maximumf,
    unary main_arg2 main_v67 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v67 main_v68 rfl shapeCasts_S1x256x256_S256x256,
    unary main_arg3 main_v69 ((extractStridedSlice S1x256 ![1, 0] · slices_S3x256_S1x256_1_0) : (⟨S3x256, .f32⟩ : BufTy).Contents (Elt F) → (⟨S1x256, .f32⟩ : BufTy).Contents (Elt F)),
    reshape main_v69 main_v70 rfl shapeCasts_S1x256_S256,
    unary main_arg4 main_v71 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v71 main_v72 rfl shapeCasts_S1x256x256_S256x256,
    unary main_arg5 main_v73 ((extractStridedSlice S1x256 ![1, 0] · slices_S3x256_S1x256_1_0) : (⟨S3x256, .f32⟩ : BufTy).Contents (Elt F) → (⟨S1x256, .f32⟩ : BufTy).Contents (Elt F)),
    reshape main_v73 main_v74 rfl shapeCasts_S1x256_S256,
    unary main_arg6 main_v75 ((extractStridedSlice S1 ![1] · slices_S3_S1_1) : (⟨S3, .f32⟩ : BufTy).Contents (Elt F) → (⟨S1, .f32⟩ : BufTy).Contents (Elt F)),
    reshape main_v75 main_v76 rfl shapeCasts_S1_S_,
    unary main_arg7 main_v77 ((extractStridedSlice S1x256 ![1, 0] · slices_S3x256_S1x256_1_0) : (⟨S3x256, .f32⟩ : BufTy).Contents (Elt F) → (⟨S1x256, .f32⟩ : BufTy).Contents (Elt F)),
    reshape main_v77 main_v78 rfl shapeCasts_S1x256_S256,
    unary main_arg8 main_v79 ((extractStridedSlice S1x256 ![1, 0] · slices_S3x256_S1x256_1_0) : (⟨S3x256, .f32⟩ : BufTy).Contents (Elt F) → (⟨S1x256, .f32⟩ : BufTy).Contents (Elt F)),
    reshape main_v79 main_v80 rfl shapeCasts_S1x256_S256,
    nullary main_c_7 (constantI S_ 32 0#32),
    unary main_c_7 main_v81 (broadcastInDim S300000 ![] bcast_S_S300000 : (⟨S_, .i32⟩ : BufTy).Contents (Elt F) → (⟨S300000, .i32⟩ : BufTy).Contents (Elt F)),
    binary main_v1 main_v81 main_v82 (cmpi .slt : (⟨S300000, .i32⟩ : BufTy).Contents (Elt F) → (⟨S300000, .i32⟩ : BufTy).Contents (Elt F) → (⟨S300000, .i1⟩ : BufTy).Contents (Elt F)),
    nullary main_c_8 (constantI S_ 32 100000#32),
    unary main_c_8 main_v83 (broadcastInDim S300000 ![] bcast_S_S300000 : (⟨S_, .i32⟩ : BufTy).Contents (Elt F) → (⟨S300000, .i32⟩ : BufTy).Contents (Elt F)),
    binary main_v1 main_v83 main_v84 (addi : (⟨S300000, .i32⟩ : BufTy).Contents (Elt F) → (⟨S300000, .i32⟩ : BufTy).Contents (Elt F) → (⟨S300000, .i32⟩ : BufTy).Contents (Elt F)),
    ternary main_v82 main_v84 main_v1 main_v85 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v85 main_v86 (broadcastInDim S300000x1 ![0] bcast_S300000_S300000x1_0 : (⟨S300000, .i32⟩ : BufTy).Contents (Elt F) → (⟨S300000x1, .i32⟩ : BufTy).Contents (Elt F)),
    binary main_v66 main_v86 main_v87 ((fun x i => Host.gather gather_S100000x256_S300000x1_S300000x256_1_0_n_n_0_1_1256 x i) : (⟨S100000x256, .f32⟩ : BufTy).Contents (Elt F) → (⟨S300000x1, .i32⟩ : BufTy).Contents (Elt F) → (⟨S300000x256, .f32⟩ : BufTy).Contents (Elt F)),
    nullary main_cst_9 (constant S_ .f32 0x00000000#32),
    unary main_cst_9 main_v88 (broadcastInDim S100000x256 ![] bcast_S_S100000x256 : (⟨S_, .f32⟩ : BufTy).Contents (Elt F) → (⟨S100000x256, .f32⟩ : BufTy).Contents (Elt F)),
    unary main_v3 main_v89 (broadcastInDim S300000x1 ![0] bcast_S300000_S300000x1_0 : (⟨S300000, .i32⟩ : BufTy).Contents (Elt F) → (⟨S300000x1, .i32⟩ : BufTy).Contents (Elt F)),
    ternary main_v88 main_v89 main_v87 main_v90 ((fun x i u => Host.scatterAdd scatter_S100000x256_S300000x1_S300000x256_1_0_0_1 x i u) : (⟨S100000x256, .f32⟩ : BufTy).Contents (Elt F) → (⟨S300000x1, .i32⟩ : BufTy).Contents (Elt F) → (⟨S300000x256, .f32⟩ : BufTy).Contents (Elt F) → (⟨S100000x256, .f32⟩ : BufTy).Contents (Elt F)),
    nullary main_cst_10 (constant S_ .f32 0x3F800000#32),
    binary main_cst_10 main_v76 main_v91 (addf : (⟨S_, .f32⟩ : BufTy).Contents (Elt F) → (⟨S_, .f32⟩ : BufTy).Contents (Elt F) → (⟨S_, .f32⟩ : BufTy).Contents (Elt F)),
    unary main_v91 main_v92 (broadcastInDim S100000x256 ![] bcast_S_S100000x256 : (⟨S_, .f32⟩ : BufTy).Contents (Elt F) → (⟨S100000x256, .f32⟩ : BufTy).Contents (Elt F)),
    binary main_v92 main_v66 main_v93 (mulf : (⟨S100000x256, .f32⟩ : BufTy).Contents (Elt F) → (⟨S100000x256, .f32⟩ : BufTy).Contents (Elt F) → (⟨S100000x256, .f32⟩ : BufTy).Contents (Elt F)),
    binary main_v93 main_v90 main_v94 (addf : (⟨S100000x256, .f32⟩ : BufTy).Contents (Elt F) → (⟨S100000x256, .f32⟩ : BufTy).Contents (Elt F) → (⟨S100000x256, .f32⟩ : BufTy).Contents (Elt F)),
    binary main_v94 main_v68 main_v95 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_v70 main_v96 (broadcastInDim S1x256 ![1] bcast_S256_S1x256_1 : (⟨S256, .f32⟩ : BufTy).Contents (Elt F) → (⟨S1x256, .f32⟩ : BufTy).Contents (Elt F)),
    unary main_v96 main_v97 (broadcastInDim S100000x256 ![0, 1] bcast_S1x256_S100000x256_0_1 : (⟨S1x256, .f32⟩ : BufTy).Contents (Elt F) → (⟨S100000x256, .f32⟩ : BufTy).Contents (Elt F)),
    binary main_v95 main_v97 main_v98 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x256, .f32⟩) main_call2_v0) (broadcastInDim S100000x256 ![] bcast_S_S100000x256),
    TRef.binary (TRef.of (T := ⟨S100000x256, .f32⟩) main_v98) (TRef.of (T := ⟨S100000x256, .f32⟩) main_call2_v0) (TRef.of (T := ⟨S100000x256, .f32⟩) main_v99) maximumf,
    binary main_v99 main_v72 main_v100 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_v74 main_v101 (broadcastInDim S1x256 ![1] bcast_S256_S1x256_1 : (⟨S256, .f32⟩ : BufTy).Contents (Elt F) → (⟨S1x256, .f32⟩ : BufTy).Contents (Elt F)),
    unary main_v101 main_v102 (broadcastInDim S100000x256 ![0, 1] bcast_S1x256_S100000x256_0_1 : (⟨S1x256, .f32⟩ : BufTy).Contents (Elt F) → (⟨S100000x256, .f32⟩ : BufTy).Contents (Elt F)),
    binary main_v100 main_v102 main_v103 (addf : (⟨S100000x256, .f32⟩ : BufTy).Contents (Elt F) → (⟨S100000x256, .f32⟩ : BufTy).Contents (Elt F) → (⟨S100000x256, .f32⟩ : BufTy).Contents (Elt F)),
    binary main_v103 main_v66 main_v104 (addf : (⟨S100000x256, .f32⟩ : BufTy).Contents (Elt F) → (⟨S100000x256, .f32⟩ : BufTy).Contents (Elt F) → (⟨S100000x256, .f32⟩ : BufTy).Contents (Elt F)),
    nullary main_cst_11 (constant S_ .f32 0x00000000#32),
    binary main_v104 main_cst_11 main_v105 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v105 main_v106 (broadcastInDim S100000x1 ![0] bcast_S100000_S100000x1_0 : (⟨S100000, .f32⟩ : BufTy).Contents (Elt F) → (⟨S100000x1, .f32⟩ : BufTy).Contents (Elt F)),
    nullary main_cst_12 (constant S_ .f32 0x43800000#32),
    unary main_cst_12 main_v107 (broadcastInDim S100000x1 ![] bcast_S_S100000x1 : (⟨S_, .f32⟩ : BufTy).Contents (Elt F) → (⟨S100000x1, .f32⟩ : BufTy).Contents (Elt F)),
    binary main_v106 main_v107 main_v108 (Host.divf : (⟨S100000x1, .f32⟩ : BufTy).Contents (Elt F) → (⟨S100000x1, .f32⟩ : BufTy).Contents (Elt F) → (⟨S100000x1, .f32⟩ : BufTy).Contents (Elt F)),
    unary main_v108 main_v109 (broadcastInDim S100000x256 ![0, 1] bcast_S100000x1_S100000x256_0_1 : (⟨S100000x1, .f32⟩ : BufTy).Contents (Elt F) → (⟨S100000x256, .f32⟩ : BufTy).Contents (Elt F)),
    binary main_v104 main_v109 main_v110 (subf : (⟨S100000x256, .f32⟩ : BufTy).Contents (Elt F) → (⟨S100000x256, .f32⟩ : BufTy).Contents (Elt F) → (⟨S100000x256, .f32⟩ : BufTy).Contents (Elt F)),
    binary main_v110 main_v110 main_v111 (mulf : (⟨S100000x256, .f32⟩ : BufTy).Contents (Elt F) → (⟨S100000x256, .f32⟩ : BufTy).Contents (Elt F) → (⟨S100000x256, .f32⟩ : BufTy).Contents (Elt F)),
    nullary main_cst_13 (constant S_ .f32 0x00000000#32),
    binary main_v111 main_cst_13 main_v112 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v112 main_v113 (broadcastInDim S100000x1 ![0] bcast_S100000_S100000x1_0 : (⟨S100000, .f32⟩ : BufTy).Contents (Elt F) → (⟨S100000x1, .f32⟩ : BufTy).Contents (Elt F)),
    nullary main_cst_14 (constant S_ .f32 0x43800000#32),
    unary main_cst_14 main_v114 (broadcastInDim S100000x1 ![] bcast_S_S100000x1 : (⟨S_, .f32⟩ : BufTy).Contents (Elt F) → (⟨S100000x1, .f32⟩ : BufTy).Contents (Elt F)),
    binary main_v113 main_v114 main_v115 (Host.divf : (⟨S100000x1, .f32⟩ : BufTy).Contents (Elt F) → (⟨S100000x1, .f32⟩ : BufTy).Contents (Elt F) → (⟨S100000x1, .f32⟩ : BufTy).Contents (Elt F)),
    unary main_v108 main_v116 (broadcastInDim S100000x256 ![0, 1] bcast_S100000x1_S100000x256_0_1 : (⟨S100000x1, .f32⟩ : BufTy).Contents (Elt F) → (⟨S100000x256, .f32⟩ : BufTy).Contents (Elt F)),
    binary main_v104 main_v116 main_v117 (subf : (⟨S100000x256, .f32⟩ : BufTy).Contents (Elt F) → (⟨S100000x256, .f32⟩ : BufTy).Contents (Elt F) → (⟨S100000x256, .f32⟩ : BufTy).Contents (Elt F)),
    nullary main_cst_15 (constant S_ .f32 0x3727C5AC#32),
    unary main_cst_15 main_v118 (broadcastInDim S100000x1 ![] bcast_S_S100000x1 : (⟨S_, .f32⟩ : BufTy).Contents (Elt F) → (⟨S100000x1, .f32⟩ : BufTy).Contents (Elt F)),
    binary main_v115 main_v118 main_v119 (addf : (⟨S100000x1, .f32⟩ : BufTy).Contents (Elt F) → (⟨S100000x1, .f32⟩ : BufTy).Contents (Elt F) → (⟨S100000x1, .f32⟩ : BufTy).Contents (Elt F)),
    unary main_v119 main_v120 (Host.rsqrt : (⟨S100000x1, .f32⟩ : BufTy).Contents (Elt F) → (⟨S100000x1, .f32⟩ : BufTy).Contents (Elt F)),
    unary main_v120 main_v121 (broadcastInDim S100000x256 ![0, 1] bcast_S100000x1_S100000x256_0_1 : (⟨S100000x1, .f32⟩ : BufTy).Contents (Elt F) → (⟨S100000x256, .f32⟩ : BufTy).Contents (Elt F)),
    binary main_v117 main_v121 main_v122 (mulf : (⟨S100000x256, .f32⟩ : BufTy).Contents (Elt F) → (⟨S100000x256, .f32⟩ : BufTy).Contents (Elt F) → (⟨S100000x256, .f32⟩ : BufTy).Contents (Elt F)),
    unary main_v78 main_v123 (broadcastInDim S1x256 ![1] bcast_S256_S1x256_1 : (⟨S256, .f32⟩ : BufTy).Contents (Elt F) → (⟨S1x256, .f32⟩ : BufTy).Contents (Elt F)),
    unary main_v123 main_v124 (broadcastInDim S100000x256 ![0, 1] bcast_S1x256_S100000x256_0_1 : (⟨S1x256, .f32⟩ : BufTy).Contents (Elt F) → (⟨S100000x256, .f32⟩ : BufTy).Contents (Elt F)),
    binary main_v122 main_v124 main_v125 (mulf : (⟨S100000x256, .f32⟩ : BufTy).Contents (Elt F) → (⟨S100000x256, .f32⟩ : BufTy).Contents (Elt F) → (⟨S100000x256, .f32⟩ : BufTy).Contents (Elt F)),
    unary main_v80 main_v126 (broadcastInDim S1x256 ![1] bcast_S256_S1x256_1 : (⟨S256, .f32⟩ : BufTy).Contents (Elt F) → (⟨S1x256, .f32⟩ : BufTy).Contents (Elt F)),
    unary main_v126 main_v127 (broadcastInDim S100000x256 ![0, 1] bcast_S1x256_S100000x256_0_1 : (⟨S1x256, .f32⟩ : BufTy).Contents (Elt F) → (⟨S100000x256, .f32⟩ : BufTy).Contents (Elt F)),
    binary main_v125 main_v127 main_v128 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x256, .f32⟩) main_call3_v0) (broadcastInDim S100000x256 ![] bcast_S_S100000x256),
    TRef.binary (TRef.of (T := ⟨S100000x256, .f32⟩) main_v128) (TRef.of (T := ⟨S100000x256, .f32⟩) main_call3_v0) (TRef.of (T := ⟨S100000x256, .f32⟩) main_v129) maximumf,
    unary main_arg2 main_v130 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v130 main_v131 rfl shapeCasts_S1x256x256_S256x256,
    unary main_arg3 main_v132 ((extractStridedSlice S1x256 ![2, 0] · slices_S3x256_S1x256_2_0) : (⟨S3x256, .f32⟩ : BufTy).Contents (Elt F) → (⟨S1x256, .f32⟩ : BufTy).Contents (Elt F)),
    reshape main_v132 main_v133 rfl shapeCasts_S1x256_S256,
    unary main_arg4 main_v134 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v134 main_v135 rfl shapeCasts_S1x256x256_S256x256,
    unary main_arg5 main_v136 ((extractStridedSlice S1x256 ![2, 0] · slices_S3x256_S1x256_2_0) : (⟨S3x256, .f32⟩ : BufTy).Contents (Elt F) → (⟨S1x256, .f32⟩ : BufTy).Contents (Elt F)),
    reshape main_v136 main_v137 rfl shapeCasts_S1x256_S256,
    unary main_arg6 main_v138 ((extractStridedSlice S1 ![2] · slices_S3_S1_2) : (⟨S3, .f32⟩ : BufTy).Contents (Elt F) → (⟨S1, .f32⟩ : BufTy).Contents (Elt F)),
    reshape main_v138 main_v139 rfl shapeCasts_S1_S_,
    unary main_arg7 main_v140 ((extractStridedSlice S1x256 ![2, 0] · slices_S3x256_S1x256_2_0) : (⟨S3x256, .f32⟩ : BufTy).Contents (Elt F) → (⟨S1x256, .f32⟩ : BufTy).Contents (Elt F)),
    reshape main_v140 main_v141 rfl shapeCasts_S1x256_S256,
    unary main_arg8 main_v142 ((extractStridedSlice S1x256 ![2, 0] · slices_S3x256_S1x256_2_0) : (⟨S3x256, .f32⟩ : BufTy).Contents (Elt F) → (⟨S1x256, .f32⟩ : BufTy).Contents (Elt F)),
    reshape main_v142 main_v143 rfl shapeCasts_S1x256_S256,
    nullary main_c_16 (constantI S_ 32 0#32),
    unary main_c_16 main_v144 (broadcastInDim S300000 ![] bcast_S_S300000 : (⟨S_, .i32⟩ : BufTy).Contents (Elt F) → (⟨S300000, .i32⟩ : BufTy).Contents (Elt F)),
    binary main_v1 main_v144 main_v145 (cmpi .slt : (⟨S300000, .i32⟩ : BufTy).Contents (Elt F) → (⟨S300000, .i32⟩ : BufTy).Contents (Elt F) → (⟨S300000, .i1⟩ : BufTy).Contents (Elt F)),
    nullary main_c_17 (constantI S_ 32 100000#32),
    unary main_c_17 main_v146 (broadcastInDim S300000 ![] bcast_S_S300000 : (⟨S_, .i32⟩ : BufTy).Contents (Elt F) → (⟨S300000, .i32⟩ : BufTy).Contents (Elt F)),
    binary main_v1 main_v146 main_v147 (addi : (⟨S300000, .i32⟩ : BufTy).Contents (Elt F) → (⟨S300000, .i32⟩ : BufTy).Contents (Elt F) → (⟨S300000, .i32⟩ : BufTy).Contents (Elt F)),
    ternary main_v145 main_v147 main_v1 main_v148 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v148 main_v149 (broadcastInDim S300000x1 ![0] bcast_S300000_S300000x1_0 : (⟨S300000, .i32⟩ : BufTy).Contents (Elt F) → (⟨S300000x1, .i32⟩ : BufTy).Contents (Elt F)),
    binary main_v129 main_v149 main_v150 ((fun x i => Host.gather gather_S100000x256_S300000x1_S300000x256_1_0_n_n_0_1_1256 x i) : (⟨S100000x256, .f32⟩ : BufTy).Contents (Elt F) → (⟨S300000x1, .i32⟩ : BufTy).Contents (Elt F) → (⟨S300000x256, .f32⟩ : BufTy).Contents (Elt F)),
    nullary main_cst_18 (constant S_ .f32 0x00000000#32),
    unary main_cst_18 main_v151 (broadcastInDim S100000x256 ![] bcast_S_S100000x256 : (⟨S_, .f32⟩ : BufTy).Contents (Elt F) → (⟨S100000x256, .f32⟩ : BufTy).Contents (Elt F)),
    unary main_v3 main_v152 (broadcastInDim S300000x1 ![0] bcast_S300000_S300000x1_0 : (⟨S300000, .i32⟩ : BufTy).Contents (Elt F) → (⟨S300000x1, .i32⟩ : BufTy).Contents (Elt F)),
    ternary main_v151 main_v152 main_v150 main_v153 ((fun x i u => Host.scatterAdd scatter_S100000x256_S300000x1_S300000x256_1_0_0_1 x i u) : (⟨S100000x256, .f32⟩ : BufTy).Contents (Elt F) → (⟨S300000x1, .i32⟩ : BufTy).Contents (Elt F) → (⟨S300000x256, .f32⟩ : BufTy).Contents (Elt F) → (⟨S100000x256, .f32⟩ : BufTy).Contents (Elt F)),
    nullary main_cst_19 (constant S_ .f32 0x3F800000#32),
    binary main_cst_19 main_v139 main_v154 (addf : (⟨S_, .f32⟩ : BufTy).Contents (Elt F) → (⟨S_, .f32⟩ : BufTy).Contents (Elt F) → (⟨S_, .f32⟩ : BufTy).Contents (Elt F)),
    unary main_v154 main_v155 (broadcastInDim S100000x256 ![] bcast_S_S100000x256 : (⟨S_, .f32⟩ : BufTy).Contents (Elt F) → (⟨S100000x256, .f32⟩ : BufTy).Contents (Elt F)),
    binary main_v155 main_v129 main_v156 (mulf : (⟨S100000x256, .f32⟩ : BufTy).Contents (Elt F) → (⟨S100000x256, .f32⟩ : BufTy).Contents (Elt F) → (⟨S100000x256, .f32⟩ : BufTy).Contents (Elt F)),
    binary main_v156 main_v153 main_v157 (addf : (⟨S100000x256, .f32⟩ : BufTy).Contents (Elt F) → (⟨S100000x256, .f32⟩ : BufTy).Contents (Elt F) → (⟨S100000x256, .f32⟩ : BufTy).Contents (Elt F)),
    binary main_v157 main_v131 main_v158 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_v133 main_v159 (broadcastInDim S1x256 ![1] bcast_S256_S1x256_1 : (⟨S256, .f32⟩ : BufTy).Contents (Elt F) → (⟨S1x256, .f32⟩ : BufTy).Contents (Elt F)),
    unary main_v159 main_v160 (broadcastInDim S100000x256 ![0, 1] bcast_S1x256_S100000x256_0_1 : (⟨S1x256, .f32⟩ : BufTy).Contents (Elt F) → (⟨S100000x256, .f32⟩ : BufTy).Contents (Elt F)),
    binary main_v158 main_v160 main_v161 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x256, .f32⟩) main_call4_v0) (broadcastInDim S100000x256 ![] bcast_S_S100000x256),
    TRef.binary (TRef.of (T := ⟨S100000x256, .f32⟩) main_v161) (TRef.of (T := ⟨S100000x256, .f32⟩) main_call4_v0) (TRef.of (T := ⟨S100000x256, .f32⟩) main_v162) maximumf,
    binary main_v162 main_v135 main_v163 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_v137 main_v164 (broadcastInDim S1x256 ![1] bcast_S256_S1x256_1 : (⟨S256, .f32⟩ : BufTy).Contents (Elt F) → (⟨S1x256, .f32⟩ : BufTy).Contents (Elt F)),
    unary main_v164 main_v165 (broadcastInDim S100000x256 ![0, 1] bcast_S1x256_S100000x256_0_1 : (⟨S1x256, .f32⟩ : BufTy).Contents (Elt F) → (⟨S100000x256, .f32⟩ : BufTy).Contents (Elt F)),
    binary main_v163 main_v165 main_v166 (addf : (⟨S100000x256, .f32⟩ : BufTy).Contents (Elt F) → (⟨S100000x256, .f32⟩ : BufTy).Contents (Elt F) → (⟨S100000x256, .f32⟩ : BufTy).Contents (Elt F)),
    binary main_v166 main_v129 main_v167 (addf : (⟨S100000x256, .f32⟩ : BufTy).Contents (Elt F) → (⟨S100000x256, .f32⟩ : BufTy).Contents (Elt F) → (⟨S100000x256, .f32⟩ : BufTy).Contents (Elt F)),
    nullary main_cst_20 (constant S_ .f32 0x00000000#32),
    binary main_v167 main_cst_20 main_v168 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v168 main_v169 (broadcastInDim S100000x1 ![0] bcast_S100000_S100000x1_0 : (⟨S100000, .f32⟩ : BufTy).Contents (Elt F) → (⟨S100000x1, .f32⟩ : BufTy).Contents (Elt F)),
    nullary main_cst_21 (constant S_ .f32 0x43800000#32),
    unary main_cst_21 main_v170 (broadcastInDim S100000x1 ![] bcast_S_S100000x1 : (⟨S_, .f32⟩ : BufTy).Contents (Elt F) → (⟨S100000x1, .f32⟩ : BufTy).Contents (Elt F)),
    binary main_v169 main_v170 main_v171 (Host.divf : (⟨S100000x1, .f32⟩ : BufTy).Contents (Elt F) → (⟨S100000x1, .f32⟩ : BufTy).Contents (Elt F) → (⟨S100000x1, .f32⟩ : BufTy).Contents (Elt F)),
    unary main_v171 main_v172 (broadcastInDim S100000x256 ![0, 1] bcast_S100000x1_S100000x256_0_1 : (⟨S100000x1, .f32⟩ : BufTy).Contents (Elt F) → (⟨S100000x256, .f32⟩ : BufTy).Contents (Elt F)),
    binary main_v167 main_v172 main_v173 (subf : (⟨S100000x256, .f32⟩ : BufTy).Contents (Elt F) → (⟨S100000x256, .f32⟩ : BufTy).Contents (Elt F) → (⟨S100000x256, .f32⟩ : BufTy).Contents (Elt F)),
    binary main_v173 main_v173 main_v174 (mulf : (⟨S100000x256, .f32⟩ : BufTy).Contents (Elt F) → (⟨S100000x256, .f32⟩ : BufTy).Contents (Elt F) → (⟨S100000x256, .f32⟩ : BufTy).Contents (Elt F)),
    nullary main_cst_22 (constant S_ .f32 0x00000000#32),
    binary main_v174 main_cst_22 main_v175 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v175 main_v176 (broadcastInDim S100000x1 ![0] bcast_S100000_S100000x1_0 : (⟨S100000, .f32⟩ : BufTy).Contents (Elt F) → (⟨S100000x1, .f32⟩ : BufTy).Contents (Elt F)),
    nullary main_cst_23 (constant S_ .f32 0x43800000#32),
    unary main_cst_23 main_v177 (broadcastInDim S100000x1 ![] bcast_S_S100000x1 : (⟨S_, .f32⟩ : BufTy).Contents (Elt F) → (⟨S100000x1, .f32⟩ : BufTy).Contents (Elt F)),
    binary main_v176 main_v177 main_v178 (Host.divf : (⟨S100000x1, .f32⟩ : BufTy).Contents (Elt F) → (⟨S100000x1, .f32⟩ : BufTy).Contents (Elt F) → (⟨S100000x1, .f32⟩ : BufTy).Contents (Elt F)),
    unary main_v171 main_v179 (broadcastInDim S100000x256 ![0, 1] bcast_S100000x1_S100000x256_0_1 : (⟨S100000x1, .f32⟩ : BufTy).Contents (Elt F) → (⟨S100000x256, .f32⟩ : BufTy).Contents (Elt F)),
    binary main_v167 main_v179 main_v180 (subf : (⟨S100000x256, .f32⟩ : BufTy).Contents (Elt F) → (⟨S100000x256, .f32⟩ : BufTy).Contents (Elt F) → (⟨S100000x256, .f32⟩ : BufTy).Contents (Elt F)),
    nullary main_cst_24 (constant S_ .f32 0x3727C5AC#32),
    unary main_cst_24 main_v181 (broadcastInDim S100000x1 ![] bcast_S_S100000x1 : (⟨S_, .f32⟩ : BufTy).Contents (Elt F) → (⟨S100000x1, .f32⟩ : BufTy).Contents (Elt F)),
    binary main_v178 main_v181 main_v182 (addf : (⟨S100000x1, .f32⟩ : BufTy).Contents (Elt F) → (⟨S100000x1, .f32⟩ : BufTy).Contents (Elt F) → (⟨S100000x1, .f32⟩ : BufTy).Contents (Elt F)),
    unary main_v182 main_v183 (Host.rsqrt : (⟨S100000x1, .f32⟩ : BufTy).Contents (Elt F) → (⟨S100000x1, .f32⟩ : BufTy).Contents (Elt F)),
    unary main_v183 main_v184 (broadcastInDim S100000x256 ![0, 1] bcast_S100000x1_S100000x256_0_1 : (⟨S100000x1, .f32⟩ : BufTy).Contents (Elt F) → (⟨S100000x256, .f32⟩ : BufTy).Contents (Elt F)),
    binary main_v180 main_v184 main_v185 (mulf : (⟨S100000x256, .f32⟩ : BufTy).Contents (Elt F) → (⟨S100000x256, .f32⟩ : BufTy).Contents (Elt F) → (⟨S100000x256, .f32⟩ : BufTy).Contents (Elt F)),
    unary main_v141 main_v186 (broadcastInDim S1x256 ![1] bcast_S256_S1x256_1 : (⟨S256, .f32⟩ : BufTy).Contents (Elt F) → (⟨S1x256, .f32⟩ : BufTy).Contents (Elt F)),
    unary main_v186 main_v187 (broadcastInDim S100000x256 ![0, 1] bcast_S1x256_S100000x256_0_1 : (⟨S1x256, .f32⟩ : BufTy).Contents (Elt F) → (⟨S100000x256, .f32⟩ : BufTy).Contents (Elt F)),
    binary main_v185 main_v187 main_v188 (mulf : (⟨S100000x256, .f32⟩ : BufTy).Contents (Elt F) → (⟨S100000x256, .f32⟩ : BufTy).Contents (Elt F) → (⟨S100000x256, .f32⟩ : BufTy).Contents (Elt F)),
    unary main_v143 main_v189 (broadcastInDim S1x256 ![1] bcast_S256_S1x256_1 : (⟨S256, .f32⟩ : BufTy).Contents (Elt F) → (⟨S1x256, .f32⟩ : BufTy).Contents (Elt F)),
    unary main_v189 main_v190 (broadcastInDim S100000x256 ![0, 1] bcast_S1x256_S100000x256_0_1 : (⟨S1x256, .f32⟩ : BufTy).Contents (Elt F) → (⟨S100000x256, .f32⟩ : BufTy).Contents (Elt F)),
    binary main_v188 main_v190 main_v191 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x256, .f32⟩) main_call5_v0) (broadcastInDim S100000x256 ![] bcast_S_S100000x256),
    TRef.binary (TRef.of (T := ⟨S100000x256, .f32⟩) main_v191) (TRef.of (T := ⟨S100000x256, .f32⟩) main_call5_v0) (TRef.of (T := ⟨S100000x256, .f32⟩) main_v192) maximumf ]

/-- Each window of @main is its stretch of the operation list (62, 64, 62 and 44 operations). -/
theorem main_part0_eq (c : Dev nD) : main_part0 (F := F) c = seq ((ops (F := F)).take 62) := rfl
theorem main_part1_eq (c : Dev nD) : main_part1 (F := F) c = seq (((ops (F := F)).drop 62).take 64) := rfl
theorem main_part2_eq (c : Dev nD) : main_part2 (F := F) c = seq (((ops (F := F)).drop 126).take 62) := rfl
theorem main_part3_eq (c : Dev nD) : main_part3 (F := F) c = seq ((ops (F := F)).drop 188) := rfl
/-- The list is its four stretches, one after the other. -/
theorem ops_split : (ops (F := F)) = (ops (F := F)).take 62 ++ (((ops (F := F)).drop 62).take 64 ++ (((ops (F := F)).drop 126).take 62 ++ (ops (F := F)).drop 188)) := rfl
/-- @main is the operations run in order: the four windows, one after the other, are the four stretches' runs. -/
theorem main_eq (c : Dev nD) : main (F := F) c = seq ops := by
  conv_rhs => rw [ops_split, seq_append, seq_append, seq_append]
  rw [← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- Every operation determines what it writes: none of them allocates a buffer. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ## The three layers, one after the other

The list is cut after each layer's output. A layer's operations read, of what came before them, only the previous
layer's output, the two index vectors and the parameter stacks; so each layer is read from ANY buffer contents that
hold those at their stages, and gives its own output at its stage. -/

/-- The first layer's operations (the parameter reads, the neighbour sum, the layer), ending with its output. -/
abbrev opsA : List (HloOp τ sig (Elt F)) :=
  [ unary main_arg1 main_v0 ((extractStridedSlice S1x300000 ![0, 0] · slices_S2x300000_S1x300000_0_0) : (⟨S2x300000, .i32⟩ : BufTy).Contents (Elt F) → (⟨S1x300000, .i32⟩ : BufTy).Contents (Elt F)),
    reshape main_v0 main_v1 rfl shapeCasts_S1x300000_S300000,
    unary main_arg1 main_v2 ((extractStridedSlice S1x300000 ![1, 0] · slices_S2x300000_S1x300000_1_0) : (⟨S2x300000, .i32⟩ : BufTy).Contents (Elt F) → (⟨S1x300000, .i32⟩ : BufTy).Contents (Elt F)),
    reshape main_v2 main_v3 rfl shapeCasts_S1x300000_S300000,
    unary main_arg2 main_v4 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v4 main_v5 rfl shapeCasts_S1x256x256_S256x256,
    unary main_arg3 main_v6 ((extractStridedSlice S1x256 ![0, 0] · slices_S3x256_S1x256_0_0) : (⟨S3x256, .f32⟩ : BufTy).Contents (Elt F) → (⟨S1x256, .f32⟩ : BufTy).Contents (Elt F)),
    reshape main_v6 main_v7 rfl shapeCasts_S1x256_S256,
    unary main_arg4 main_v8 ((extractStridedSlice S1x256x256 ![0, 0, 0] · slices_S3x256x256_S1x256x256_0_0_0) : (⟨S3x256x256, .f32⟩ : BufTy).Contents (Elt F) → (⟨S1x256x256, .f32⟩ : BufTy).Contents (Elt F)),
    reshape main_v8 main_v9 rfl shapeCasts_S1x256x256_S256x256,
    unary main_arg5 main_v10 ((extractStridedSlice S1x256 ![0, 0] · slices_S3x256_S1x256_0_0) : (⟨S3x256, .f32⟩ : BufTy).Contents (Elt F) → (⟨S1x256, .f32⟩ : BufTy).Contents (Elt F)),
    reshape main_v10 main_v11 rfl shapeCasts_S1x256_S256,
    unary main_arg6 main_v12 ((extractStridedSlice S1 ![0] · slices_S3_S1_0) : (⟨S3, .f32⟩ : BufTy).Contents (Elt F) → (⟨S1, .f32⟩ : BufTy).Contents (Elt F)),
    reshape main_v12 main_v13 rfl shapeCasts_S1_S_,
    unary main_arg7 main_v14 ((extractStridedSlice S1x256 ![0, 0] · slices_S3x256_S1x256_0_0) : (⟨S3x256, .f32⟩ : BufTy).Contents (Elt F) → (⟨S1x256, .f32⟩ : BufTy).Contents (Elt F)),
    reshape main_v14 main_v15 rfl shapeCasts_S1x256_S256,
    unary main_arg8 main_v16 ((extractStridedSlice S1x256 ![0, 0] · slices_S3x256_S1x256_0_0) : (⟨S3x256, .f32⟩ : BufTy).Contents (Elt F) → (⟨S1x256, .f32⟩ : BufTy).Contents (Elt F)),
    reshape main_v16 main_v17 rfl shapeCasts_S1x256_S256,
    nullary main_c (constantI S_ 32 0#32),
    unary main_c main_v18 (broadcastInDim S300000 ![] bcast_S_S300000 : (⟨S_, .i32⟩ : BufTy).Contents (Elt F) → (⟨S300000, .i32⟩ : BufTy).Contents (Elt F)),
    binary main_v1 main_v18 main_v19 (cmpi .slt : (⟨S300000, .i32⟩ : BufTy).Contents (Elt F) → (⟨S300000, .i32⟩ : BufTy).Contents (Elt F) → (⟨S300000, .i1⟩ : BufTy).Contents (Elt F)),
    nullary main_c_0 (constantI S_ 32 100000#32),
    unary main_c_0 main_v20 (broadcastInDim S300000 ![] bcast_S_S300000 : (⟨S_, .i32⟩ : BufTy).Contents (Elt F) → (⟨S300000, .i32⟩ : BufTy).Contents (Elt F)),
    binary main_v1 main_v20 main_v21 (addi : (⟨S300000, .i32⟩ : BufTy).Contents (Elt F) → (⟨S300000, .i32⟩ : BufTy).Contents (Elt F) → (⟨S300000, .i32⟩ : BufTy).Contents (Elt F)),
    ternary main_v19 main_v21 main_v1 main_v22 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v22 main_v23 (broadcastInDim S300000x1 ![0] bcast_S300000_S300000x1_0 : (⟨S300000, .i32⟩ : BufTy).Contents (Elt F) → (⟨S300000x1, .i32⟩ : BufTy).Contents (Elt F)),
    binary main_arg0 main_v23 main_v24 ((fun x i => Host.gather gather_S100000x256_S300000x1_S300000x256_1_0_n_n_0_1_1256 x i) : (⟨S100000x256, .f32⟩ : BufTy).Contents (Elt F) → (⟨S300000x1, .i32⟩ : BufTy).Contents (Elt F) → (⟨S300000x256, .f32⟩ : BufTy).Contents (Elt F)),
    nullary main_cst (constant S_ .f32 0x00000000#32),
    unary main_cst main_v25 (broadcastInDim S100000x256 ![] bcast_S_S100000x256 : (⟨S_, .f32⟩ : BufTy).Contents (Elt F) → (⟨S100000x256, .f32⟩ : BufTy).Contents (Elt F)),
    unary main_v3 main_v26 (broadcastInDim S300000x1 ![0] bcast_S300000_S300000x1_0 : (⟨S300000, .i32⟩ : BufTy).Contents (Elt F) → (⟨S300000x1, .i32⟩ : BufTy).Contents (Elt F)),
    ternary main_v25 main_v26 main_v24 main_v27 ((fun x i u => Host.scatterAdd scatter_S100000x256_S300000x1_S300000x256_1_0_0_1 x i u) : (⟨S100000x256, .f32⟩ : BufTy).Contents (Elt F) → (⟨S300000x1, .i32⟩ : BufTy).Contents (Elt F) → (⟨S300000x256, .f32⟩ : BufTy).Contents (Elt F) → (⟨S100000x256, .f32⟩ : BufTy).Contents (Elt F)),
    nullary main_cst_1 (constant S_ .f32 0x3F800000#32),
    binary main_cst_1 main_v13 main_v28 (addf : (⟨S_, .f32⟩ : BufTy).Contents (Elt F) → (⟨S_, .f32⟩ : BufTy).Contents (Elt F) → (⟨S_, .f32⟩ : BufTy).Contents (Elt F)),
    unary main_v28 main_v29 (broadcastInDim S100000x256 ![] bcast_S_S100000x256 : (⟨S_, .f32⟩ : BufTy).Contents (Elt F) → (⟨S100000x256, .f32⟩ : BufTy).Contents (Elt F)),
    binary main_v29 main_arg0 main_v30 (mulf : (⟨S100000x256, .f32⟩ : BufTy).Contents (Elt F) → (⟨S100000x256, .f32⟩ : BufTy).Contents (Elt F) → (⟨S100000x256, .f32⟩ : BufTy).Contents (Elt F)),
    binary main_v30 main_v27 main_v31 (addf : (⟨S100000x256, .f32⟩ : BufTy).Contents (Elt F) → (⟨S100000x256, .f32⟩ : BufTy).Contents (Elt F) → (⟨S100000x256, .f32⟩ : BufTy).Contents (Elt F)),
    binary main_v31 main_v5 main_v32 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_v7 main_v33 (broadcastInDim S1x256 ![1] bcast_S256_S1x256_1 : (⟨S256, .f32⟩ : BufTy).Contents (Elt F) → (⟨S1x256, .f32⟩ : BufTy).Contents (Elt F)),
    unary main_v33 main_v34 (broadcastInDim S100000x256 ![0, 1] bcast_S1x256_S100000x256_0_1 : (⟨S1x256, .f32⟩ : BufTy).Contents (Elt F) → (⟨S100000x256, .f32⟩ : BufTy).Contents (Elt F)),
    binary main_v32 main_v34 main_v35 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x256, .f32⟩) main_call0_v0) (broadcastInDim S100000x256 ![] bcast_S_S100000x256),
    TRef.binary (TRef.of (T := ⟨S100000x256, .f32⟩) main_v35) (TRef.of (T := ⟨S100000x256, .f32⟩) main_call0_v0) (TRef.of (T := ⟨S100000x256, .f32⟩) main_v36) maximumf,
    binary main_v36 main_v9 main_v37 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_v11 main_v38 (broadcastInDim S1x256 ![1] bcast_S256_S1x256_1 : (⟨S256, .f32⟩ : BufTy).Contents (Elt F) → (⟨S1x256, .f32⟩ : BufTy).Contents (Elt F)),
    unary main_v38 main_v39 (broadcastInDim S100000x256 ![0, 1] bcast_S1x256_S100000x256_0_1 : (⟨S1x256, .f32⟩ : BufTy).Contents (Elt F) → (⟨S100000x256, .f32⟩ : BufTy).Contents (Elt F)),
    binary main_v37 main_v39 main_v40 (addf : (⟨S100000x256, .f32⟩ : BufTy).Contents (Elt F) → (⟨S100000x256, .f32⟩ : BufTy).Contents (Elt F) → (⟨S100000x256, .f32⟩ : BufTy).Contents (Elt F)),
    binary main_v40 main_arg0 main_v41 (addf : (⟨S100000x256, .f32⟩ : BufTy).Contents (Elt F) → (⟨S100000x256, .f32⟩ : BufTy).Contents (Elt F) → (⟨S100000x256, .f32⟩ : BufTy).Contents (Elt F)),
    nullary main_cst_2 (constant S_ .f32 0x00000000#32),
    binary main_v41 main_cst_2 main_v42 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v42 main_v43 (broadcastInDim S100000x1 ![0] bcast_S100000_S100000x1_0 : (⟨S100000, .f32⟩ : BufTy).Contents (Elt F) → (⟨S100000x1, .f32⟩ : BufTy).Contents (Elt F)),
    nullary main_cst_3 (constant S_ .f32 0x43800000#32),
    unary main_cst_3 main_v44 (broadcastInDim S100000x1 ![] bcast_S_S100000x1 : (⟨S_, .f32⟩ : BufTy).Contents (Elt F) → (⟨S100000x1, .f32⟩ : BufTy).Contents (Elt F)),
    binary main_v43 main_v44 main_v45 (Host.divf : (⟨S100000x1, .f32⟩ : BufTy).Contents (Elt F) → (⟨S100000x1, .f32⟩ : BufTy).Contents (Elt F) → (⟨S100000x1, .f32⟩ : BufTy).Contents (Elt F)),
    unary main_v45 main_v46 (broadcastInDim S100000x256 ![0, 1] bcast_S100000x1_S100000x256_0_1 : (⟨S100000x1, .f32⟩ : BufTy).Contents (Elt F) → (⟨S100000x256, .f32⟩ : BufTy).Contents (Elt F)),
    binary main_v41 main_v46 main_v47 (subf : (⟨S100000x256, .f32⟩ : BufTy).Contents (Elt F) → (⟨S100000x256, .f32⟩ : BufTy).Contents (Elt F) → (⟨S100000x256, .f32⟩ : BufTy).Contents (Elt F)),
    binary main_v47 main_v47 main_v48 (mulf : (⟨S100000x256, .f32⟩ : BufTy).Contents (Elt F) → (⟨S100000x256, .f32⟩ : BufTy).Contents (Elt F) → (⟨S100000x256, .f32⟩ : BufTy).Contents (Elt F)),
    nullary main_cst_4 (constant S_ .f32 0x00000000#32),
    binary main_v48 main_cst_4 main_v49 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v49 main_v50 (broadcastInDim S100000x1 ![0] bcast_S100000_S100000x1_0 : (⟨S100000, .f32⟩ : BufTy).Contents (Elt F) → (⟨S100000x1, .f32⟩ : BufTy).Contents (Elt F)),
    nullary main_cst_5 (constant S_ .f32 0x43800000#32),
    unary main_cst_5 main_v51 (broadcastInDim S100000x1 ![] bcast_S_S100000x1 : (⟨S_, .f32⟩ : BufTy).Contents (Elt F) → (⟨S100000x1, .f32⟩ : BufTy).Contents (Elt F)),
    binary main_v50 main_v51 main_v52 (Host.divf : (⟨S100000x1, .f32⟩ : BufTy).Contents (Elt F) → (⟨S100000x1, .f32⟩ : BufTy).Contents (Elt F) → (⟨S100000x1, .f32⟩ : BufTy).Contents (Elt F)),
    unary main_v45 main_v53 (broadcastInDim S100000x256 ![0, 1] bcast_S100000x1_S100000x256_0_1 : (⟨S100000x1, .f32⟩ : BufTy).Contents (Elt F) → (⟨S100000x256, .f32⟩ : BufTy).Contents (Elt F)),
    binary main_v41 main_v53 main_v54 (subf : (⟨S100000x256, .f32⟩ : BufTy).Contents (Elt F) → (⟨S100000x256, .f32⟩ : BufTy).Contents (Elt F) → (⟨S100000x256, .f32⟩ : BufTy).Contents (Elt F)),
    nullary main_cst_6 (constant S_ .f32 0x3727C5AC#32),
    unary main_cst_6 main_v55 (broadcastInDim S100000x1 ![] bcast_S_S100000x1 : (⟨S_, .f32⟩ : BufTy).Contents (Elt F) → (⟨S100000x1, .f32⟩ : BufTy).Contents (Elt F)),
    binary main_v52 main_v55 main_v56 (addf : (⟨S100000x1, .f32⟩ : BufTy).Contents (Elt F) → (⟨S100000x1, .f32⟩ : BufTy).Contents (Elt F) → (⟨S100000x1, .f32⟩ : BufTy).Contents (Elt F)),
    unary main_v56 main_v57 (Host.rsqrt : (⟨S100000x1, .f32⟩ : BufTy).Contents (Elt F) → (⟨S100000x1, .f32⟩ : BufTy).Contents (Elt F)),
    unary main_v57 main_v58 (broadcastInDim S100000x256 ![0, 1] bcast_S100000x1_S100000x256_0_1 : (⟨S100000x1, .f32⟩ : BufTy).Contents (Elt F) → (⟨S100000x256, .f32⟩ : BufTy).Contents (Elt F)),
    binary main_v54 main_v58 main_v59 (mulf : (⟨S100000x256, .f32⟩ : BufTy).Contents (Elt F) → (⟨S100000x256, .f32⟩ : BufTy).Contents (Elt F) → (⟨S100000x256, .f32⟩ : BufTy).Contents (Elt F)),
    unary main_v15 main_v60 (broadcastInDim S1x256 ![1] bcast_S256_S1x256_1 : (⟨S256, .f32⟩ : BufTy).Contents (Elt F) → (⟨S1x256, .f32⟩ : BufTy).Contents (Elt F)),
    unary main_v60 main_v61 (broadcastInDim S100000x256 ![0, 1] bcast_S1x256_S100000x256_0_1 : (⟨S1x256, .f32⟩ : BufTy).Contents (Elt F) → (⟨S100000x256, .f32⟩ : BufTy).Contents (Elt F)),
    binary main_v59 main_v61 main_v62 (mulf : (⟨S100000x256, .f32⟩ : BufTy).Contents (Elt F) → (⟨S100000x256, .f32⟩ : BufTy).Contents (Elt F) → (⟨S100000x256, .f32⟩ : BufTy).Contents (Elt F)),
    unary main_v17 main_v63 (broadcastInDim S1x256 ![1] bcast_S256_S1x256_1 : (⟨S256, .f32⟩ : BufTy).Contents (Elt F) → (⟨S1x256, .f32⟩ : BufTy).Contents (Elt F)),
    unary main_v63 main_v64 (broadcastInDim S100000x256 ![0, 1] bcast_S1x256_S100000x256_0_1 : (⟨S1x256, .f32⟩ : BufTy).Contents (Elt F) → (⟨S100000x256, .f32⟩ : BufTy).Contents (Elt F)),
    binary main_v62 main_v64 main_v65 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x256, .f32⟩) main_call1_v0) (broadcastInDim S100000x256 ![] bcast_S_S100000x256),
    TRef.binary (TRef.of (T := ⟨S100000x256, .f32⟩) main_v65) (TRef.of (T := ⟨S100000x256, .f32⟩) main_call1_v0) (TRef.of (T := ⟨S100000x256, .f32⟩) main_v66) maximumf ]

/-- The second layer's operations, ending with its output. -/
abbrev opsB : List (HloOp τ sig (Elt F)) :=
  [ unary main_arg2 main_v67 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v67 main_v68 rfl shapeCasts_S1x256x256_S256x256,
    unary main_arg3 main_v69 ((extractStridedSlice S1x256 ![1, 0] · slices_S3x256_S1x256_1_0) : (⟨S3x256, .f32⟩ : BufTy).Contents (Elt F) → (⟨S1x256, .f32⟩ : BufTy).Contents (Elt F)),
    reshape main_v69 main_v70 rfl shapeCasts_S1x256_S256,
    unary main_arg4 main_v71 ((extractStridedSlice S1x256x256 ![1, 0, 0] · slices_S3x256x256_S1x256x256_1_0_0) : (⟨S3x256x256, .f32⟩ : BufTy).Contents (Elt F) → (⟨S1x256x256, .f32⟩ : BufTy).Contents (Elt F)),
    reshape main_v71 main_v72 rfl shapeCasts_S1x256x256_S256x256,
    unary main_arg5 main_v73 ((extractStridedSlice S1x256 ![1, 0] · slices_S3x256_S1x256_1_0) : (⟨S3x256, .f32⟩ : BufTy).Contents (Elt F) → (⟨S1x256, .f32⟩ : BufTy).Contents (Elt F)),
    reshape main_v73 main_v74 rfl shapeCasts_S1x256_S256,
    unary main_arg6 main_v75 ((extractStridedSlice S1 ![1] · slices_S3_S1_1) : (⟨S3, .f32⟩ : BufTy).Contents (Elt F) → (⟨S1, .f32⟩ : BufTy).Contents (Elt F)),
    reshape main_v75 main_v76 rfl shapeCasts_S1_S_,
    unary main_arg7 main_v77 ((extractStridedSlice S1x256 ![1, 0] · slices_S3x256_S1x256_1_0) : (⟨S3x256, .f32⟩ : BufTy).Contents (Elt F) → (⟨S1x256, .f32⟩ : BufTy).Contents (Elt F)),
    reshape main_v77 main_v78 rfl shapeCasts_S1x256_S256,
    unary main_arg8 main_v79 ((extractStridedSlice S1x256 ![1, 0] · slices_S3x256_S1x256_1_0) : (⟨S3x256, .f32⟩ : BufTy).Contents (Elt F) → (⟨S1x256, .f32⟩ : BufTy).Contents (Elt F)),
    reshape main_v79 main_v80 rfl shapeCasts_S1x256_S256,
    nullary main_c_7 (constantI S_ 32 0#32),
    unary main_c_7 main_v81 (broadcastInDim S300000 ![] bcast_S_S300000 : (⟨S_, .i32⟩ : BufTy).Contents (Elt F) → (⟨S300000, .i32⟩ : BufTy).Contents (Elt F)),
    binary main_v1 main_v81 main_v82 (cmpi .slt : (⟨S300000, .i32⟩ : BufTy).Contents (Elt F) → (⟨S300000, .i32⟩ : BufTy).Contents (Elt F) → (⟨S300000, .i1⟩ : BufTy).Contents (Elt F)),
    nullary main_c_8 (constantI S_ 32 100000#32),
    unary main_c_8 main_v83 (broadcastInDim S300000 ![] bcast_S_S300000 : (⟨S_, .i32⟩ : BufTy).Contents (Elt F) → (⟨S300000, .i32⟩ : BufTy).Contents (Elt F)),
    binary main_v1 main_v83 main_v84 (addi : (⟨S300000, .i32⟩ : BufTy).Contents (Elt F) → (⟨S300000, .i32⟩ : BufTy).Contents (Elt F) → (⟨S300000, .i32⟩ : BufTy).Contents (Elt F)),
    ternary main_v82 main_v84 main_v1 main_v85 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v85 main_v86 (broadcastInDim S300000x1 ![0] bcast_S300000_S300000x1_0 : (⟨S300000, .i32⟩ : BufTy).Contents (Elt F) → (⟨S300000x1, .i32⟩ : BufTy).Contents (Elt F)),
    binary main_v66 main_v86 main_v87 ((fun x i => Host.gather gather_S100000x256_S300000x1_S300000x256_1_0_n_n_0_1_1256 x i) : (⟨S100000x256, .f32⟩ : BufTy).Contents (Elt F) → (⟨S300000x1, .i32⟩ : BufTy).Contents (Elt F) → (⟨S300000x256, .f32⟩ : BufTy).Contents (Elt F)),
    nullary main_cst_9 (constant S_ .f32 0x00000000#32),
    unary main_cst_9 main_v88 (broadcastInDim S100000x256 ![] bcast_S_S100000x256 : (⟨S_, .f32⟩ : BufTy).Contents (Elt F) → (⟨S100000x256, .f32⟩ : BufTy).Contents (Elt F)),
    unary main_v3 main_v89 (broadcastInDim S300000x1 ![0] bcast_S300000_S300000x1_0 : (⟨S300000, .i32⟩ : BufTy).Contents (Elt F) → (⟨S300000x1, .i32⟩ : BufTy).Contents (Elt F)),
    ternary main_v88 main_v89 main_v87 main_v90 ((fun x i u => Host.scatterAdd scatter_S100000x256_S300000x1_S300000x256_1_0_0_1 x i u) : (⟨S100000x256, .f32⟩ : BufTy).Contents (Elt F) → (⟨S300000x1, .i32⟩ : BufTy).Contents (Elt F) → (⟨S300000x256, .f32⟩ : BufTy).Contents (Elt F) → (⟨S100000x256, .f32⟩ : BufTy).Contents (Elt F)),
    nullary main_cst_10 (constant S_ .f32 0x3F800000#32),
    binary main_cst_10 main_v76 main_v91 (addf : (⟨S_, .f32⟩ : BufTy).Contents (Elt F) → (⟨S_, .f32⟩ : BufTy).Contents (Elt F) → (⟨S_, .f32⟩ : BufTy).Contents (Elt F)),
    unary main_v91 main_v92 (broadcastInDim S100000x256 ![] bcast_S_S100000x256 : (⟨S_, .f32⟩ : BufTy).Contents (Elt F) → (⟨S100000x256, .f32⟩ : BufTy).Contents (Elt F)),
    binary main_v92 main_v66 main_v93 (mulf : (⟨S100000x256, .f32⟩ : BufTy).Contents (Elt F) → (⟨S100000x256, .f32⟩ : BufTy).Contents (Elt F) → (⟨S100000x256, .f32⟩ : BufTy).Contents (Elt F)),
    binary main_v93 main_v90 main_v94 (addf : (⟨S100000x256, .f32⟩ : BufTy).Contents (Elt F) → (⟨S100000x256, .f32⟩ : BufTy).Contents (Elt F) → (⟨S100000x256, .f32⟩ : BufTy).Contents (Elt F)),
    binary main_v94 main_v68 main_v95 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_v70 main_v96 (broadcastInDim S1x256 ![1] bcast_S256_S1x256_1 : (⟨S256, .f32⟩ : BufTy).Contents (Elt F) → (⟨S1x256, .f32⟩ : BufTy).Contents (Elt F)),
    unary main_v96 main_v97 (broadcastInDim S100000x256 ![0, 1] bcast_S1x256_S100000x256_0_1 : (⟨S1x256, .f32⟩ : BufTy).Contents (Elt F) → (⟨S100000x256, .f32⟩ : BufTy).Contents (Elt F)),
    binary main_v95 main_v97 main_v98 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x256, .f32⟩) main_call2_v0) (broadcastInDim S100000x256 ![] bcast_S_S100000x256),
    TRef.binary (TRef.of (T := ⟨S100000x256, .f32⟩) main_v98) (TRef.of (T := ⟨S100000x256, .f32⟩) main_call2_v0) (TRef.of (T := ⟨S100000x256, .f32⟩) main_v99) maximumf,
    binary main_v99 main_v72 main_v100 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_v74 main_v101 (broadcastInDim S1x256 ![1] bcast_S256_S1x256_1 : (⟨S256, .f32⟩ : BufTy).Contents (Elt F) → (⟨S1x256, .f32⟩ : BufTy).Contents (Elt F)),
    unary main_v101 main_v102 (broadcastInDim S100000x256 ![0, 1] bcast_S1x256_S100000x256_0_1 : (⟨S1x256, .f32⟩ : BufTy).Contents (Elt F) → (⟨S100000x256, .f32⟩ : BufTy).Contents (Elt F)),
    binary main_v100 main_v102 main_v103 (addf : (⟨S100000x256, .f32⟩ : BufTy).Contents (Elt F) → (⟨S100000x256, .f32⟩ : BufTy).Contents (Elt F) → (⟨S100000x256, .f32⟩ : BufTy).Contents (Elt F)),
    binary main_v103 main_v66 main_v104 (addf : (⟨S100000x256, .f32⟩ : BufTy).Contents (Elt F) → (⟨S100000x256, .f32⟩ : BufTy).Contents (Elt F) → (⟨S100000x256, .f32⟩ : BufTy).Contents (Elt F)),
    nullary main_cst_11 (constant S_ .f32 0x00000000#32),
    binary main_v104 main_cst_11 main_v105 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v105 main_v106 (broadcastInDim S100000x1 ![0] bcast_S100000_S100000x1_0 : (⟨S100000, .f32⟩ : BufTy).Contents (Elt F) → (⟨S100000x1, .f32⟩ : BufTy).Contents (Elt F)),
    nullary main_cst_12 (constant S_ .f32 0x43800000#32),
    unary main_cst_12 main_v107 (broadcastInDim S100000x1 ![] bcast_S_S100000x1 : (⟨S_, .f32⟩ : BufTy).Contents (Elt F) → (⟨S100000x1, .f32⟩ : BufTy).Contents (Elt F)),
    binary main_v106 main_v107 main_v108 (Host.divf : (⟨S100000x1, .f32⟩ : BufTy).Contents (Elt F) → (⟨S100000x1, .f32⟩ : BufTy).Contents (Elt F) → (⟨S100000x1, .f32⟩ : BufTy).Contents (Elt F)),
    unary main_v108 main_v109 (broadcastInDim S100000x256 ![0, 1] bcast_S100000x1_S100000x256_0_1 : (⟨S100000x1, .f32⟩ : BufTy).Contents (Elt F) → (⟨S100000x256, .f32⟩ : BufTy).Contents (Elt F)),
    binary main_v104 main_v109 main_v110 (subf : (⟨S100000x256, .f32⟩ : BufTy).Contents (Elt F) → (⟨S100000x256, .f32⟩ : BufTy).Contents (Elt F) → (⟨S100000x256, .f32⟩ : BufTy).Contents (Elt F)),
    binary main_v110 main_v110 main_v111 (mulf : (⟨S100000x256, .f32⟩ : BufTy).Contents (Elt F) → (⟨S100000x256, .f32⟩ : BufTy).Contents (Elt F) → (⟨S100000x256, .f32⟩ : BufTy).Contents (Elt F)),
    nullary main_cst_13 (constant S_ .f32 0x00000000#32),
    binary main_v111 main_cst_13 main_v112 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v112 main_v113 (broadcastInDim S100000x1 ![0] bcast_S100000_S100000x1_0 : (⟨S100000, .f32⟩ : BufTy).Contents (Elt F) → (⟨S100000x1, .f32⟩ : BufTy).Contents (Elt F)),
    nullary main_cst_14 (constant S_ .f32 0x43800000#32),
    unary main_cst_14 main_v114 (broadcastInDim S100000x1 ![] bcast_S_S100000x1 : (⟨S_, .f32⟩ : BufTy).Contents (Elt F) → (⟨S100000x1, .f32⟩ : BufTy).Contents (Elt F)),
    binary main_v113 main_v114 main_v115 (Host.divf : (⟨S100000x1, .f32⟩ : BufTy).Contents (Elt F) → (⟨S100000x1, .f32⟩ : BufTy).Contents (Elt F) → (⟨S100000x1, .f32⟩ : BufTy).Contents (Elt F)),
    unary main_v108 main_v116 (broadcastInDim S100000x256 ![0, 1] bcast_S100000x1_S100000x256_0_1 : (⟨S100000x1, .f32⟩ : BufTy).Contents (Elt F) → (⟨S100000x256, .f32⟩ : BufTy).Contents (Elt F)),
    binary main_v104 main_v116 main_v117 (subf : (⟨S100000x256, .f32⟩ : BufTy).Contents (Elt F) → (⟨S100000x256, .f32⟩ : BufTy).Contents (Elt F) → (⟨S100000x256, .f32⟩ : BufTy).Contents (Elt F)),
    nullary main_cst_15 (constant S_ .f32 0x3727C5AC#32),
    unary main_cst_15 main_v118 (broadcastInDim S100000x1 ![] bcast_S_S100000x1 : (⟨S_, .f32⟩ : BufTy).Contents (Elt F) → (⟨S100000x1, .f32⟩ : BufTy).Contents (Elt F)),
    binary main_v115 main_v118 main_v119 (addf : (⟨S100000x1, .f32⟩ : BufTy).Contents (Elt F) → (⟨S100000x1, .f32⟩ : BufTy).Contents (Elt F) → (⟨S100000x1, .f32⟩ : BufTy).Contents (Elt F)),
    unary main_v119 main_v120 (Host.rsqrt : (⟨S100000x1, .f32⟩ : BufTy).Contents (Elt F) → (⟨S100000x1, .f32⟩ : BufTy).Contents (Elt F)),
    unary main_v120 main_v121 (broadcastInDim S100000x256 ![0, 1] bcast_S100000x1_S100000x256_0_1 : (⟨S100000x1, .f32⟩ : BufTy).Contents (Elt F) → (⟨S100000x256, .f32⟩ : BufTy).Contents (Elt F)),
    binary main_v117 main_v121 main_v122 (mulf : (⟨S100000x256, .f32⟩ : BufTy).Contents (Elt F) → (⟨S100000x256, .f32⟩ : BufTy).Contents (Elt F) → (⟨S100000x256, .f32⟩ : BufTy).Contents (Elt F)),
    unary main_v78 main_v123 (broadcastInDim S1x256 ![1] bcast_S256_S1x256_1 : (⟨S256, .f32⟩ : BufTy).Contents (Elt F) → (⟨S1x256, .f32⟩ : BufTy).Contents (Elt F)),
    unary main_v123 main_v124 (broadcastInDim S100000x256 ![0, 1] bcast_S1x256_S100000x256_0_1 : (⟨S1x256, .f32⟩ : BufTy).Contents (Elt F) → (⟨S100000x256, .f32⟩ : BufTy).Contents (Elt F)),
    binary main_v122 main_v124 main_v125 (mulf : (⟨S100000x256, .f32⟩ : BufTy).Contents (Elt F) → (⟨S100000x256, .f32⟩ : BufTy).Contents (Elt F) → (⟨S100000x256, .f32⟩ : BufTy).Contents (Elt F)),
    unary main_v80 main_v126 (broadcastInDim S1x256 ![1] bcast_S256_S1x256_1 : (⟨S256, .f32⟩ : BufTy).Contents (Elt F) → (⟨S1x256, .f32⟩ : BufTy).Contents (Elt F)),
    unary main_v126 main_v127 (broadcastInDim S100000x256 ![0, 1] bcast_S1x256_S100000x256_0_1 : (⟨S1x256, .f32⟩ : BufTy).Contents (Elt F) → (⟨S100000x256, .f32⟩ : BufTy).Contents (Elt F)),
    binary main_v125 main_v127 main_v128 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x256, .f32⟩) main_call3_v0) (broadcastInDim S100000x256 ![] bcast_S_S100000x256),
    TRef.binary (TRef.of (T := ⟨S100000x256, .f32⟩) main_v128) (TRef.of (T := ⟨S100000x256, .f32⟩) main_call3_v0) (TRef.of (T := ⟨S100000x256, .f32⟩) main_v129) maximumf ]

/-- The third layer's operations, ending with the result. -/
abbrev opsC : List (HloOp τ sig (Elt F)) :=
  [ unary main_arg2 main_v130 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v130 main_v131 rfl shapeCasts_S1x256x256_S256x256,
    unary main_arg3 main_v132 ((extractStridedSlice S1x256 ![2, 0] · slices_S3x256_S1x256_2_0) : (⟨S3x256, .f32⟩ : BufTy).Contents (Elt F) → (⟨S1x256, .f32⟩ : BufTy).Contents (Elt F)),
    reshape main_v132 main_v133 rfl shapeCasts_S1x256_S256,
    unary main_arg4 main_v134 ((extractStridedSlice S1x256x256 ![2, 0, 0] · slices_S3x256x256_S1x256x256_2_0_0) : (⟨S3x256x256, .f32⟩ : BufTy).Contents (Elt F) → (⟨S1x256x256, .f32⟩ : BufTy).Contents (Elt F)),
    reshape main_v134 main_v135 rfl shapeCasts_S1x256x256_S256x256,
    unary main_arg5 main_v136 ((extractStridedSlice S1x256 ![2, 0] · slices_S3x256_S1x256_2_0) : (⟨S3x256, .f32⟩ : BufTy).Contents (Elt F) → (⟨S1x256, .f32⟩ : BufTy).Contents (Elt F)),
    reshape main_v136 main_v137 rfl shapeCasts_S1x256_S256,
    unary main_arg6 main_v138 ((extractStridedSlice S1 ![2] · slices_S3_S1_2) : (⟨S3, .f32⟩ : BufTy).Contents (Elt F) → (⟨S1, .f32⟩ : BufTy).Contents (Elt F)),
    reshape main_v138 main_v139 rfl shapeCasts_S1_S_,
    unary main_arg7 main_v140 ((extractStridedSlice S1x256 ![2, 0] · slices_S3x256_S1x256_2_0) : (⟨S3x256, .f32⟩ : BufTy).Contents (Elt F) → (⟨S1x256, .f32⟩ : BufTy).Contents (Elt F)),
    reshape main_v140 main_v141 rfl shapeCasts_S1x256_S256,
    unary main_arg8 main_v142 ((extractStridedSlice S1x256 ![2, 0] · slices_S3x256_S1x256_2_0) : (⟨S3x256, .f32⟩ : BufTy).Contents (Elt F) → (⟨S1x256, .f32⟩ : BufTy).Contents (Elt F)),
    reshape main_v142 main_v143 rfl shapeCasts_S1x256_S256,
    nullary main_c_16 (constantI S_ 32 0#32),
    unary main_c_16 main_v144 (broadcastInDim S300000 ![] bcast_S_S300000 : (⟨S_, .i32⟩ : BufTy).Contents (Elt F) → (⟨S300000, .i32⟩ : BufTy).Contents (Elt F)),
    binary main_v1 main_v144 main_v145 (cmpi .slt : (⟨S300000, .i32⟩ : BufTy).Contents (Elt F) → (⟨S300000, .i32⟩ : BufTy).Contents (Elt F) → (⟨S300000, .i1⟩ : BufTy).Contents (Elt F)),
    nullary main_c_17 (constantI S_ 32 100000#32),
    unary main_c_17 main_v146 (broadcastInDim S300000 ![] bcast_S_S300000 : (⟨S_, .i32⟩ : BufTy).Contents (Elt F) → (⟨S300000, .i32⟩ : BufTy).Contents (Elt F)),
    binary main_v1 main_v146 main_v147 (addi : (⟨S300000, .i32⟩ : BufTy).Contents (Elt F) → (⟨S300000, .i32⟩ : BufTy).Contents (Elt F) → (⟨S300000, .i32⟩ : BufTy).Contents (Elt F)),
    ternary main_v145 main_v147 main_v1 main_v148 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    unary main_v148 main_v149 (broadcastInDim S300000x1 ![0] bcast_S300000_S300000x1_0 : (⟨S300000, .i32⟩ : BufTy).Contents (Elt F) → (⟨S300000x1, .i32⟩ : BufTy).Contents (Elt F)),
    binary main_v129 main_v149 main_v150 ((fun x i => Host.gather gather_S100000x256_S300000x1_S300000x256_1_0_n_n_0_1_1256 x i) : (⟨S100000x256, .f32⟩ : BufTy).Contents (Elt F) → (⟨S300000x1, .i32⟩ : BufTy).Contents (Elt F) → (⟨S300000x256, .f32⟩ : BufTy).Contents (Elt F)),
    nullary main_cst_18 (constant S_ .f32 0x00000000#32),
    unary main_cst_18 main_v151 (broadcastInDim S100000x256 ![] bcast_S_S100000x256 : (⟨S_, .f32⟩ : BufTy).Contents (Elt F) → (⟨S100000x256, .f32⟩ : BufTy).Contents (Elt F)),
    unary main_v3 main_v152 (broadcastInDim S300000x1 ![0] bcast_S300000_S300000x1_0 : (⟨S300000, .i32⟩ : BufTy).Contents (Elt F) → (⟨S300000x1, .i32⟩ : BufTy).Contents (Elt F)),
    ternary main_v151 main_v152 main_v150 main_v153 ((fun x i u => Host.scatterAdd scatter_S100000x256_S300000x1_S300000x256_1_0_0_1 x i u) : (⟨S100000x256, .f32⟩ : BufTy).Contents (Elt F) → (⟨S300000x1, .i32⟩ : BufTy).Contents (Elt F) → (⟨S300000x256, .f32⟩ : BufTy).Contents (Elt F) → (⟨S100000x256, .f32⟩ : BufTy).Contents (Elt F)),
    nullary main_cst_19 (constant S_ .f32 0x3F800000#32),
    binary main_cst_19 main_v139 main_v154 (addf : (⟨S_, .f32⟩ : BufTy).Contents (Elt F) → (⟨S_, .f32⟩ : BufTy).Contents (Elt F) → (⟨S_, .f32⟩ : BufTy).Contents (Elt F)),
    unary main_v154 main_v155 (broadcastInDim S100000x256 ![] bcast_S_S100000x256 : (⟨S_, .f32⟩ : BufTy).Contents (Elt F) → (⟨S100000x256, .f32⟩ : BufTy).Contents (Elt F)),
    binary main_v155 main_v129 main_v156 (mulf : (⟨S100000x256, .f32⟩ : BufTy).Contents (Elt F) → (⟨S100000x256, .f32⟩ : BufTy).Contents (Elt F) → (⟨S100000x256, .f32⟩ : BufTy).Contents (Elt F)),
    binary main_v156 main_v153 main_v157 (addf : (⟨S100000x256, .f32⟩ : BufTy).Contents (Elt F) → (⟨S100000x256, .f32⟩ : BufTy).Contents (Elt F) → (⟨S100000x256, .f32⟩ : BufTy).Contents (Elt F)),
    binary main_v157 main_v131 main_v158 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_v133 main_v159 (broadcastInDim S1x256 ![1] bcast_S256_S1x256_1 : (⟨S256, .f32⟩ : BufTy).Contents (Elt F) → (⟨S1x256, .f32⟩ : BufTy).Contents (Elt F)),
    unary main_v159 main_v160 (broadcastInDim S100000x256 ![0, 1] bcast_S1x256_S100000x256_0_1 : (⟨S1x256, .f32⟩ : BufTy).Contents (Elt F) → (⟨S100000x256, .f32⟩ : BufTy).Contents (Elt F)),
    binary main_v158 main_v160 main_v161 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x256, .f32⟩) main_call4_v0) (broadcastInDim S100000x256 ![] bcast_S_S100000x256),
    TRef.binary (TRef.of (T := ⟨S100000x256, .f32⟩) main_v161) (TRef.of (T := ⟨S100000x256, .f32⟩) main_call4_v0) (TRef.of (T := ⟨S100000x256, .f32⟩) main_v162) maximumf,
    binary main_v162 main_v135 main_v163 ((fun l r => Host.dotGeneral dot_S100000x256_S256x256_S100000x256_1_0_0_1_n_n none l r) : (⟨S100000x256, .f32⟩ : BufTy).Contents (Elt F) → (⟨S256x256, .f32⟩ : BufTy).Contents (Elt F) → (⟨S100000x256, .f32⟩ : BufTy).Contents (Elt F)),
    unary main_v137 main_v164 (broadcastInDim S1x256 ![1] bcast_S256_S1x256_1 : (⟨S256, .f32⟩ : BufTy).Contents (Elt F) → (⟨S1x256, .f32⟩ : BufTy).Contents (Elt F)),
    unary main_v164 main_v165 (broadcastInDim S100000x256 ![0, 1] bcast_S1x256_S100000x256_0_1 : (⟨S1x256, .f32⟩ : BufTy).Contents (Elt F) → (⟨S100000x256, .f32⟩ : BufTy).Contents (Elt F)),
    binary main_v163 main_v165 main_v166 (addf : (⟨S100000x256, .f32⟩ : BufTy).Contents (Elt F) → (⟨S100000x256, .f32⟩ : BufTy).Contents (Elt F) → (⟨S100000x256, .f32⟩ : BufTy).Contents (Elt F)),
    binary main_v166 main_v129 main_v167 (addf : (⟨S100000x256, .f32⟩ : BufTy).Contents (Elt F) → (⟨S100000x256, .f32⟩ : BufTy).Contents (Elt F) → (⟨S100000x256, .f32⟩ : BufTy).Contents (Elt F)),
    nullary main_cst_20 (constant S_ .f32 0x00000000#32),
    binary main_v167 main_cst_20 main_v168 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v168 main_v169 (broadcastInDim S100000x1 ![0] bcast_S100000_S100000x1_0 : (⟨S100000, .f32⟩ : BufTy).Contents (Elt F) → (⟨S100000x1, .f32⟩ : BufTy).Contents (Elt F)),
    nullary main_cst_21 (constant S_ .f32 0x43800000#32),
    unary main_cst_21 main_v170 (broadcastInDim S100000x1 ![] bcast_S_S100000x1 : (⟨S_, .f32⟩ : BufTy).Contents (Elt F) → (⟨S100000x1, .f32⟩ : BufTy).Contents (Elt F)),
    binary main_v169 main_v170 main_v171 (Host.divf : (⟨S100000x1, .f32⟩ : BufTy).Contents (Elt F) → (⟨S100000x1, .f32⟩ : BufTy).Contents (Elt F) → (⟨S100000x1, .f32⟩ : BufTy).Contents (Elt F)),
    unary main_v171 main_v172 (broadcastInDim S100000x256 ![0, 1] bcast_S100000x1_S100000x256_0_1 : (⟨S100000x1, .f32⟩ : BufTy).Contents (Elt F) → (⟨S100000x256, .f32⟩ : BufTy).Contents (Elt F)),
    binary main_v167 main_v172 main_v173 (subf : (⟨S100000x256, .f32⟩ : BufTy).Contents (Elt F) → (⟨S100000x256, .f32⟩ : BufTy).Contents (Elt F) → (⟨S100000x256, .f32⟩ : BufTy).Contents (Elt F)),
    binary main_v173 main_v173 main_v174 (mulf : (⟨S100000x256, .f32⟩ : BufTy).Contents (Elt F) → (⟨S100000x256, .f32⟩ : BufTy).Contents (Elt F) → (⟨S100000x256, .f32⟩ : BufTy).Contents (Elt F)),
    nullary main_cst_22 (constant S_ .f32 0x00000000#32),
    binary main_v174 main_cst_22 main_v175 ((fun x v => Host.reduceAdd x v reducesTo_S100000x256_S100000_d1 h_S_) : (⟨S100000x256, .f32⟩ : BufTy).Contents (Elt F) → (⟨S_, .f32⟩ : BufTy).Contents (Elt F) → (⟨S100000, .f32⟩ : BufTy).Contents (Elt F)),
    unary main_v175 main_v176 (broadcastInDim S100000x1 ![0] bcast_S100000_S100000x1_0 : (⟨S100000, .f32⟩ : BufTy).Contents (Elt F) → (⟨S100000x1, .f32⟩ : BufTy).Contents (Elt F)),
    nullary main_cst_23 (constant S_ .f32 0x43800000#32),
    unary main_cst_23 main_v177 (broadcastInDim S100000x1 ![] bcast_S_S100000x1 : (⟨S_, .f32⟩ : BufTy).Contents (Elt F) → (⟨S100000x1, .f32⟩ : BufTy).Contents (Elt F)),
    binary main_v176 main_v177 main_v178 (Host.divf : (⟨S100000x1, .f32⟩ : BufTy).Contents (Elt F) → (⟨S100000x1, .f32⟩ : BufTy).Contents (Elt F) → (⟨S100000x1, .f32⟩ : BufTy).Contents (Elt F)),
    unary main_v171 main_v179 (broadcastInDim S100000x256 ![0, 1] bcast_S100000x1_S100000x256_0_1 : (⟨S100000x1, .f32⟩ : BufTy).Contents (Elt F) → (⟨S100000x256, .f32⟩ : BufTy).Contents (Elt F)),
    binary main_v167 main_v179 main_v180 (subf : (⟨S100000x256, .f32⟩ : BufTy).Contents (Elt F) → (⟨S100000x256, .f32⟩ : BufTy).Contents (Elt F) → (⟨S100000x256, .f32⟩ : BufTy).Contents (Elt F)),
    nullary main_cst_24 (constant S_ .f32 0x3727C5AC#32),
    unary main_cst_24 main_v181 (broadcastInDim S100000x1 ![] bcast_S_S100000x1 : (⟨S_, .f32⟩ : BufTy).Contents (Elt F) → (⟨S100000x1, .f32⟩ : BufTy).Contents (Elt F)),
    binary main_v178 main_v181 main_v182 (addf : (⟨S100000x1, .f32⟩ : BufTy).Contents (Elt F) → (⟨S100000x1, .f32⟩ : BufTy).Contents (Elt F) → (⟨S100000x1, .f32⟩ : BufTy).Contents (Elt F)),
    unary main_v182 main_v183 (Host.rsqrt : (⟨S100000x1, .f32⟩ : BufTy).Contents (Elt F) → (⟨S100000x1, .f32⟩ : BufTy).Contents (Elt F)),
    unary main_v183 main_v184 (broadcastInDim S100000x256 ![0, 1] bcast_S100000x1_S100000x256_0_1 : (⟨S100000x1, .f32⟩ : BufTy).Contents (Elt F) → (⟨S100000x256, .f32⟩ : BufTy).Contents (Elt F)),
    binary main_v180 main_v184 main_v185 (mulf : (⟨S100000x256, .f32⟩ : BufTy).Contents (Elt F) → (⟨S100000x256, .f32⟩ : BufTy).Contents (Elt F) → (⟨S100000x256, .f32⟩ : BufTy).Contents (Elt F)),
    unary main_v141 main_v186 (broadcastInDim S1x256 ![1] bcast_S256_S1x256_1 : (⟨S256, .f32⟩ : BufTy).Contents (Elt F) → (⟨S1x256, .f32⟩ : BufTy).Contents (Elt F)),
    unary main_v186 main_v187 (broadcastInDim S100000x256 ![0, 1] bcast_S1x256_S100000x256_0_1 : (⟨S1x256, .f32⟩ : BufTy).Contents (Elt F) → (⟨S100000x256, .f32⟩ : BufTy).Contents (Elt F)),
    binary main_v185 main_v187 main_v188 (mulf : (⟨S100000x256, .f32⟩ : BufTy).Contents (Elt F) → (⟨S100000x256, .f32⟩ : BufTy).Contents (Elt F) → (⟨S100000x256, .f32⟩ : BufTy).Contents (Elt F)),
    unary main_v143 main_v189 (broadcastInDim S1x256 ![1] bcast_S256_S1x256_1 : (⟨S256, .f32⟩ : BufTy).Contents (Elt F) → (⟨S1x256, .f32⟩ : BufTy).Contents (Elt F)),
    unary main_v189 main_v190 (broadcastInDim S100000x256 ![0, 1] bcast_S1x256_S100000x256_0_1 : (⟨S1x256, .f32⟩ : BufTy).Contents (Elt F) → (⟨S100000x256, .f32⟩ : BufTy).Contents (Elt F)),
    binary main_v188 main_v190 main_v191 (addf : (⟨S100000x256, .f32⟩ : BufTy).Contents (Elt F) → (⟨S100000x256, .f32⟩ : BufTy).Contents (Elt F) → (⟨S100000x256, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x256, .f32⟩) main_call5_v0) (broadcastInDim S100000x256 ![] bcast_S_S100000x256),
    TRef.binary (TRef.of (T := ⟨S100000x256, .f32⟩) main_v191) (TRef.of (T := ⟨S100000x256, .f32⟩) main_call5_v0) (TRef.of (T := ⟨S100000x256, .f32⟩) main_v192) maximumf ]

/-- The list is the three layers' operations, one after the other. -/
theorem ops_cut : (ops (F := F)) = opsA ++ (opsB ++ opsC) := rfl

/-- The contents after two lines run one after the other are the second's after the first's. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ### The first layer, from the launch contents -/

set_option maxRecDepth 8192 in
set_option maxHeartbeats 92800000 in
/-- The first layer's output is its stage of the arguments. -/
theorem A_out (m : (ℓ : Loc nD τ sig) → Buf (Elt F) ℓ) (c : Dev nD) :
    after opsA (launchContents m c) (Proc.devRef .tc main_v66) = Cert.ReferenceIdeal.Read.val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  after_results_simp <;> rfl
set_option maxRecDepth 8192 in
set_option maxHeartbeats 92800000 in
/-- The first index vector is its stage of the edge array. -/
theorem A_v1 (m : (ℓ : Loc nD τ sig) → Buf (Elt F) ℓ) (c : Dev nD) :
    after opsA (launchContents m c) (Proc.devRef .tc main_v1) = Cert.ReferenceIdeal.Read.val_main_v1 (F := F) (m ((c.tc : Thread nD τ).loc main_arg1)) := by
  after_results_simp <;> rfl
set_option maxRecDepth 8192 in
set_option maxHeartbeats 92800000 in
/-- The second index vector is its stage of the edge array. -/
theorem A_v3 (m : (ℓ : Loc nD τ sig) → Buf (Elt F) ℓ) (c : Dev nD) :
    after opsA (launchContents m c) (Proc.devRef .tc main_v3) = Cert.ReferenceIdeal.Read.val_main_v3 (F := F) (m ((c.tc : Thread nD τ).loc main_arg1)) := by
  after_results_simp <;> rfl
set_option maxRecDepth 8192 in
set_option maxHeartbeats 92800000 in
/-- The first layer does not write argument 2. -/
theorem A_arg2 (m : (ℓ : Loc nD τ sig) → Buf (Elt F) ℓ) (c : Dev nD) :
    after opsA (launchContents m c) (Proc.devRef .tc main_arg2) = m ((c.tc : Thread nD τ).loc main_arg2) := by
  after_results_simp <;> rfl
set_option maxRecDepth 8192 in
set_option maxHeartbeats 92800000 in
/-- The first layer does not write argument 3. -/
theorem A_arg3 (m : (ℓ : Loc nD τ sig) → Buf (Elt F) ℓ) (c : Dev nD) :
    after opsA (launchContents m c) (Proc.devRef .tc main_arg3) = m ((c.tc : Thread nD τ).loc main_arg3) := by
  after_results_simp <;> rfl
set_option maxRecDepth 8192 in
set_option maxHeartbeats 92800000 in
/-- The first layer does not write argument 4. -/
theorem A_arg4 (m : (ℓ : Loc nD τ sig) → Buf (Elt F) ℓ) (c : Dev nD) :
    after opsA (launchContents m c) (Proc.devRef .tc main_arg4) = m ((c.tc : Thread nD τ).loc main_arg4) := by
  after_results_simp <;> rfl
set_option maxRecDepth 8192 in
set_option maxHeartbeats 92800000 in
/-- The first layer does not write argument 5. -/
theorem A_arg5 (m : (ℓ : Loc nD τ sig) → Buf (Elt F) ℓ) (c : Dev nD) :
    after opsA (launchContents m c) (Proc.devRef .tc main_arg5) = m ((c.tc : Thread nD τ).loc main_arg5) := by
  after_results_simp <;> rfl
set_option maxRecDepth 8192 in
set_option maxHeartbeats 92800000 in
/-- The first layer does not write argument 6. -/
theorem A_arg6 (m : (ℓ : Loc nD τ sig) → Buf (Elt F) ℓ) (c : Dev nD) :
    after opsA (launchContents m c) (Proc.devRef .tc main_arg6) = m ((c.tc : Thread nD τ).loc main_arg6) := by
  after_results_simp <;> rfl
set_option maxRecDepth 8192 in
set_option maxHeartbeats 92800000 in
/-- The first layer does not write argument 7. -/
theorem A_arg7 (m : (ℓ : Loc nD τ sig) → Buf (Elt F) ℓ) (c : Dev nD) :
    after opsA (launchContents m c) (Proc.devRef .tc main_arg7) = m ((c.tc : Thread nD τ).loc main_arg7) := by
  after_results_simp <;> rfl
set_option maxRecDepth 8192 in
set_option maxHeartbeats 92800000 in
/-- The first layer does not write argument 8. -/
theorem A_arg8 (m : (ℓ : Loc nD τ sig) → Buf (Elt F) ℓ) (c : Dev nD) :
    after opsA (launchContents m c) (Proc.devRef .tc main_arg8) = m ((c.tc : Thread nD τ).loc main_arg8) := by
  after_results_simp <;> rfl

/-! ### The second and third layers, from any contents -/

set_option maxRecDepth 8192 in
set_option maxHeartbeats 92800000 in
/-- The second layer's output is its stage, from any contents that hold the first layer's output, the index vectors and the parameter stacks at theirs. -/
theorem B_out (W : Valuation τ sig (Elt F)) (x0 : (⟨S100000x256, .f32⟩ : BufTy).Contents (Elt F)) (x1 : (⟨S2x300000, .i32⟩ : BufTy).Contents (Elt F)) (x2 : (⟨S3x256x256, .f32⟩ : BufTy).Contents (Elt F)) (x3 : (⟨S3x256, .f32⟩ : BufTy).Contents (Elt F)) (x4 : (⟨S3x256x256, .f32⟩ : BufTy).Contents (Elt F)) (x5 : (⟨S3x256, .f32⟩ : BufTy).Contents (Elt F)) (x6 : (⟨S3, .f32⟩ : BufTy).Contents (Elt F)) (x7 x8 : (⟨S3x256, .f32⟩ : BufTy).Contents (Elt F))
    (hin : W (Proc.devRef .tc main_v66) = Cert.ReferenceIdeal.Read.val_main_v66 (F := F) x0 x1 x2 x3 x4 x5 x6 x7 x8)
    (h1 : W (Proc.devRef .tc main_v1) = Cert.ReferenceIdeal.Read.val_main_v1 (F := F) x1)
    (h3 : W (Proc.devRef .tc main_v3) = Cert.ReferenceIdeal.Read.val_main_v3 (F := F) x1)
    (ha2 : W (Proc.devRef .tc main_arg2) = x2)
    (ha3 : W (Proc.devRef .tc main_arg3) = x3)
    (ha4 : W (Proc.devRef .tc main_arg4) = x4)
    (ha5 : W (Proc.devRef .tc main_arg5) = x5)
    (ha6 : W (Proc.devRef .tc main_arg6) = x6)
    (ha7 : W (Proc.devRef .tc main_arg7) = x7)
    (ha8 : W (Proc.devRef .tc main_arg8) = x8) :
    after opsB W (Proc.devRef .tc main_v129) = Cert.ReferenceIdeal.Read.val_main_v129 (F := F) x0 x1 x2 x3 x4 x5 x6 x7 x8 := by
  after_results_simp
  rw [hin, h1, h3, ha2, ha3, ha4, ha5, ha6, ha7, ha8]
  rfl

set_option maxRecDepth 8192 in
set_option maxHeartbeats 92800000 in
/-- The third layer's output is its stage, from any contents that hold the second layer's output, the index vectors and the parameter stacks at theirs. -/
theorem C_out (W : Valuation τ sig (Elt F)) (x0 : (⟨S100000x256, .f32⟩ : BufTy).Contents (Elt F)) (x1 : (⟨S2x300000, .i32⟩ : BufTy).Contents (Elt F)) (x2 : (⟨S3x256x256, .f32⟩ : BufTy).Contents (Elt F)) (x3 : (⟨S3x256, .f32⟩ : BufTy).Contents (Elt F)) (x4 : (⟨S3x256x256, .f32⟩ : BufTy).Contents (Elt F)) (x5 : (⟨S3x256, .f32⟩ : BufTy).Contents (Elt F)) (x6 : (⟨S3, .f32⟩ : BufTy).Contents (Elt F)) (x7 x8 : (⟨S3x256, .f32⟩ : BufTy).Contents (Elt F))
    (hin : W (Proc.devRef .tc main_v129) = Cert.ReferenceIdeal.Read.val_main_v129 (F := F) x0 x1 x2 x3 x4 x5 x6 x7 x8)
    (h1 : W (Proc.devRef .tc main_v1) = Cert.ReferenceIdeal.Read.val_main_v1 (F := F) x1)
    (h3 : W (Proc.devRef .tc main_v3) = Cert.ReferenceIdeal.Read.val_main_v3 (F := F) x1)
    (ha2 : W (Proc.devRef .tc main_arg2) = x2)
    (ha3 : W (Proc.devRef .tc main_arg3) = x3)
    (ha4 : W (Proc.devRef .tc main_arg4) = x4)
    (ha5 : W (Proc.devRef .tc main_arg5) = x5)
    (ha6 : W (Proc.devRef .tc main_arg6) = x6)
    (ha7 : W (Proc.devRef .tc main_arg7) = x7)
    (ha8 : W (Proc.devRef .tc main_arg8) = x8) :
    after opsC W (Proc.devRef .tc main_v192) = Cert.ReferenceIdeal.Read.val_main_v192 (F := F) x0 x1 x2 x3 x4 x5 x6 x7 x8 := by
  after_results_simp
  rw [hin, h1, h3, ha2, ha3, ha4, ha5, ha6, ha7, ha8]
  rfl
set_option maxRecDepth 8192 in
set_option maxHeartbeats 92800000 in
/-- The second layer does not write main_v1. -/
theorem B_v1 (W : Valuation τ sig (Elt F)) :
    after opsB W (Proc.devRef .tc main_v1) = W (Proc.devRef .tc main_v1) := by
  after_results_simp <;> rfl
set_option maxRecDepth 8192 in
set_option maxHeartbeats 92800000 in
/-- The second layer does not write main_v3. -/
theorem B_v3 (W : Valuation τ sig (Elt F)) :
    after opsB W (Proc.devRef .tc main_v3) = W (Proc.devRef .tc main_v3) := by
  after_results_simp <;> rfl
set_option maxRecDepth 8192 in
set_option maxHeartbeats 92800000 in
/-- The second layer does not write main_arg2. -/
theorem B_arg2 (W : Valuation τ sig (Elt F)) :
    after opsB W (Proc.devRef .tc main_arg2) = W (Proc.devRef .tc main_arg2) := by
  after_results_simp <;> rfl
set_option maxRecDepth 8192 in
set_option maxHeartbeats 92800000 in
/-- The second layer does not write main_arg3. -/
theorem B_arg3 (W : Valuation τ sig (Elt F)) :
    after opsB W (Proc.devRef .tc main_arg3) = W (Proc.devRef .tc main_arg3) := by
  after_results_simp <;> rfl
set_option maxRecDepth 8192 in
set_option maxHeartbeats 92800000 in
/-- The second layer does not write main_arg4. -/
theorem B_arg4 (W : Valuation τ sig (Elt F)) :
    after opsB W (Proc.devRef .tc main_arg4) = W (Proc.devRef .tc main_arg4) := by
  after_results_simp <;> rfl
set_option maxRecDepth 8192 in
set_option maxHeartbeats 92800000 in
/-- The second layer does not write main_arg5. -/
theorem B_arg5 (W : Valuation τ sig (Elt F)) :
    after opsB W (Proc.devRef .tc main_arg5) = W (Proc.devRef .tc main_arg5) := by
  after_results_simp <;> rfl
set_option maxRecDepth 8192 in
set_option maxHeartbeats 92800000 in
/-- The second layer does not write main_arg6. -/
theorem B_arg6 (W : Valuation τ sig (Elt F)) :
    after opsB W (Proc.devRef .tc main_arg6) = W (Proc.devRef .tc main_arg6) := by
  after_results_simp <;> rfl
set_option maxRecDepth 8192 in
set_option maxHeartbeats 92800000 in
/-- The second layer does not write main_arg7. -/
theorem B_arg7 (W : Valuation τ sig (Elt F)) :
    after opsB W (Proc.devRef .tc main_arg7) = W (Proc.devRef .tc main_arg7) := by
  after_results_simp <;> rfl
set_option maxRecDepth 8192 in
set_option maxHeartbeats 92800000 in
/-- The second layer does not write main_arg8. -/
theorem B_arg8 (W : Valuation τ sig (Elt F)) :
    after opsB W (Proc.devRef .tc main_arg8) = W (Proc.devRef .tc main_arg8) := by
  after_results_simp <;> rfl

/-- After all the operations the result buffer holds the last stage of the argument arrays. -/
theorem out_eq (m : (ℓ : Loc nD τ sig) → Buf (Elt F) ℓ) (c : Dev nD) :
    after ops (launchContents m c) (Proc.devRef .tc main_v192)
      = Cert.ReferenceIdeal.Read.val_main_v192 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have e : after (ops (F := F)) (launchContents m c) = after opsC (after opsB (after opsA (launchContents m c))) := by
    rw [ops_cut, after_append, after_append]
  rw [e]
  exact C_out _ _ _ _ _ _ _ _ _ _
    (B_out _ _ _ _ _ _ _ _ _ _ (A_out m c) (A_v1 m c) (A_v3 m c) (A_arg2 m c) (A_arg3 m c) (A_arg4 m c) (A_arg5 m c) (A_arg6 m c) (A_arg7 m c) (A_arg8 m c))
    ((B_v1 _).trans (A_v1 m c)) ((B_v3 _).trans (A_v3 m c)) ((B_arg2 _).trans (A_arg2 m c)) ((B_arg3 _).trans (A_arg3 m c)) ((B_arg4 _).trans (A_arg4 m c)) ((B_arg5 _).trans (A_arg5 m c)) ((B_arg6 _).trans (A_arg6 m c)) ((B_arg7 _).trans (A_arg7 m c)) ((B_arg8 _).trans (A_arg8 m c))

/-! ## The arguments, and the run -/

set_option maxRecDepth 8192 in
set_option maxHeartbeats 92800000 in
/-- No operation writes argument 0: after all of them it holds what it was launched with. -/
theorem arg0_eq (m : (ℓ : Loc nD τ sig) → Buf (Elt F) ℓ) (c : Dev nD) :
    after ops (launchContents m c) (Proc.devRef .tc main_arg0) = m ((c.tc : Thread nD τ).loc main_arg0) := by
  after_results_simp <;> rfl

set_option maxRecDepth 8192 in
set_option maxHeartbeats 92800000 in
/-- No operation writes argument 1: after all of them it holds what it was launched with. -/
theorem arg1_eq (m : (ℓ : Loc nD τ sig) → Buf (Elt F) ℓ) (c : Dev nD) :
    after ops (launchContents m c) (Proc.devRef .tc main_arg1) = m ((c.tc : Thread nD τ).loc main_arg1) := by
  after_results_simp <;> rfl

set_option maxRecDepth 8192 in
set_option maxHeartbeats 92800000 in
/-- No operation writes argument 2: after all of them it holds what it was launched with. -/
theorem arg2_eq (m : (ℓ : Loc nD τ sig) → Buf (Elt F) ℓ) (c : Dev nD) :
    after ops (launchContents m c) (Proc.devRef .tc main_arg2) = m ((c.tc : Thread nD τ).loc main_arg2) := by
  after_results_simp <;> rfl

set_option maxRecDepth 8192 in
set_option maxHeartbeats 92800000 in
/-- No operation writes argument 3: after all of them it holds what it was launched with. -/
theorem arg3_eq (m : (ℓ : Loc nD τ sig) → Buf (Elt F) ℓ) (c : Dev nD) :
    after ops (launchContents m c) (Proc.devRef .tc main_arg3) = m ((c.tc : Thread nD τ).loc main_arg3) := by
  after_results_simp <;> rfl

set_option maxRecDepth 8192 in
set_option maxHeartbeats 92800000 in
/-- No operation writes argument 4: after all of them it holds what it was launched with. -/
theorem arg4_eq (m : (ℓ : Loc nD τ sig) → Buf (Elt F) ℓ) (c : Dev nD) :
    after ops (launchContents m c) (Proc.devRef .tc main_arg4) = m ((c.tc : Thread nD τ).loc main_arg4) := by
  after_results_simp <;> rfl

set_option maxRecDepth 8192 in
set_option maxHeartbeats 92800000 in
/-- No operation writes argument 5: after all of them it holds what it was launched with. -/
theorem arg5_eq (m : (ℓ : Loc nD τ sig) → Buf (Elt F) ℓ) (c : Dev nD) :
    after ops (launchContents m c) (Proc.devRef .tc main_arg5) = m ((c.tc : Thread nD τ).loc main_arg5) := by
  after_results_simp <;> rfl

set_option maxRecDepth 8192 in
set_option maxHeartbeats 92800000 in
/-- No operation writes argument 6: after all of them it holds what it was launched with. -/
theorem arg6_eq (m : (ℓ : Loc nD τ sig) → Buf (Elt F) ℓ) (c : Dev nD) :
    after ops (launchContents m c) (Proc.devRef .tc main_arg6) = m ((c.tc : Thread nD τ).loc main_arg6) := by
  after_results_simp <;> rfl

set_option maxRecDepth 8192 in
set_option maxHeartbeats 92800000 in
/-- No operation writes argument 7: after all of them it holds what it was launched with. -/
theorem arg7_eq (m : (ℓ : Loc nD τ sig) → Buf (Elt F) ℓ) (c : Dev nD) :
    after ops (launchContents m c) (Proc.devRef .tc main_arg7) = m ((c.tc : Thread nD τ).loc main_arg7) := by
  after_results_simp <;> rfl

set_option maxRecDepth 8192 in
set_option maxHeartbeats 92800000 in
/-- No operation writes argument 8: after all of them it holds what it was launched with. -/
theorem arg8_eq (m : (ℓ : Loc nD τ sig) → Buf (Elt F) ℓ) (c : Dev nD) :
    after ops (launchContents m c) (Proc.devRef .tc main_arg8) = m ((c.tc : Thread nD τ).loc main_arg8) := by
  after_results_simp <;> rfl

/-- On every device, for any float values, from any memory with zero counters: every weakly fair execution of @main
    terminates with the result buffer at the last stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v192)
        = Cert.ReferenceIdeal.Read.val_main_v192 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v192).trans (out_eq m c),
      (h c main_arg0).trans (arg0_eq m c),
      (h c main_arg1).trans (arg1_eq m c),
      (h c main_arg2).trans (arg2_eq m c),
      (h c main_arg3).trans (arg3_eq m c),
      (h c main_arg4).trans (arg4_eq m c),
      (h c main_arg5).trans (arg5_eq m c),
      (h c main_arg6).trans (arg6_eq m c),
      (h c main_arg7).trans (arg7_eq m c),
      (h c main_arg8).trans (arg8_eq m c)⟩)
    (run_seq scopedRefs_eq scopedSems_eq defs main (fun _ => ops) main_eq (fun _ => ops_sub) m ρ
      (fun _ op hop => (List.forall_iff_forall_mem.mp ops_fresh) op hop))

end Cert.Gin.RefRun

end
-- ==== Proof.RefLayers.lean ====
/-
  The reference program, layer by layer, along one node's row.

  The reference computes each of its three layers over the whole array of 100000 rows at once: it scales the features by
  1 + ε and adds the aggregated array, multiplies by the first weight matrix, adds the bias and cuts off at 0, multiplies
  by the second matrix, adds the bias and the layer's input, and normalises each row by its own mean and variance
  before the scale, the shift and the last cut-off. Every one of these operations either acts on each element separately or
  (the two products and the two row sums) combines elements of one row only, so the value at row p, feature q is a function
  of row p of the layer's input and row p of the aggregated array. This module reads the operations at the index (p, q),
  one short step per line of the layer's formula, and finds exactly the layer along a row. The aggregated array itself
  (a gather followed by a scatter-add) is never opened.
-/
import proofs.«136586_j78194174591254_1_alg».proof.Proof.RefReadP
import proofs.«136586_j78194174591254_1_alg».proof.Proof.GinRow

noncomputable section

open scoped BigOperators

namespace Cert.Gin.Ref

open Cert.ReferenceIdeal Cert.ReferenceIdeal.Read Idealize.ShloMosaic Idealize.ShloMosaic.ValueIdx Cert.Gin

/-! ## Layer 0 -/

/-- The first weight matrix of layer 0: slice 0 of the stack, reshaped to a square. -/
theorem w1_0 (x2 : (⟨S3x256x256, .f32⟩ : BufTy).Contents (Elt Ideal)) (a b : Fin 256) :
    val_main_v5 (F := Ideal) x2 (ix2 a b) = sliceMat x2 0 a b := by
  rw [val_main_v5_apply, val_main_v4_apply]
  show _ = x2 (ix3 0 a b)
  refine congrArg x2 (funext fun d => Fin.ext ?_)
  have ha := a.isLt
  have hb := b.isLt
  match d with
  | ⟨0, _⟩ => rfl
  | ⟨1, _⟩ => show (a.val * 256 + b.val) / 256 % 256 = a.val; omega
  | ⟨2, _⟩ => show (a.val * 256 + b.val) % 256 = b.val; omega

/-- The first bias of layer 0, broadcast along the rows. -/
theorem b1_0 (x3 : (⟨S3x256, .f32⟩ : BufTy).Contents (Elt Ideal)) (p : Fin 100000) (k : Fin 256) :
    val_main_v34 (F := Ideal) x3 (ix2 p k) = sliceRow x3 0 k := by
  rw [val_main_v34_apply, val_main_v33_apply, val_main_v7_apply, val_main_v6_apply]
  show _ = x3 (ix2 0 k)
  refine congrArg x3 (funext fun d => Fin.ext ?_)
  have hk := k.isLt
  match d with
  | ⟨0, _⟩ => rfl
  | ⟨1, _⟩ => show k.val % 256 = k.val; omega

/-- The second weight matrix of layer 0. -/
theorem w2_0 (x4 : (⟨S3x256x256, .f32⟩ : BufTy).Contents (Elt Ideal)) (a b : Fin 256) :
    val_main_v9 (F := Ideal) x4 (ix2 a b) = sliceMat x4 0 a b := by
  rw [val_main_v9_apply, val_main_v8_apply]
  show _ = x4 (ix3 0 a b)
  refine congrArg x4 (funext fun d => Fin.ext ?_)
  have ha := a.isLt
  have hb := b.isLt
  match d with
  | ⟨0, _⟩ => rfl
  | ⟨1, _⟩ => show (a.val * 256 + b.val) / 256 % 256 = a.val; omega
  | ⟨2, _⟩ => show (a.val * 256 + b.val) % 256 = b.val; omega

/-- The second bias of layer 0, broadcast along the rows. -/
theorem b2_0 (x5 : (⟨S3x256, .f32⟩ : BufTy).Contents (Elt Ideal)) (p : Fin 100000) (k : Fin 256) :
    val_main_v39 (F := Ideal) x5 (ix2 p k) = sliceRow x5 0 k := by
  rw [val_main_v39_apply, val_main_v38_apply, val_main_v11_apply, val_main_v10_apply]
  show _ = x5 (ix2 0 k)
  refine congrArg x5 (funext fun d => Fin.ext ?_)
  have hk := k.isLt
  match d with
  | ⟨0, _⟩ => rfl
  | ⟨1, _⟩ => show k.val % 256 = k.val; omega

/-- The scale of layer 0, broadcast along the rows. -/
theorem gamma_0 (x7 : (⟨S3x256, .f32⟩ : BufTy).Contents (Elt Ideal)) (p : Fin 100000) (k : Fin 256) :
    val_main_v61 (F := Ideal) x7 (ix2 p k) = sliceRow x7 0 k := by
  rw [val_main_v61_apply, val_main_v60_apply, val_main_v15_apply, val_main_v14_apply]
  show _ = x7 (ix2 0 k)
  refine congrArg x7 (funext fun d => Fin.ext ?_)
  have hk := k.isLt
  match d with
  | ⟨0, _⟩ => rfl
  | ⟨1, _⟩ => show k.val % 256 = k.val; omega

/-- The shift of layer 0, broadcast along the rows. -/
theorem beta_0 (x8 : (⟨S3x256, .f32⟩ : BufTy).Contents (Elt Ideal)) (p : Fin 100000) (k : Fin 256) :
    val_main_v64 (F := Ideal) x8 (ix2 p k) = sliceRow x8 0 k := by
  rw [val_main_v64_apply, val_main_v63_apply, val_main_v17_apply, val_main_v16_apply]
  show _ = x8 (ix2 0 k)
  refine congrArg x8 (funext fun d => Fin.ext ?_)
  have hk := k.isLt
  match d with
  | ⟨0, _⟩ => rfl
  | ⟨1, _⟩ => show k.val % 256 = k.val; omega

/-- The scalar ε of layer 0: entry 0 of the three, as a rank-0 array. -/
theorem eps_0 (x6 : (⟨S3, .f32⟩ : BufTy).Contents (Elt Ideal)) (j : S_.Idx) :
    val_main_v13 (F := Ideal) x6 j = x6 (ix1 0) := by
  unfold val_main_v13
  refine (shapeCast_apply (val_main_v12 (F := Ideal) x6) _ j (ix1 (0 : Fin 1)) ?_).trans ?_
  · rw [Shape.rowMajor_val_one]
    exact (Shape.rowMajorPi_zero _ j).symm
  · rw [val_main_v12_apply]
    exact congrArg x6 (funext fun d => Fin.ext (by match d with | ⟨0, _⟩ => rfl))

/-- The mixed input of layer 0, along row `p`. -/
theorem mix_0 (x0 : (⟨S100000x256, .f32⟩ : BufTy).Contents (Elt Ideal)) (x1 : (⟨S2x300000, .i32⟩ : BufTy).Contents (Elt Ideal)) (x6 : (⟨S3, .f32⟩ : BufTy).Contents (Elt Ideal)) (p : Fin 100000) (k : Fin 256) :
    val_main_v31 (F := Ideal) x0 x1 x6 (ix2 p k) = mix (rowOf x0 p) (rowOf (val_main_v27 (F := Ideal) x0 x1) p) (sliceConst x6 0) k := by
  rw [val_main_v31_apply, val_main_v30_apply, val_main_v29_apply, val_main_v28_apply, val_main_cst_1_apply, eps_0]
  rfl

/-- The hidden row of layer 0: the mixed row through the first matrix, plus the bias, cut off below at 0. -/
theorem hidden_0 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x6 : (⟨S3, .f32⟩ : BufTy).Contents (Elt Ideal)) (p : Fin 100000) (k : Fin 256) :
    val_main_v36 (F := Ideal) x0 x1 x2 x3 x6 (ix2 p k) = hidden (rowOf x0 p) (rowOf (val_main_v27 (F := Ideal) x0 x1) p) (sliceMat x2 0) (sliceRow x3 0) (sliceConst x6 0) k := by
  have hl : ∀ c : Fin 256, lidx_main_v32 (ix2 p k) c = ix2 p c := fun c => funext fun a => Fin.ext (by match a with | ⟨0, _⟩ => rfl | ⟨1, _⟩ => rfl)
  have hr : ∀ c : Fin 256, ridx_main_v32 (ix2 p k) c = ix2 c k := fun c => funext fun a => Fin.ext (by match a with | ⟨0, _⟩ => rfl | ⟨1, _⟩ => rfl)
  rw [val_main_v36_apply, val_main_v35_apply, val_main_v32_apply, b1_0, val_main_call0_v0_apply, val_main_call0_cst_apply]
  simp only [hl, hr, mix_0, w1_0]
  rfl

/-- The residual row of layer 0: the hidden row through the second matrix, plus the bias, plus the input row. -/
theorem resid_0 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (p : Fin 100000) (k : Fin 256) :
    val_main_v41 (F := Ideal) x0 x1 x2 x3 x4 x5 x6 (ix2 p k) = (resid (rowOf x0 p) (rowOf (val_main_v27 (F := Ideal) x0 x1) p) (sliceMat x2 0) (sliceRow x3 0) (sliceMat x4 0) (sliceRow x5 0) (sliceConst x6 0)) k := by
  have hl : ∀ c : Fin 256, lidx_main_v37 (ix2 p k) c = ix2 p c := fun c => funext fun a => Fin.ext (by match a with | ⟨0, _⟩ => rfl | ⟨1, _⟩ => rfl)
  have hr : ∀ c : Fin 256, ridx_main_v37 (ix2 p k) c = ix2 c k := fun c => funext fun a => Fin.ext (by match a with | ⟨0, _⟩ => rfl | ⟨1, _⟩ => rfl)
  rw [val_main_v41_apply, val_main_v40_apply, val_main_v37_apply, b2_0]
  simp only [hl, hr, hidden_0, w2_0]
  rfl

/-- The mean of the residual row of layer 0: the row's sum (from the initial value 0) over 256. -/
theorem mean_0 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (p : Fin 100000) (z : Fin 1) :
    val_main_v45 (F := Ideal) x0 x1 x2 x3 x4 x5 x6 (ix2 p z) = mean (resid (rowOf x0 p) (rowOf (val_main_v27 (F := Ideal) x0 x1) p) (sliceMat x2 0) (sliceRow x3 0) (sliceMat x4 0) (sliceRow x5 0) (sliceConst x6 0)) := by
  have hi : ∀ c : Fin 256, idx_main_v42 (idx_main_v43 (ix2 p z)) c = ix2 p c := fun c => funext fun a => Fin.ext (by match a with | ⟨0, _⟩ => rfl | ⟨1, _⟩ => rfl)
  rw [val_main_v45_apply, val_main_v43_apply, val_main_v42_apply, val_main_cst_2_apply, val_main_v44_apply, val_main_cst_3_apply]
  simp only [hi, resid_0, Ideal.ofBits_def, Ideal.hostDivf_def, Ideal.ofBits_zero_f32, zero_add]
  rfl

/-- The residual row of layer 0 less its mean (the copy that is squared). -/
theorem cen_0 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (p : Fin 100000) (k : Fin 256) :
    val_main_v47 (F := Ideal) x0 x1 x2 x3 x4 x5 x6 (ix2 p k) = (resid (rowOf x0 p) (rowOf (val_main_v27 (F := Ideal) x0 x1) p) (sliceMat x2 0) (sliceRow x3 0) (sliceMat x4 0) (sliceRow x5 0) (sliceConst x6 0)) k - mean (resid (rowOf x0 p) (rowOf (val_main_v27 (F := Ideal) x0 x1) p) (sliceMat x2 0) (sliceRow x3 0) (sliceMat x4 0) (sliceRow x5 0) (sliceConst x6 0)) := by
  have hz : idx_main_v46 (ix2 p k) = ix2 p (0 : Fin 1) := funext fun a => Fin.ext (by match a with | ⟨0, _⟩ => rfl | ⟨1, _⟩ => rfl)
  rw [val_main_v47_apply, val_main_v46_apply, hz, mean_0, resid_0]
  rfl

/-- The residual row of layer 0 less its mean (the copy that is scaled). -/
theorem cen'_0 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (p : Fin 100000) (k : Fin 256) :
    val_main_v54 (F := Ideal) x0 x1 x2 x3 x4 x5 x6 (ix2 p k) = (resid (rowOf x0 p) (rowOf (val_main_v27 (F := Ideal) x0 x1) p) (sliceMat x2 0) (sliceRow x3 0) (sliceMat x4 0) (sliceRow x5 0) (sliceConst x6 0)) k - mean (resid (rowOf x0 p) (rowOf (val_main_v27 (F := Ideal) x0 x1) p) (sliceMat x2 0) (sliceRow x3 0) (sliceMat x4 0) (sliceRow x5 0) (sliceConst x6 0)) := by
  have hz : idx_main_v53 (ix2 p k) = ix2 p (0 : Fin 1) := funext fun a => Fin.ext (by match a with | ⟨0, _⟩ => rfl | ⟨1, _⟩ => rfl)
  rw [val_main_v54_apply, val_main_v53_apply, hz, mean_0, resid_0]
  rfl

/-- The variance of the residual row of layer 0: the mean of the squared differences from the mean. -/
theorem var_0 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (p : Fin 100000) (z : Fin 1) :
    val_main_v52 (F := Ideal) x0 x1 x2 x3 x4 x5 x6 (ix2 p z) = mean (fun k => ((resid (rowOf x0 p) (rowOf (val_main_v27 (F := Ideal) x0 x1) p) (sliceMat x2 0) (sliceRow x3 0) (sliceMat x4 0) (sliceRow x5 0) (sliceConst x6 0)) k - mean (resid (rowOf x0 p) (rowOf (val_main_v27 (F := Ideal) x0 x1) p) (sliceMat x2 0) (sliceRow x3 0) (sliceMat x4 0) (sliceRow x5 0) (sliceConst x6 0))) * ((resid (rowOf x0 p) (rowOf (val_main_v27 (F := Ideal) x0 x1) p) (sliceMat x2 0) (sliceRow x3 0) (sliceMat x4 0) (sliceRow x5 0) (sliceConst x6 0)) k - mean (resid (rowOf x0 p) (rowOf (val_main_v27 (F := Ideal) x0 x1) p) (sliceMat x2 0) (sliceRow x3 0) (sliceMat x4 0) (sliceRow x5 0) (sliceConst x6 0)))) := by
  have hi : ∀ c : Fin 256, idx_main_v49 (idx_main_v50 (ix2 p z)) c = ix2 p c := fun c => funext fun a => Fin.ext (by match a with | ⟨0, _⟩ => rfl | ⟨1, _⟩ => rfl)
  rw [val_main_v52_apply, val_main_v50_apply, val_main_v49_apply, val_main_cst_4_apply, val_main_v51_apply, val_main_cst_5_apply]
  simp only [hi, val_main_v48_apply, cen_0, Ideal.ofBits_def, Ideal.hostDivf_def, Ideal.mulf_def, Ideal.ofBits_zero_f32, zero_add]
  rfl

/-- The reciprocal square root of the variance plus the small constant, broadcast along the row. -/
theorem rstd_0 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (p : Fin 100000) (q : Fin 256) :
    val_main_v58 (F := Ideal) x0 x1 x2 x3 x4 x5 x6 (ix2 p q) = Ideal.rsqrt (mean (fun k => ((resid (rowOf x0 p) (rowOf (val_main_v27 (F := Ideal) x0 x1) p) (sliceMat x2 0) (sliceRow x3 0) (sliceMat x4 0) (sliceRow x5 0) (sliceConst x6 0)) k - mean (resid (rowOf x0 p) (rowOf (val_main_v27 (F := Ideal) x0 x1) p) (sliceMat x2 0) (sliceRow x3 0) (sliceMat x4 0) (sliceRow x5 0) (sliceConst x6 0))) * ((resid (rowOf x0 p) (rowOf (val_main_v27 (F := Ideal) x0 x1) p) (sliceMat x2 0) (sliceRow x3 0) (sliceMat x4 0) (sliceRow x5 0) (sliceConst x6 0)) k - mean (resid (rowOf x0 p) (rowOf (val_main_v27 (F := Ideal) x0 x1) p) (sliceMat x2 0) (sliceRow x3 0) (sliceMat x4 0) (sliceRow x5 0) (sliceConst x6 0)))) + Ideal.ofBits .f32 0x3727C5AC#32) := by
  have hz : idx_main_v58 (ix2 p q) = ix2 p (0 : Fin 1) := funext fun a => Fin.ext (by match a with | ⟨0, _⟩ => rfl | ⟨1, _⟩ => rfl)
  rw [val_main_v58_apply, hz, val_main_v57_apply, val_main_v56_apply, var_0, val_main_v55_apply, val_main_cst_6_apply]
  rfl

/-- **Layer 0 of the reference, along a row**: its output at row `p`, feature `q` is the layer of row `p` of its input and of the aggregated array. -/
theorem layer0 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 x8 : (⟨S3x256, .f32⟩ : BufTy).Contents (Elt Ideal)) (p : Fin 100000) (q : Fin 256) :
    val_main_v66 (F := Ideal) x0 x1 x2 x3 x4 x5 x6 x7 x8 (ix2 p q)
      = ginRow (rowOf x0 p) (rowOf (val_main_v27 (F := Ideal) x0 x1) p) (sliceMat x2 0) (sliceRow x3 0) (sliceMat x4 0) (sliceRow x5 0) (sliceConst x6 0) (sliceRow x7 0) (sliceRow x8 0) q := by
  rw [val_main_v66_apply, val_main_v65_apply, val_main_v62_apply, val_main_v59_apply, cen'_0, rstd_0, gamma_0, beta_0, val_main_call1_v0_apply, val_main_call1_cst_apply]
  rfl

/-! ## Layer 1 -/

/-- The first weight matrix of layer 1: slice 1 of the stack, reshaped to a square. -/
theorem w1_1 (x2 : (⟨S3x256x256, .f32⟩ : BufTy).Contents (Elt Ideal)) (a b : Fin 256) :
    val_main_v68 (F := Ideal) x2 (ix2 a b) = sliceMat x2 1 a b := by
  rw [val_main_v68_apply, val_main_v67_apply]
  show _ = x2 (ix3 1 a b)
  refine congrArg x2 (funext fun d => Fin.ext ?_)
  have ha := a.isLt
  have hb := b.isLt
  match d with
  | ⟨0, _⟩ => rfl
  | ⟨1, _⟩ => show (a.val * 256 + b.val) / 256 % 256 = a.val; omega
  | ⟨2, _⟩ => show (a.val * 256 + b.val) % 256 = b.val; omega

/-- The first bias of layer 1, broadcast along the rows. -/
theorem b1_1 (x3 : (⟨S3x256, .f32⟩ : BufTy).Contents (Elt Ideal)) (p : Fin 100000) (k : Fin 256) :
    val_main_v97 (F := Ideal) x3 (ix2 p k) = sliceRow x3 1 k := by
  rw [val_main_v97_apply, val_main_v96_apply, val_main_v70_apply, val_main_v69_apply]
  show _ = x3 (ix2 1 k)
  refine congrArg x3 (funext fun d => Fin.ext ?_)
  have hk := k.isLt
  match d with
  | ⟨0, _⟩ => rfl
  | ⟨1, _⟩ => show k.val % 256 = k.val; omega

/-- The second weight matrix of layer 1. -/
theorem w2_1 (x4 : (⟨S3x256x256, .f32⟩ : BufTy).Contents (Elt Ideal)) (a b : Fin 256) :
    val_main_v72 (F := Ideal) x4 (ix2 a b) = sliceMat x4 1 a b := by
  rw [val_main_v72_apply, val_main_v71_apply]
  show _ = x4 (ix3 1 a b)
  refine congrArg x4 (funext fun d => Fin.ext ?_)
  have ha := a.isLt
  have hb := b.isLt
  match d with
  | ⟨0, _⟩ => rfl
  | ⟨1, _⟩ => show (a.val * 256 + b.val) / 256 % 256 = a.val; omega
  | ⟨2, _⟩ => show (a.val * 256 + b.val) % 256 = b.val; omega

/-- The second bias of layer 1, broadcast along the rows. -/
theorem b2_1 (x5 : (⟨S3x256, .f32⟩ : BufTy).Contents (Elt Ideal)) (p : Fin 100000) (k : Fin 256) :
    val_main_v102 (F := Ideal) x5 (ix2 p k) = sliceRow x5 1 k := by
  rw [val_main_v102_apply, val_main_v101_apply, val_main_v74_apply, val_main_v73_apply]
  show _ = x5 (ix2 1 k)
  refine congrArg x5 (funext fun d => Fin.ext ?_)
  have hk := k.isLt
  match d with
  | ⟨0, _⟩ => rfl
  | ⟨1, _⟩ => show k.val % 256 = k.val; omega

/-- The scale of layer 1, broadcast along the rows. -/
theorem gamma_1 (x7 : (⟨S3x256, .f32⟩ : BufTy).Contents (Elt Ideal)) (p : Fin 100000) (k : Fin 256) :
    val_main_v124 (F := Ideal) x7 (ix2 p k) = sliceRow x7 1 k := by
  rw [val_main_v124_apply, val_main_v123_apply, val_main_v78_apply, val_main_v77_apply]
  show _ = x7 (ix2 1 k)
  refine congrArg x7 (funext fun d => Fin.ext ?_)
  have hk := k.isLt
  match d with
  | ⟨0, _⟩ => rfl
  | ⟨1, _⟩ => show k.val % 256 = k.val; omega

/-- The shift of layer 1, broadcast along the rows. -/
theorem beta_1 (x8 : (⟨S3x256, .f32⟩ : BufTy).Contents (Elt Ideal)) (p : Fin 100000) (k : Fin 256) :
    val_main_v127 (F := Ideal) x8 (ix2 p k) = sliceRow x8 1 k := by
  rw [val_main_v127_apply, val_main_v126_apply, val_main_v80_apply, val_main_v79_apply]
  show _ = x8 (ix2 1 k)
  refine congrArg x8 (funext fun d => Fin.ext ?_)
  have hk := k.isLt
  match d with
  | ⟨0, _⟩ => rfl
  | ⟨1, _⟩ => show k.val % 256 = k.val; omega

/-- The scalar ε of layer 1: entry 1 of the three, as a rank-0 array. -/
theorem eps_1 (x6 : (⟨S3, .f32⟩ : BufTy).Contents (Elt Ideal)) (j : S_.Idx) :
    val_main_v76 (F := Ideal) x6 j = x6 (ix1 1) := by
  unfold val_main_v76
  refine (shapeCast_apply (val_main_v75 (F := Ideal) x6) _ j (ix1 (0 : Fin 1)) ?_).trans ?_
  · rw [Shape.rowMajor_val_one]
    exact (Shape.rowMajorPi_zero _ j).symm
  · rw [val_main_v75_apply]
    exact congrArg x6 (funext fun d => Fin.ext (by match d with | ⟨0, _⟩ => rfl))

/-- The mixed input of layer 1, along row `p`. -/
theorem mix_1 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 : (⟨S3x256, .f32⟩ : BufTy).Contents (Elt Ideal)) (x8 : (⟨S3x256, .f32⟩ : BufTy).Contents (Elt Ideal)) (p : Fin 100000) (k : Fin 256) :
    val_main_v94 (F := Ideal) x0 x1 x2 x3 x4 x5 x6 x7 x8 (ix2 p k) = mix (rowOf (val_main_v66 (F := Ideal) x0 x1 x2 x3 x4 x5 x6 x7 x8) p) (rowOf (val_main_v90 (F := Ideal) x0 x1 x2 x3 x4 x5 x6 x7 x8) p) (sliceConst x6 1) k := by
  rw [val_main_v94_apply, val_main_v93_apply, val_main_v92_apply, val_main_v91_apply, val_main_cst_10_apply, eps_1]
  rfl

/-- The hidden row of layer 1: the mixed row through the first matrix, plus the bias, cut off below at 0. -/
theorem hidden_1 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 : (⟨S3x256, .f32⟩ : BufTy).Contents (Elt Ideal)) (x8 : (⟨S3x256, .f32⟩ : BufTy).Contents (Elt Ideal)) (p : Fin 100000) (k : Fin 256) :
    val_main_v99 (F := Ideal) x0 x1 x2 x3 x4 x5 x6 x7 x8 (ix2 p k) = hidden (rowOf (val_main_v66 (F := Ideal) x0 x1 x2 x3 x4 x5 x6 x7 x8) p) (rowOf (val_main_v90 (F := Ideal) x0 x1 x2 x3 x4 x5 x6 x7 x8) p) (sliceMat x2 1) (sliceRow x3 1) (sliceConst x6 1) k := by
  have hl : ∀ c : Fin 256, lidx_main_v95 (ix2 p k) c = ix2 p c := fun c => funext fun a => Fin.ext (by match a with | ⟨0, _⟩ => rfl | ⟨1, _⟩ => rfl)
  have hr : ∀ c : Fin 256, ridx_main_v95 (ix2 p k) c = ix2 c k := fun c => funext fun a => Fin.ext (by match a with | ⟨0, _⟩ => rfl | ⟨1, _⟩ => rfl)
  rw [val_main_v99_apply, val_main_v98_apply, val_main_v95_apply, b1_1, val_main_call2_v0_apply, val_main_call2_cst_apply]
  simp only [hl, hr, mix_1, w1_1]
  rfl

/-- The residual row of layer 1: the hidden row through the second matrix, plus the bias, plus the input row. -/
theorem resid_1 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 : (⟨S3x256, .f32⟩ : BufTy).Contents (Elt Ideal)) (x8 : (⟨S3x256, .f32⟩ : BufTy).Contents (Elt Ideal)) (p : Fin 100000) (k : Fin 256) :
    val_main_v104 (F := Ideal) x0 x1 x2 x3 x4 x5 x6 x7 x8 (ix2 p k) = (resid (rowOf (val_main_v66 (F := Ideal) x0 x1 x2 x3 x4 x5 x6 x7 x8) p) (rowOf (val_main_v90 (F := Ideal) x0 x1 x2 x3 x4 x5 x6 x7 x8) p) (sliceMat x2 1) (sliceRow x3 1) (sliceMat x4 1) (sliceRow x5 1) (sliceConst x6 1)) k := by
  have hl : ∀ c : Fin 256, lidx_main_v100 (ix2 p k) c = ix2 p c := fun c => funext fun a => Fin.ext (by match a with | ⟨0, _⟩ => rfl | ⟨1, _⟩ => rfl)
  have hr : ∀ c : Fin 256, ridx_main_v100 (ix2 p k) c = ix2 c k := fun c => funext fun a => Fin.ext (by match a with | ⟨0, _⟩ => rfl | ⟨1, _⟩ => rfl)
  rw [val_main_v104_apply, val_main_v103_apply, val_main_v100_apply, b2_1]
  simp only [hl, hr, hidden_1, w2_1]
  rfl

/-- The mean of the residual row of layer 1: the row's sum (from the initial value 0) over 256. -/
theorem mean_1 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 : (⟨S3x256, .f32⟩ : BufTy).Contents (Elt Ideal)) (x8 : (⟨S3x256, .f32⟩ : BufTy).Contents (Elt Ideal)) (p : Fin 100000) (z : Fin 1) :
    val_main_v108 (F := Ideal) x0 x1 x2 x3 x4 x5 x6 x7 x8 (ix2 p z) = mean (resid (rowOf (val_main_v66 (F := Ideal) x0 x1 x2 x3 x4 x5 x6 x7 x8) p) (rowOf (val_main_v90 (F := Ideal) x0 x1 x2 x3 x4 x5 x6 x7 x8) p) (sliceMat x2 1) (sliceRow x3 1) (sliceMat x4 1) (sliceRow x5 1) (sliceConst x6 1)) := by
  have hi : ∀ c : Fin 256, idx_main_v105 (idx_main_v106 (ix2 p z)) c = ix2 p c := fun c => funext fun a => Fin.ext (by match a with | ⟨0, _⟩ => rfl | ⟨1, _⟩ => rfl)
  rw [val_main_v108_apply, val_main_v106_apply, val_main_v105_apply, val_main_cst_11_apply, val_main_v107_apply, val_main_cst_12_apply]
  simp only [hi, resid_1, Ideal.ofBits_def, Ideal.hostDivf_def, Ideal.ofBits_zero_f32, zero_add]
  rfl

/-- The residual row of layer 1 less its mean (the copy that is squared). -/
theorem cen_1 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 : (⟨S3x256, .f32⟩ : BufTy).Contents (Elt Ideal)) (x8 : (⟨S3x256, .f32⟩ : BufTy).Contents (Elt Ideal)) (p : Fin 100000) (k : Fin 256) :
    val_main_v110 (F := Ideal) x0 x1 x2 x3 x4 x5 x6 x7 x8 (ix2 p k) = (resid (rowOf (val_main_v66 (F := Ideal) x0 x1 x2 x3 x4 x5 x6 x7 x8) p) (rowOf (val_main_v90 (F := Ideal) x0 x1 x2 x3 x4 x5 x6 x7 x8) p) (sliceMat x2 1) (sliceRow x3 1) (sliceMat x4 1) (sliceRow x5 1) (sliceConst x6 1)) k - mean (resid (rowOf (val_main_v66 (F := Ideal) x0 x1 x2 x3 x4 x5 x6 x7 x8) p) (rowOf (val_main_v90 (F := Ideal) x0 x1 x2 x3 x4 x5 x6 x7 x8) p) (sliceMat x2 1) (sliceRow x3 1) (sliceMat x4 1) (sliceRow x5 1) (sliceConst x6 1)) := by
  have hz : idx_main_v109 (ix2 p k) = ix2 p (0 : Fin 1) := funext fun a => Fin.ext (by match a with | ⟨0, _⟩ => rfl | ⟨1, _⟩ => rfl)
  rw [val_main_v110_apply, val_main_v109_apply, hz, mean_1, resid_1]
  rfl

/-- The residual row of layer 1 less its mean (the copy that is scaled). -/
theorem cen'_1 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 : (⟨S3x256, .f32⟩ : BufTy).Contents (Elt Ideal)) (x8 : (⟨S3x256, .f32⟩ : BufTy).Contents (Elt Ideal)) (p : Fin 100000) (k : Fin 256) :
    val_main_v117 (F := Ideal) x0 x1 x2 x3 x4 x5 x6 x7 x8 (ix2 p k) = (resid (rowOf (val_main_v66 (F := Ideal) x0 x1 x2 x3 x4 x5 x6 x7 x8) p) (rowOf (val_main_v90 (F := Ideal) x0 x1 x2 x3 x4 x5 x6 x7 x8) p) (sliceMat x2 1) (sliceRow x3 1) (sliceMat x4 1) (sliceRow x5 1) (sliceConst x6 1)) k - mean (resid (rowOf (val_main_v66 (F := Ideal) x0 x1 x2 x3 x4 x5 x6 x7 x8) p) (rowOf (val_main_v90 (F := Ideal) x0 x1 x2 x3 x4 x5 x6 x7 x8) p) (sliceMat x2 1) (sliceRow x3 1) (sliceMat x4 1) (sliceRow x5 1) (sliceConst x6 1)) := by
  have hz : idx_main_v116 (ix2 p k) = ix2 p (0 : Fin 1) := funext fun a => Fin.ext (by match a with | ⟨0, _⟩ => rfl | ⟨1, _⟩ => rfl)
  rw [val_main_v117_apply, val_main_v116_apply, hz, mean_1, resid_1]
  rfl

/-- The variance of the residual row of layer 1: the mean of the squared differences from the mean. -/
theorem var_1 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 : (⟨S3x256, .f32⟩ : BufTy).Contents (Elt Ideal)) (x8 : (⟨S3x256, .f32⟩ : BufTy).Contents (Elt Ideal)) (p : Fin 100000) (z : Fin 1) :
    val_main_v115 (F := Ideal) x0 x1 x2 x3 x4 x5 x6 x7 x8 (ix2 p z) = mean (fun k => ((resid (rowOf (val_main_v66 (F := Ideal) x0 x1 x2 x3 x4 x5 x6 x7 x8) p) (rowOf (val_main_v90 (F := Ideal) x0 x1 x2 x3 x4 x5 x6 x7 x8) p) (sliceMat x2 1) (sliceRow x3 1) (sliceMat x4 1) (sliceRow x5 1) (sliceConst x6 1)) k - mean (resid (rowOf (val_main_v66 (F := Ideal) x0 x1 x2 x3 x4 x5 x6 x7 x8) p) (rowOf (val_main_v90 (F := Ideal) x0 x1 x2 x3 x4 x5 x6 x7 x8) p) (sliceMat x2 1) (sliceRow x3 1) (sliceMat x4 1) (sliceRow x5 1) (sliceConst x6 1))) * ((resid (rowOf (val_main_v66 (F := Ideal) x0 x1 x2 x3 x4 x5 x6 x7 x8) p) (rowOf (val_main_v90 (F := Ideal) x0 x1 x2 x3 x4 x5 x6 x7 x8) p) (sliceMat x2 1) (sliceRow x3 1) (sliceMat x4 1) (sliceRow x5 1) (sliceConst x6 1)) k - mean (resid (rowOf (val_main_v66 (F := Ideal) x0 x1 x2 x3 x4 x5 x6 x7 x8) p) (rowOf (val_main_v90 (F := Ideal) x0 x1 x2 x3 x4 x5 x6 x7 x8) p) (sliceMat x2 1) (sliceRow x3 1) (sliceMat x4 1) (sliceRow x5 1) (sliceConst x6 1)))) := by
  have hi : ∀ c : Fin 256, idx_main_v112 (idx_main_v113 (ix2 p z)) c = ix2 p c := fun c => funext fun a => Fin.ext (by match a with | ⟨0, _⟩ => rfl | ⟨1, _⟩ => rfl)
  rw [val_main_v115_apply, val_main_v113_apply, val_main_v112_apply, val_main_cst_13_apply, val_main_v114_apply, val_main_cst_14_apply]
  simp only [hi, val_main_v111_apply, cen_1, Ideal.ofBits_def, Ideal.hostDivf_def, Ideal.mulf_def, Ideal.ofBits_zero_f32, zero_add]
  rfl

/-- The reciprocal square root of the variance plus the small constant, broadcast along the row. -/
theorem rstd_1 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 : (⟨S3x256, .f32⟩ : BufTy).Contents (Elt Ideal)) (x8 : (⟨S3x256, .f32⟩ : BufTy).Contents (Elt Ideal)) (p : Fin 100000) (q : Fin 256) :
    val_main_v121 (F := Ideal) x0 x1 x2 x3 x4 x5 x6 x7 x8 (ix2 p q) = Ideal.rsqrt (mean (fun k => ((resid (rowOf (val_main_v66 (F := Ideal) x0 x1 x2 x3 x4 x5 x6 x7 x8) p) (rowOf (val_main_v90 (F := Ideal) x0 x1 x2 x3 x4 x5 x6 x7 x8) p) (sliceMat x2 1) (sliceRow x3 1) (sliceMat x4 1) (sliceRow x5 1) (sliceConst x6 1)) k - mean (resid (rowOf (val_main_v66 (F := Ideal) x0 x1 x2 x3 x4 x5 x6 x7 x8) p) (rowOf (val_main_v90 (F := Ideal) x0 x1 x2 x3 x4 x5 x6 x7 x8) p) (sliceMat x2 1) (sliceRow x3 1) (sliceMat x4 1) (sliceRow x5 1) (sliceConst x6 1))) * ((resid (rowOf (val_main_v66 (F := Ideal) x0 x1 x2 x3 x4 x5 x6 x7 x8) p) (rowOf (val_main_v90 (F := Ideal) x0 x1 x2 x3 x4 x5 x6 x7 x8) p) (sliceMat x2 1) (sliceRow x3 1) (sliceMat x4 1) (sliceRow x5 1) (sliceConst x6 1)) k - mean (resid (rowOf (val_main_v66 (F := Ideal) x0 x1 x2 x3 x4 x5 x6 x7 x8) p) (rowOf (val_main_v90 (F := Ideal) x0 x1 x2 x3 x4 x5 x6 x7 x8) p) (sliceMat x2 1) (sliceRow x3 1) (sliceMat x4 1) (sliceRow x5 1) (sliceConst x6 1)))) + Ideal.ofBits .f32 0x3727C5AC#32) := by
  have hz : idx_main_v121 (ix2 p q) = ix2 p (0 : Fin 1) := funext fun a => Fin.ext (by match a with | ⟨0, _⟩ => rfl | ⟨1, _⟩ => rfl)
  rw [val_main_v121_apply, hz, val_main_v120_apply, val_main_v119_apply, var_1, val_main_v118_apply, val_main_cst_15_apply]
  rfl

/-- **Layer 1 of the reference, along a row**: its output at row `p`, feature `q` is the layer of row `p` of its input and of the aggregated array. -/
theorem layer1 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 x8 : (⟨S3x256, .f32⟩ : BufTy).Contents (Elt Ideal)) (p : Fin 100000) (q : Fin 256) :
    val_main_v129 (F := Ideal) x0 x1 x2 x3 x4 x5 x6 x7 x8 (ix2 p q)
      = ginRow (rowOf (val_main_v66 (F := Ideal) x0 x1 x2 x3 x4 x5 x6 x7 x8) p) (rowOf (val_main_v90 (F := Ideal) x0 x1 x2 x3 x4 x5 x6 x7 x8) p) (sliceMat x2 1) (sliceRow x3 1) (sliceMat x4 1) (sliceRow x5 1) (sliceConst x6 1) (sliceRow x7 1) (sliceRow x8 1) q := by
  rw [val_main_v129_apply, val_main_v128_apply, val_main_v125_apply, val_main_v122_apply, cen'_1, rstd_1, gamma_1, beta_1, val_main_call3_v0_apply, val_main_call3_cst_apply]
  rfl

/-! ## Layer 2 -/

/-- The first weight matrix of layer 2: slice 2 of the stack, reshaped to a square. -/
theorem w1_2 (x2 : (⟨S3x256x256, .f32⟩ : BufTy).Contents (Elt Ideal)) (a b : Fin 256) :
    val_main_v131 (F := Ideal) x2 (ix2 a b) = sliceMat x2 2 a b := by
  rw [val_main_v131_apply, val_main_v130_apply]
  show _ = x2 (ix3 2 a b)
  refine congrArg x2 (funext fun d => Fin.ext ?_)
  have ha := a.isLt
  have hb := b.isLt
  match d with
  | ⟨0, _⟩ => rfl
  | ⟨1, _⟩ => show (a.val * 256 + b.val) / 256 % 256 = a.val; omega
  | ⟨2, _⟩ => show (a.val * 256 + b.val) % 256 = b.val; omega

/-- The first bias of layer 2, broadcast along the rows. -/
theorem b1_2 (x3 : (⟨S3x256, .f32⟩ : BufTy).Contents (Elt Ideal)) (p : Fin 100000) (k : Fin 256) :
    val_main_v160 (F := Ideal) x3 (ix2 p k) = sliceRow x3 2 k := by
  rw [val_main_v160_apply, val_main_v159_apply, val_main_v133_apply, val_main_v132_apply]
  show _ = x3 (ix2 2 k)
  refine congrArg x3 (funext fun d => Fin.ext ?_)
  have hk := k.isLt
  match d with
  | ⟨0, _⟩ => rfl
  | ⟨1, _⟩ => show k.val % 256 = k.val; omega

/-- The second weight matrix of layer 2. -/
theorem w2_2 (x4 : (⟨S3x256x256, .f32⟩ : BufTy).Contents (Elt Ideal)) (a b : Fin 256) :
    val_main_v135 (F := Ideal) x4 (ix2 a b) = sliceMat x4 2 a b := by
  rw [val_main_v135_apply, val_main_v134_apply]
  show _ = x4 (ix3 2 a b)
  refine congrArg x4 (funext fun d => Fin.ext ?_)
  have ha := a.isLt
  have hb := b.isLt
  match d with
  | ⟨0, _⟩ => rfl
  | ⟨1, _⟩ => show (a.val * 256 + b.val) / 256 % 256 = a.val; omega
  | ⟨2, _⟩ => show (a.val * 256 + b.val) % 256 = b.val; omega

/-- The second bias of layer 2, broadcast along the rows. -/
theorem b2_2 (x5 : (⟨S3x256, .f32⟩ : BufTy).Contents (Elt Ideal)) (p : Fin 100000) (k : Fin 256) :
    val_main_v165 (F := Ideal) x5 (ix2 p k) = sliceRow x5 2 k := by
  rw [val_main_v165_apply, val_main_v164_apply, val_main_v137_apply, val_main_v136_apply]
  show _ = x5 (ix2 2 k)
  refine congrArg x5 (funext fun d => Fin.ext ?_)
  have hk := k.isLt
  match d with
  | ⟨0, _⟩ => rfl
  | ⟨1, _⟩ => show k.val % 256 = k.val; omega

/-- The scale of layer 2, broadcast along the rows. -/
theorem gamma_2 (x7 : (⟨S3x256, .f32⟩ : BufTy).Contents (Elt Ideal)) (p : Fin 100000) (k : Fin 256) :
    val_main_v187 (F := Ideal) x7 (ix2 p k) = sliceRow x7 2 k := by
  rw [val_main_v187_apply, val_main_v186_apply, val_main_v141_apply, val_main_v140_apply]
  show _ = x7 (ix2 2 k)
  refine congrArg x7 (funext fun d => Fin.ext ?_)
  have hk := k.isLt
  match d with
  | ⟨0, _⟩ => rfl
  | ⟨1, _⟩ => show k.val % 256 = k.val; omega

/-- The shift of layer 2, broadcast along the rows. -/
theorem beta_2 (x8 : (⟨S3x256, .f32⟩ : BufTy).Contents (Elt Ideal)) (p : Fin 100000) (k : Fin 256) :
    val_main_v190 (F := Ideal) x8 (ix2 p k) = sliceRow x8 2 k := by
  rw [val_main_v190_apply, val_main_v189_apply, val_main_v143_apply, val_main_v142_apply]
  show _ = x8 (ix2 2 k)
  refine congrArg x8 (funext fun d => Fin.ext ?_)
  have hk := k.isLt
  match d with
  | ⟨0, _⟩ => rfl
  | ⟨1, _⟩ => show k.val % 256 = k.val; omega

/-- The scalar ε of layer 2: entry 2 of the three, as a rank-0 array. -/
theorem eps_2 (x6 : (⟨S3, .f32⟩ : BufTy).Contents (Elt Ideal)) (j : S_.Idx) :
    val_main_v139 (F := Ideal) x6 j = x6 (ix1 2) := by
  unfold val_main_v139
  refine (shapeCast_apply (val_main_v138 (F := Ideal) x6) _ j (ix1 (0 : Fin 1)) ?_).trans ?_
  · rw [Shape.rowMajor_val_one]
    exact (Shape.rowMajorPi_zero _ j).symm
  · rw [val_main_v138_apply]
    exact congrArg x6 (funext fun d => Fin.ext (by match d with | ⟨0, _⟩ => rfl))

/-- The mixed input of layer 2, along row `p`. -/
theorem mix_2 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 : (⟨S3x256, .f32⟩ : BufTy).Contents (Elt Ideal)) (x8 : (⟨S3x256, .f32⟩ : BufTy).Contents (Elt Ideal)) (p : Fin 100000) (k : Fin 256) :
    val_main_v157 (F := Ideal) x0 x1 x2 x3 x4 x5 x6 x7 x8 (ix2 p k) = mix (rowOf (val_main_v129 (F := Ideal) x0 x1 x2 x3 x4 x5 x6 x7 x8) p) (rowOf (val_main_v153 (F := Ideal) x0 x1 x2 x3 x4 x5 x6 x7 x8) p) (sliceConst x6 2) k := by
  rw [val_main_v157_apply, val_main_v156_apply, val_main_v155_apply, val_main_v154_apply, val_main_cst_19_apply, eps_2]
  rfl

/-- The hidden row of layer 2: the mixed row through the first matrix, plus the bias, cut off below at 0. -/
theorem hidden_2 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 : (⟨S3x256, .f32⟩ : BufTy).Contents (Elt Ideal)) (x8 : (⟨S3x256, .f32⟩ : BufTy).Contents (Elt Ideal)) (p : Fin 100000) (k : Fin 256) :
    val_main_v162 (F := Ideal) x0 x1 x2 x3 x4 x5 x6 x7 x8 (ix2 p k) = hidden (rowOf (val_main_v129 (F := Ideal) x0 x1 x2 x3 x4 x5 x6 x7 x8) p) (rowOf (val_main_v153 (F := Ideal) x0 x1 x2 x3 x4 x5 x6 x7 x8) p) (sliceMat x2 2) (sliceRow x3 2) (sliceConst x6 2) k := by
  have hl : ∀ c : Fin 256, lidx_main_v158 (ix2 p k) c = ix2 p c := fun c => funext fun a => Fin.ext (by match a with | ⟨0, _⟩ => rfl | ⟨1, _⟩ => rfl)
  have hr : ∀ c : Fin 256, ridx_main_v158 (ix2 p k) c = ix2 c k := fun c => funext fun a => Fin.ext (by match a with | ⟨0, _⟩ => rfl | ⟨1, _⟩ => rfl)
  rw [val_main_v162_apply, val_main_v161_apply, val_main_v158_apply, b1_2, val_main_call4_v0_apply, val_main_call4_cst_apply]
  simp only [hl, hr, mix_2, w1_2]
  rfl

/-- The residual row of layer 2: the hidden row through the second matrix, plus the bias, plus the input row. -/
theorem resid_2 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 : (⟨S3x256, .f32⟩ : BufTy).Contents (Elt Ideal)) (x8 : (⟨S3x256, .f32⟩ : BufTy).Contents (Elt Ideal)) (p : Fin 100000) (k : Fin 256) :
    val_main_v167 (F := Ideal) x0 x1 x2 x3 x4 x5 x6 x7 x8 (ix2 p k) = (resid (rowOf (val_main_v129 (F := Ideal) x0 x1 x2 x3 x4 x5 x6 x7 x8) p) (rowOf (val_main_v153 (F := Ideal) x0 x1 x2 x3 x4 x5 x6 x7 x8) p) (sliceMat x2 2) (sliceRow x3 2) (sliceMat x4 2) (sliceRow x5 2) (sliceConst x6 2)) k := by
  have hl : ∀ c : Fin 256, lidx_main_v163 (ix2 p k) c = ix2 p c := fun c => funext fun a => Fin.ext (by match a with | ⟨0, _⟩ => rfl | ⟨1, _⟩ => rfl)
  have hr : ∀ c : Fin 256, ridx_main_v163 (ix2 p k) c = ix2 c k := fun c => funext fun a => Fin.ext (by match a with | ⟨0, _⟩ => rfl | ⟨1, _⟩ => rfl)
  rw [val_main_v167_apply, val_main_v166_apply, val_main_v163_apply, b2_2]
  simp only [hl, hr, hidden_2, w2_2]
  rfl

/-- The mean of the residual row of layer 2: the row's sum (from the initial value 0) over 256. -/
theorem mean_2 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 : (⟨S3x256, .f32⟩ : BufTy).Contents (Elt Ideal)) (x8 : (⟨S3x256, .f32⟩ : BufTy).Contents (Elt Ideal)) (p : Fin 100000) (z : Fin 1) :
    val_main_v171 (F := Ideal) x0 x1 x2 x3 x4 x5 x6 x7 x8 (ix2 p z) = mean (resid (rowOf (val_main_v129 (F := Ideal) x0 x1 x2 x3 x4 x5 x6 x7 x8) p) (rowOf (val_main_v153 (F := Ideal) x0 x1 x2 x3 x4 x5 x6 x7 x8) p) (sliceMat x2 2) (sliceRow x3 2) (sliceMat x4 2) (sliceRow x5 2) (sliceConst x6 2)) := by
  have hi : ∀ c : Fin 256, idx_main_v168 (idx_main_v169 (ix2 p z)) c = ix2 p c := fun c => funext fun a => Fin.ext (by match a with | ⟨0, _⟩ => rfl | ⟨1, _⟩ => rfl)
  rw [val_main_v171_apply, val_main_v169_apply, val_main_v168_apply, val_main_cst_20_apply, val_main_v170_apply, val_main_cst_21_apply]
  simp only [hi, resid_2, Ideal.ofBits_def, Ideal.hostDivf_def, Ideal.ofBits_zero_f32, zero_add]
  rfl

/-- The residual row of layer 2 less its mean (the copy that is squared). -/
theorem cen_2 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 : (⟨S3x256, .f32⟩ : BufTy).Contents (Elt Ideal)) (x8 : (⟨S3x256, .f32⟩ : BufTy).Contents (Elt Ideal)) (p : Fin 100000) (k : Fin 256) :
    val_main_v173 (F := Ideal) x0 x1 x2 x3 x4 x5 x6 x7 x8 (ix2 p k) = (resid (rowOf (val_main_v129 (F := Ideal) x0 x1 x2 x3 x4 x5 x6 x7 x8) p) (rowOf (val_main_v153 (F := Ideal) x0 x1 x2 x3 x4 x5 x6 x7 x8) p) (sliceMat x2 2) (sliceRow x3 2) (sliceMat x4 2) (sliceRow x5 2) (sliceConst x6 2)) k - mean (resid (rowOf (val_main_v129 (F := Ideal) x0 x1 x2 x3 x4 x5 x6 x7 x8) p) (rowOf (val_main_v153 (F := Ideal) x0 x1 x2 x3 x4 x5 x6 x7 x8) p) (sliceMat x2 2) (sliceRow x3 2) (sliceMat x4 2) (sliceRow x5 2) (sliceConst x6 2)) := by
  have hz : idx_main_v172 (ix2 p k) = ix2 p (0 : Fin 1) := funext fun a => Fin.ext (by match a with | ⟨0, _⟩ => rfl | ⟨1, _⟩ => rfl)
  rw [val_main_v173_apply, val_main_v172_apply, hz, mean_2, resid_2]
  rfl

/-- The residual row of layer 2 less its mean (the copy that is scaled). -/
theorem cen'_2 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 : (⟨S3x256, .f32⟩ : BufTy).Contents (Elt Ideal)) (x8 : (⟨S3x256, .f32⟩ : BufTy).Contents (Elt Ideal)) (p : Fin 100000) (k : Fin 256) :
    val_main_v180 (F := Ideal) x0 x1 x2 x3 x4 x5 x6 x7 x8 (ix2 p k) = (resid (rowOf (val_main_v129 (F := Ideal) x0 x1 x2 x3 x4 x5 x6 x7 x8) p) (rowOf (val_main_v153 (F := Ideal) x0 x1 x2 x3 x4 x5 x6 x7 x8) p) (sliceMat x2 2) (sliceRow x3 2) (sliceMat x4 2) (sliceRow x5 2) (sliceConst x6 2)) k - mean (resid (rowOf (val_main_v129 (F := Ideal) x0 x1 x2 x3 x4 x5 x6 x7 x8) p) (rowOf (val_main_v153 (F := Ideal) x0 x1 x2 x3 x4 x5 x6 x7 x8) p) (sliceMat x2 2) (sliceRow x3 2) (sliceMat x4 2) (sliceRow x5 2) (sliceConst x6 2)) := by
  have hz : idx_main_v179 (ix2 p k) = ix2 p (0 : Fin 1) := funext fun a => Fin.ext (by match a with | ⟨0, _⟩ => rfl | ⟨1, _⟩ => rfl)
  rw [val_main_v180_apply, val_main_v179_apply, hz, mean_2, resid_2]
  rfl

/-- The variance of the residual row of layer 2: the mean of the squared differences from the mean. -/
theorem var_2 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 : (⟨S3x256, .f32⟩ : BufTy).Contents (Elt Ideal)) (x8 : (⟨S3x256, .f32⟩ : BufTy).Contents (Elt Ideal)) (p : Fin 100000) (z : Fin 1) :
    val_main_v178 (F := Ideal) x0 x1 x2 x3 x4 x5 x6 x7 x8 (ix2 p z) = mean (fun k => ((resid (rowOf (val_main_v129 (F := Ideal) x0 x1 x2 x3 x4 x5 x6 x7 x8) p) (rowOf (val_main_v153 (F := Ideal) x0 x1 x2 x3 x4 x5 x6 x7 x8) p) (sliceMat x2 2) (sliceRow x3 2) (sliceMat x4 2) (sliceRow x5 2) (sliceConst x6 2)) k - mean (resid (rowOf (val_main_v129 (F := Ideal) x0 x1 x2 x3 x4 x5 x6 x7 x8) p) (rowOf (val_main_v153 (F := Ideal) x0 x1 x2 x3 x4 x5 x6 x7 x8) p) (sliceMat x2 2) (sliceRow x3 2) (sliceMat x4 2) (sliceRow x5 2) (sliceConst x6 2))) * ((resid (rowOf (val_main_v129 (F := Ideal) x0 x1 x2 x3 x4 x5 x6 x7 x8) p) (rowOf (val_main_v153 (F := Ideal) x0 x1 x2 x3 x4 x5 x6 x7 x8) p) (sliceMat x2 2) (sliceRow x3 2) (sliceMat x4 2) (sliceRow x5 2) (sliceConst x6 2)) k - mean (resid (rowOf (val_main_v129 (F := Ideal) x0 x1 x2 x3 x4 x5 x6 x7 x8) p) (rowOf (val_main_v153 (F := Ideal) x0 x1 x2 x3 x4 x5 x6 x7 x8) p) (sliceMat x2 2) (sliceRow x3 2) (sliceMat x4 2) (sliceRow x5 2) (sliceConst x6 2)))) := by
  have hi : ∀ c : Fin 256, idx_main_v175 (idx_main_v176 (ix2 p z)) c = ix2 p c := fun c => funext fun a => Fin.ext (by match a with | ⟨0, _⟩ => rfl | ⟨1, _⟩ => rfl)
  rw [val_main_v178_apply, val_main_v176_apply, val_main_v175_apply, val_main_cst_22_apply, val_main_v177_apply, val_main_cst_23_apply]
  simp only [hi, val_main_v174_apply, cen_2, Ideal.ofBits_def, Ideal.hostDivf_def, Ideal.mulf_def, Ideal.ofBits_zero_f32, zero_add]
  rfl

/-- The reciprocal square root of the variance plus the small constant, broadcast along the row. -/
theorem rstd_2 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 : (⟨S3x256, .f32⟩ : BufTy).Contents (Elt Ideal)) (x8 : (⟨S3x256, .f32⟩ : BufTy).Contents (Elt Ideal)) (p : Fin 100000) (q : Fin 256) :
    val_main_v184 (F := Ideal) x0 x1 x2 x3 x4 x5 x6 x7 x8 (ix2 p q) = Ideal.rsqrt (mean (fun k => ((resid (rowOf (val_main_v129 (F := Ideal) x0 x1 x2 x3 x4 x5 x6 x7 x8) p) (rowOf (val_main_v153 (F := Ideal) x0 x1 x2 x3 x4 x5 x6 x7 x8) p) (sliceMat x2 2) (sliceRow x3 2) (sliceMat x4 2) (sliceRow x5 2) (sliceConst x6 2)) k - mean (resid (rowOf (val_main_v129 (F := Ideal) x0 x1 x2 x3 x4 x5 x6 x7 x8) p) (rowOf (val_main_v153 (F := Ideal) x0 x1 x2 x3 x4 x5 x6 x7 x8) p) (sliceMat x2 2) (sliceRow x3 2) (sliceMat x4 2) (sliceRow x5 2) (sliceConst x6 2))) * ((resid (rowOf (val_main_v129 (F := Ideal) x0 x1 x2 x3 x4 x5 x6 x7 x8) p) (rowOf (val_main_v153 (F := Ideal) x0 x1 x2 x3 x4 x5 x6 x7 x8) p) (sliceMat x2 2) (sliceRow x3 2) (sliceMat x4 2) (sliceRow x5 2) (sliceConst x6 2)) k - mean (resid (rowOf (val_main_v129 (F := Ideal) x0 x1 x2 x3 x4 x5 x6 x7 x8) p) (rowOf (val_main_v153 (F := Ideal) x0 x1 x2 x3 x4 x5 x6 x7 x8) p) (sliceMat x2 2) (sliceRow x3 2) (sliceMat x4 2) (sliceRow x5 2) (sliceConst x6 2)))) + Ideal.ofBits .f32 0x3727C5AC#32) := by
  have hz : idx_main_v184 (ix2 p q) = ix2 p (0 : Fin 1) := funext fun a => Fin.ext (by match a with | ⟨0, _⟩ => rfl | ⟨1, _⟩ => rfl)
  rw [val_main_v184_apply, hz, val_main_v183_apply, val_main_v182_apply, var_2, val_main_v181_apply, val_main_cst_24_apply]
  rfl

/-- **Layer 2 of the reference, along a row**: its output at row `p`, feature `q` is the layer of row `p` of its input and of the aggregated array. -/
theorem layer2 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 x8 : (⟨S3x256, .f32⟩ : BufTy).Contents (Elt Ideal)) (p : Fin 100000) (q : Fin 256) :
    val_main_v192 (F := Ideal) x0 x1 x2 x3 x4 x5 x6 x7 x8 (ix2 p q)
      = ginRow (rowOf (val_main_v129 (F := Ideal) x0 x1 x2 x3 x4 x5 x6 x7 x8) p) (rowOf (val_main_v153 (F := Ideal) x0 x1 x2 x3 x4 x5 x6 x7 x8) p) (sliceMat x2 2) (sliceRow x3 2) (sliceMat x4 2) (sliceRow x5 2) (sliceConst x6 2) (sliceRow x7 2) (sliceRow x8 2) q := by
  rw [val_main_v192_apply, val_main_v191_apply, val_main_v188_apply, val_main_v185_apply, cen'_2, rstd_2, gamma_2, beta_2, val_main_call5_v0_apply, val_main_call5_cst_apply]
  rfl

end Cert.Gin.Ref

end
-- ==== Proof.RefNet.lean ====
/-
  The reference program's result as three layers of the node array.

  The reference computes each layer over the whole node array at once. Its aggregated array is the same host
  operations at every layer — gather the source rows of the current node array, add them into their destination rows
  of a zero array — so as a function of the node array it is one map, and the three layer lemmas compose into the
  network of Net.lean over that map.
-/
import proofs.«136586_j78194174591254_1_alg».proof.Proof.RefReadP
import proofs.«136586_j78194174591254_1_alg».proof.Proof.RefLayers
import proofs.«136586_j78194174591254_1_alg».proof.Proof.Net

noncomputable section

namespace Cert.Gin.RefNet

open Cert.ReferenceIdeal Cert.ReferenceIdeal.Read Idealize.ShloMosaic Idealize.ShloMosaic.ValueIdx Cert.Gin

/-- Layer 1's aggregated array is layer 0's aggregation applied to layer 0's output. -/
theorem agg1 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 x8 : (⟨S3x256, .f32⟩ : BufTy).Contents (Elt Ideal)) :
    val_main_v90 (F := Ideal) x0 x1 x2 x3 x4 x5 x6 x7 x8 = val_main_v27 (F := Ideal) (val_main_v66 (F := Ideal) x0 x1 x2 x3 x4 x5 x6 x7 x8) x1 := rfl

/-- Layer 2's aggregated array is the same aggregation applied to layer 1's output. -/
theorem agg2 (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 x8 : (⟨S3x256, .f32⟩ : BufTy).Contents (Elt Ideal)) :
    val_main_v153 (F := Ideal) x0 x1 x2 x3 x4 x5 x6 x7 x8 = val_main_v27 (F := Ideal) (val_main_v129 (F := Ideal) x0 x1 x2 x3 x4 x5 x6 x7 x8) x1 := rfl

/-- **The reference's result** is the three-layer network over its aggregation. -/
theorem ref_net (x0 : (⟨S100000x256, .f32⟩ : BufTy).Contents (Elt Ideal)) (x1 : (⟨S2x300000, .i32⟩ : BufTy).Contents (Elt Ideal)) (x2 : (⟨S3x256x256, .f32⟩ : BufTy).Contents (Elt Ideal)) (x3 : (⟨S3x256, .f32⟩ : BufTy).Contents (Elt Ideal)) (x4 : (⟨S3x256x256, .f32⟩ : BufTy).Contents (Elt Ideal)) (x5 : (⟨S3x256, .f32⟩ : BufTy).Contents (Elt Ideal)) (x6 : (⟨S3, .f32⟩ : BufTy).Contents (Elt Ideal)) (x7 x8 : (⟨S3x256, .f32⟩ : BufTy).Contents (Elt Ideal)) :
    val_main_v192 (F := Ideal) x0 x1 x2 x3 x4 x5 x6 x7 x8 = net (fun H => val_main_v27 (F := Ideal) H x1) x2 x3 x4 x5 x6 x7 x8 x0 := by
  have h0 : val_main_v66 (F := Ideal) x0 x1 x2 x3 x4 x5 x6 x7 x8 = layerOf (fun H => val_main_v27 (F := Ideal) H x1) x2 x3 x4 x5 x6 x7 x8 0 x0 :=
    eq_layerFn fun r q => Ref.layer0 x0 x1 x2 x3 x4 x5 x6 x7 x8 r q
  have h1 : val_main_v129 (F := Ideal) x0 x1 x2 x3 x4 x5 x6 x7 x8
      = layerOf (fun H => val_main_v27 (F := Ideal) H x1) x2 x3 x4 x5 x6 x7 x8 1 (val_main_v66 (F := Ideal) x0 x1 x2 x3 x4 x5 x6 x7 x8) :=
    eq_layerFn fun r q => by rw [Ref.layer1 x0 x1 x2 x3 x4 x5 x6 x7 x8 r q, agg1]
  have h2 : val_main_v192 (F := Ideal) x0 x1 x2 x3 x4 x5 x6 x7 x8
      = layerOf (fun H => val_main_v27 (F := Ideal) H x1) x2 x3 x4 x5 x6 x7 x8 2 (val_main_v129 (F := Ideal) x0 x1 x2 x3 x4 x5 x6 x7 x8) :=
    eq_layerFn fun r q => by rw [Ref.layer2 x0 x1 x2 x3 x4 x5 x6 x7 x8 r q, agg2]
  show _ = layerOf _ x2 x3 x4 x5 x6 x7 x8 2 (layerOf _ x2 x3 x4 x5 x6 x7 x8 1 (layerOf _ x2 x3 x4 x5 x6 x7 x8 0 x0))
  rw [← h0, ← h1]
  exact h2

end Cert.Gin.RefNet

end
-- ==== Proof.Claims.lean ====
/-
  The five claims.

  Both idealized programs end with the same array: the three-layer network of Net.lean applied to the argument
  arrays. The kernel program's result buffer is read off its run through the three pipelined regions
  (KernelFold.lean); the reference's is its composed term (RefNet.lean). The two aggregations are the same host
  operations — the programs name the gather's and the scatter's dimension records separately, with equal fields — so the
  two networks are one function, and from memories that agree on the arguments the results are equal. No property of
  the inputs is used. The frames are the generated ones; the kernel's idealization rewrote nothing.
-/
import proofs.«136586_j78194174591254_1_alg».proof.Defs
import proofs.«136586_j78194174591254_1_alg».proof.Proof.Gen.Kernel
import proofs.«136586_j78194174591254_1_alg».proof.Proof.Gen.KernelIdeal
import proofs.«136586_j78194174591254_1_alg».proof.Proof.Gen.ReferenceIdeal
import proofs.«136586_j78194174591254_1_alg».proof.Proof.Gen.Pre_finite_inputs
import proofs.«136586_j78194174591254_1_alg».proof.Proof.Gen.Kernel.Frame
import proofs.«136586_j78194174591254_1_alg».proof.Proof.Gen.KernelIdeal.Frame
import proofs.«136586_j78194174591254_1_alg».proof.Proof.KernelRun
import proofs.«136586_j78194174591254_1_alg».proof.Proof.KernelFold
import proofs.«136586_j78194174591254_1_alg».proof.Proof.RefRunHand
import proofs.«136586_j78194174591254_1_alg».proof.Proof.RefNet

noncomputable section

namespace Cert.Proof.GinClaims

open Idealize.ShloMosaic Idealize.ShloMosaic.TcCoe Idealize.SL.Sem Cert.Gin

/-- The kernel program's aggregation and the reference's are one map of the edge array and the node array. -/
theorem agg_bridge (E : (⟨Cert.KernelIdeal.S2x300000, .i32⟩ : BufTy).Contents (Elt Ideal))
    (H : (⟨Cert.KernelIdeal.S100000x256, .f32⟩ : BufTy).Contents (Elt Ideal)) :
    Cert.Gin.Fold.aggK E H = Cert.ReferenceIdeal.Read.val_main_v27 (F := Ideal) H E := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.Gin.RefRun.run (F := Ideal) m ρ)

theorem preserves : Cert.preserves_Kernel_KernelIdeal := trivial

/-- From memories agreeing on the arguments both programs end with the three-layer network of the arguments. -/
theorem algebraic : Cert.algebraic_KernelIdeal_ReferenceIdeal := by
  intro m ρ m' ρ' _ hagree
  refine ⟨fun c => net (Cert.Gin.Fold.aggK (m ((c.tc : Thread Cert.KernelIdeal.nD Cert.KernelIdeal.τ).loc Cert.KernelIdeal.main_arg1))) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg0)), ?_, ?_⟩
  · exact (θ_run Cert.KernelIdeal.defs _ _).mono (fun r h c => ⟨(h c).1.trans (Cert.Gin.Fold.foldK m ρ c), (h c).2⟩)
      (Cert.Gin.KRun.run_named m ρ)
  · refine (θ_run Cert.ReferenceIdeal.defs _ _).mono (fun r h c => ⟨(h c).1.trans ?_, (h c).2⟩)
      (Cert.Gin.RefRun.run (F := Ideal) m' ρ')
    obtain ⟨a0, a1, a2, a3, a4, a5, a6, a7, a8⟩ := hagree c
    rw [Cert.Gin.RefNet.ref_net, a0, a1, a2, a3, a4, a5, a6, a7, a8]
    exact congrArg (fun f => net f _ _ _ _ _ _ _ _) (funext fun H => (agg_bridge _ H).symm)

end Cert.Proof.GinClaims

end
-- ==== Proof.lean ====
/-
  The certificate of a three-layer graph network: a kernel program that computes each layer's per-node part in a
  pipelined region over blocks of 2000 nodes (the neighbour sum before it on the host), against a reference that
  computes every layer over the whole node array.

  A layer is z = (1 + ε)·h + agg, u = max(z·W₁ + b₁, 0), r = u·W₂ + b₂ + h, then r normalised by its row mean and
  variance, scaled, shifted and cut off below at 0 (Proof/GinRow.lean). Given the aggregated array it acts on every
  node's row separately, so a region's 50 blocks of rows are the rows of one whole-array layer (Proof/BlockRow.lean,
  Proof/RegionValue.lean), the reference's operations read at an index are the same row function
  (Proof/RefLayers.lean), and both programs end with the same three-layer network of the arguments
  (Proof/KernelFold.lean, Proof/RefNet.lean, Proof/Claims.lean). Both sides are the same operations in the same
  order; they differ only in how a sum is spelt, so the equality holds on all extended reals.
-/
import proofs.«136586_j78194174591254_1_alg».proof.Defs
import proofs.«136586_j78194174591254_1_alg».proof.Proof.Claims
import proofs.«136586_j78194174591254_1_alg».proof.Proof.Gen.Kernel
import proofs.«136586_j78194174591254_1_alg».proof.Proof.Gen.KernelIdeal
import proofs.«136586_j78194174591254_1_alg».proof.Proof.Gen.ReferenceIdeal
import proofs.«136586_j78194174591254_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GinClaims.frame_k, GinClaims.frame_ki, GinClaims.frame_ri, GinClaims.preserves, GinClaims.algebraic⟩

end Cert.Proof

end
